-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3072 : Shape := ⟨2, ![512, 3072]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S_ : Shape := ⟨0, ![]⟩

class Facts : Prop where
  bcast_S_S512x3072 : S_.BroadcastsInDim S512x3072 (![] : Fin 0 → Fin S512x3072.rank)
  reducesTo_S512x3072_S_d0_1 : S512x3072.ReducesTo [0, 1] S_
  h_S_ : 0 < S_.numel
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S1536 .f32) (main_arg5 : FVec F S512x512 .f32) (main_arg6 : FVec F S512 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S512x3072 .f32) (main_arg1 : FVec F S512 .f32) (main_arg2 : FVec F S512 .f32) (main_arg3 : FVec F S1536x512 .f32) (main_arg4 : FVec F S1536 .f32) (main_arg5 : FVec F S512x512 .f32) (main_arg6 : FVec F S512 .f32) : IVec S_ 1 :=
  let main_v0 : FVec F S512x3072 .f32 := Host.absf main_arg0
  let main_cst : FVec F S_ .f32 := constant S_ .f32 0x7F800000#32
  let main_v1 : FVec F S512x3072 .f32 := broadcastInDim S512x3072 ![] bcast_S_S512x3072 main_cst
  let main_v2 : IVec S512x3072 1 := cmpf .olt main_v0 main_v1
  let main_c : IVec S_ 1 := constantI S_ 1 1#1
  let main_v3 : IVec S_ 1 := (fun x v => Host.reduce IntOp.andi x v reducesTo_S512x3072_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1536x512 .f32 := Host.absf main_arg3
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg4 main_arg5 main_arg6 main_v13 main_v16
-- ==== Kernel.lean ====
abbrev S512x3072 : Shape := ⟨2, ![512, 3072]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S32x49152 : Shape := ⟨2, ![32, 49152]⟩
abbrev S_ : Shape := ⟨0, ![]⟩
abbrev S32 : Shape := ⟨1, ![32]⟩
abbrev S32x1 : Shape := ⟨2, ![32, 1]⟩
abbrev S32x16 : Shape := ⟨2, ![32, 16]⟩
abbrev S512x1 : Shape := ⟨2, ![512, 1]⟩
abbrev S8x64x3x512 : Shape := ⟨4, ![8, 64, 3, 512]⟩
abbrev S8x64x3 : Shape := ⟨3, ![8, 64, 3]⟩
abbrev S8x64x1x512 : Shape := ⟨4, ![8, 64, 1, 512]⟩
abbrev S8x64x512 : Shape := ⟨3, ![8, 64, 512]⟩
abbrev S8x64x1 : Shape := ⟨3, ![8, 64, 1]⟩
abbrev S8x64 : Shape := ⟨2, ![8, 64]⟩
abbrev S1536x1 : Shape := ⟨2, ![1536, 1]⟩
abbrev S1536x3072 : Shape := ⟨2, ![1536, 3072]⟩
abbrev S64x256 : Shape := ⟨2, ![64, 256]⟩
abbrev S64x3072 : Shape := ⟨2, ![64, 3072]⟩
abbrev S256x3072 : Shape := ⟨2, ![256, 3072]⟩
abbrev S256 : Shape := ⟨1, ![256]⟩
abbrev S256x1 : Shape := ⟨2, ![256, 1]⟩

abbrev nBuf : Space → Nat
  | .hbm => 80
  | .vmem => 24
  | .smem => 0
  | _ => 0

abbrev bufTy : (tb : Table) → Fin (tcTables nBuf tb) → BufTy
  | .hbm, ⟨0, _⟩ => ⟨S512x3072, .f32⟩
  | .hbm, ⟨1, _⟩ => ⟨S512, .f32⟩
  | .hbm, ⟨2, _⟩ => ⟨S512, .f32⟩
  | .hbm, ⟨3, _⟩ => ⟨S1536x512, .f32⟩
  | .hbm, ⟨4, _⟩ => ⟨S1536, .f32⟩
  | .hbm, ⟨5, _⟩ => ⟨S512x512, .f32⟩
  | .hbm, ⟨6, _⟩ => ⟨S512, .f32⟩
  | .hbm, ⟨7, _⟩ => ⟨S32x49152, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .i32⟩
  | .hbm, ⟨14, _⟩ => ⟨S_, .f32⟩
  | .hbm, ⟨15, _⟩ => ⟨S32, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x49152, .f32⟩
  | .hbm, ⟨21, _⟩ => ⟨S32x49152, .f32⟩
  | .hbm, ⟨22, _⟩ => ⟨S32x49152, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32, .f32⟩
  | .hbm, ⟨40, _⟩ => ⟨S32x16, .f32⟩
  | .hbm, ⟨41, _⟩ => ⟨S512, .f32⟩
  | .hbm, ⟨42, _⟩ => ⟨S512x1, .f32⟩
  | .hbm, ⟨43, _⟩ => ⟨S32x16, .f32⟩
  | .hbm, ⟨44, _⟩ => ⟨S512, .f32⟩
  | .hbm, ⟨45, _⟩ => ⟨S512x1, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S8x64x3x512, .f32⟩
  | .hbm, ⟨52, _⟩ => ⟨S8x64x3, .f32⟩
  | .hbm, ⟨53, _⟩ => ⟨S8x64x1x512, .f32⟩
  | .hbm, ⟨54, _⟩ => ⟨S8x64x512, .f32⟩
  | .hbm, ⟨55, _⟩ => ⟨S512x512, .f32⟩
  | .hbm, ⟨56, _⟩ => ⟨S8x64x1x512, .f32⟩
  | .hbm, ⟨57, _⟩ => ⟨S8x64x512, .f32⟩
  | .hbm, ⟨58, _⟩ => ⟨S512x512, .f32⟩
  | .hbm, ⟨59, _⟩ => ⟨S8x64x1x512, .f32⟩
  | .hbm, ⟨60, _⟩ => ⟨S8x64x512, .f32⟩
  | .hbm, ⟨61, _⟩ => ⟨S512x512, .f32⟩
  | .hbm, ⟨62, _⟩ => ⟨S8x64x1, .f32⟩
  | .hbm, ⟨63, _⟩ => ⟨S8x64, .f32⟩
  | .hbm, ⟨64, _⟩ => ⟨S512, .f32⟩
  | .hbm, ⟨65, _⟩ => ⟨S8x64x1, .f32⟩
  | .hbm, ⟨66, _⟩ => ⟨S8x64, .f32⟩
  | .hbm, ⟨67, _⟩ => ⟨S512, .f32⟩
  | .hbm, ⟨68, _⟩ => ⟨S8x64x1, .f32⟩
  | .hbm, ⟨69, _⟩ => ⟨S8x64, .f32⟩
  | .hbm, ⟨70, _⟩ => ⟨S512, .f32⟩
  | .hbm, ⟨71, _⟩ => ⟨S1536x512, .f32⟩
  | .hbm, ⟨72, _⟩ => ⟨S1536, .f32⟩
  | .hbm, ⟨73, _⟩ => ⟨S1536x1, .f32⟩
  | .hbm, ⟨74, _⟩ => ⟨S1536x512, .bf16⟩
  | .hbm, ⟨75, _⟩ => ⟨S1536x3072, .bf16⟩
  | .hbm, ⟨76, _⟩ => ⟨S512x3072, .bf16⟩
  | .hbm, ⟨77, _⟩ => ⟨S512x512, .bf16⟩
  | .hbm, ⟨78, _⟩ => ⟨S512x1, .f32⟩
  | .hbm, ⟨79, _⟩ => ⟨S512x3072, .f32⟩
  | .local _ .vmem, ⟨0, _⟩ => ⟨S512x512, .f32⟩
  | .local _ .vmem, ⟨1, _⟩ => ⟨S512x512, .f32⟩
  | .local _ .vmem, ⟨2, _⟩ => ⟨S512x1, .f32⟩
  | .local _ .vmem, ⟨3, _⟩ => ⟨S512x1, .f32⟩
  | .local _ .vmem, ⟨4, _⟩ => ⟨S1536x512, .bf16⟩
  | .local _ .vmem, ⟨5, _⟩ => ⟨S1536x1, .f32⟩
  | .local _ .vmem, ⟨6, _⟩ => ⟨S1536x512, .bf16⟩
  | .local _ .vmem, ⟨7, _⟩ => ⟨S1536x512, .bf16⟩
  | .local _ .vmem, ⟨8, _⟩ => ⟨S64x256, .bf16⟩
  | .local _ .vmem, ⟨9, _⟩ => ⟨S64x256, .bf16⟩
  | .local _ .vmem, ⟨10, _⟩ => ⟨S64x3072, .bf16⟩
  | .local _ .vmem, ⟨11, _⟩ => ⟨S64x3072, .bf16⟩
  | .local _ .vmem, ⟨12, _⟩ => ⟨S64x3072, .bf16⟩
  | .local _ .vmem, ⟨13, _⟩ => ⟨S64x3072, .bf16⟩
  | .local _ .vmem, ⟨14, _⟩ => ⟨S64x256, .bf16⟩
  | .local _ .vmem, ⟨15, _⟩ => ⟨S64x256, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x1, .f32⟩
  | .local _ .vmem, ⟨22, _⟩ => ⟨S512x512, .f32⟩
  | .local _ .vmem, ⟨23, _⟩ => ⟨S512x512, .f32⟩
  | _, _ => ⟨S512x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S64x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x3072 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![6], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S512x3072_S32x49152 : S512x3072.ShapeCasts S32x49152
  reducesTo_S32x49152_S32_d1 : S32x49152.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x49152_0_1 : S32x1.BroadcastsInDim S32x49152 (![0, 1] : Fin 2 → Fin S32x49152.rank)
  bcast_S32_S32x16_0 : S32.BroadcastsInDim S32x16 (![0] : Fin 1 → Fin S32x16.rank)
  shapeCasts_S32x16_S512 : S32x16.ShapeCasts S512
  shapeCasts_S512_S512x1 : S512.ShapeCasts S512x1
  shapeCasts_S1536x512_S8x64x3x512 : S1536x512.ShapeCasts S8x64x3x512
  shapeCasts_S1536_S8x64x3 : S1536.ShapeCasts S8x64x3
  slices_S8x64x3x512_S8x64x1x512_0_0_0_0 : S8x64x3x512.Slices ![0, 0, 0, 0] S8x64x1x512
  shapeCasts_S8x64x1x512_S8x64x512 : S8x64x1x512.ShapeCasts S8x64x512
  shapeCasts_S8x64x512_S512x512 : S8x64x512.ShapeCasts S512x512
  slices_S8x64x3x512_S8x64x1x512_0_0_1_0 : S8x64x3x512.Slices ![0, 0, 1, 0] S8x64x1x512
  slices_S8x64x3x512_S8x64x1x512_0_0_2_0 : S8x64x3x512.Slices ![0, 0, 2, 0] S8x64x1x512
  slices_S8x64x3_S8x64x1_0_0_0 : S8x64x3.Slices ![0, 0, 0] S8x64x1
  shapeCasts_S8x64x1_S8x64 : S8x64x1.ShapeCasts S8x64
  shapeCasts_S8x64_S512 : S8x64.ShapeCasts S512
  slices_S8x64x3_S8x64x1_0_0_1 : S8x64x3.Slices ![0, 0, 1] S8x64x1
  slices_S8x64x3_S8x64x1_0_0_2 : S8x64x3.Slices ![0, 0, 2] S8x64x1
  concatenates_S512x512_S512x512_S512x512_S1536x512_d0 : Shape.Concatenates [S512x512, S512x512, S512x512] S1536x512 0
  concatenates_S512_S512_S512_S1536_d0 : Shape.Concatenates [S512, S512, S512] S1536 0
  shapeCasts_S1536_S1536x1 : S1536.ShapeCasts S1536x1
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1536x512_S1536x512_0_0 : ∀ a, (![0, 0] : Fin 2 → Nat) a + S1536x512.size a ≤ S1536x512.size a
  h_S1536x512 : 0 < S1536x512.numel
  shapeCasts_S1536x512_S1536x512 : S1536x512.ShapeCasts S1536x512
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  broadcasts_S1536x1_S1536x512 : S1536x1.Broadcasts S1536x512
  packedbf16_S1536x512_S1536x512_0_0 : (Rect.unit (s := S1536x512) ![0, 0] S1536x512.size inb_S1536x512_S1536x512_0_0).PackedRows (EltTy.packing .bf16)
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x3072_S64x3072_0_0 : ∀ a, (![0, 0] : Fin 2 → Nat) a + S64x3072.size a ≤ S64x3072.size a
  h_S64x3072 : 0 < S64x3072.numel
  shapeCasts_S64x3072_S64x3072 : S64x3072.ShapeCasts S64x3072
  reduces_S256x3072_S256 : S256x3072.Reduces [1] S256
  shapeCasts_S256_S256x1 : S256.ShapeCasts S256x1
  broadcasts_S256x1_S256x3072 : S256x1.Broadcasts S256x3072
  packedbf16_S64x256_S64x256_0_0 : (Rect.unit (s := S64x256) ![0, 0] S64x256.size inb_S64x256_S64x256_0_0).PackedRows (EltTy.packing .bf16)
  shapeCasts_S512x512_S512x512 : S512x512.ShapeCasts S512x512
  dot_S1536x512_S512x512_S1536x512_1_0_0_1_n_n_wf : DotDims.WF S1536x512 S512x512 S1536x512 [1] [0] [0] [1] [] []
  dot_S64x256_S64x3072_S256x3072_0_0_1_1_n_n_wf : DotDims.WF S64x256 S64x3072 S256x3072 [0] [0] [1] [1] [] []
  dot_S64x3072_S256x3072_S64x256_1_1_0_0_n_n_wf : DotDims.WF S64x3072 S256x3072 S64x256 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x3072.size a
  hwx0_0 : ∀ i : grid0.Coords, EltTy.bits .f32 = 32 ∨ (Rect.block (s := S512x3072) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S512x1.size a
  hwx0_1 : ∀ i : grid0.Coords, EltTy.bits .f32 = 32 ∨ (Rect.block (s := S512x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x512.size a ≤ S1536x512.size a
  hwx0_3 : ∀ i : grid0.Coords, EltTy.bits .bf16 = 32 ∨ (Rect.block (s := S1536x512) S1536x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1536x1.size a ≤ S1536x1.size a
  hwx0_4 : ∀ i : grid0.Coords, EltTy.bits .f32 = 32 ∨ (Rect.block (s := S1536x1) S1536x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1536x512.size a ≤ S1536x3072.size a
  hwx0_5 : ∀ i : grid0.Coords, EltTy.bits .bf16 = 32 ∨ (Rect.block (s := S1536x3072) S1536x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S1536x3072.size a
  hwx1_0 : ∀ i : grid1.Coords, EltTy.bits .bf16 = 32 ∨ (Rect.block (s := S1536x3072) S64x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x3072.size a ≤ S1536x3072.size a
  hwx1_1 : ∀ i : grid1.Coords, EltTy.bits .bf16 = 32 ∨ (Rect.block (s := S1536x3072) S64x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x3072.size a ≤ S1536x3072.size a
  hwx1_2 : ∀ i : grid1.Coords, EltTy.bits .bf16 = 32 ∨ (Rect.block (s := S1536x3072) S64x3072.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x256.size a ≤ S512x3072.size a
  hwx1_3 : ∀ i : grid1.Coords, EltTy.bits .bf16 = 32 ∨ (Rect.block (s := S512x3072) S64x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S512x3072.size a
  hwx2_0 : ∀ i : grid2.Coords, EltTy.bits .f32 = 32 ∨ (Rect.block (s := S512x3072) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x3072.size a
  hwx2_1 : ∀ i : grid2.Coords, EltTy.bits .bf16 = 32 ∨ (Rect.block (s := S512x3072) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x512.size a ≤ S512x3072.size a
  hwx2_4 : ∀ i : grid2.Coords, EltTy.bits .f32 = 32 ∨ (Rect.block (s := S512x3072) S512x512.size (cc2_transform_4 i) (hinb2_4 i)).WholeWords (EltTy.packing .f32)

variable [Facts₀]

def dot_S1536x512_S512x512_S1536x512_1_0_0_1_n_n : DotDims S1536x512 S512x512 S1536x512 where
  lhsContracting := [1]
  rhsContracting := [0]
  lhsNonContracting := [0]
  rhsNonContracting := [1]
  lhsBatch := []
  rhsBatch := []
  wf := dot_S1536x512_S512x512_S1536x512_1_0_0_1_n_n_wf
def dot_S64x256_S64x3072_S256x3072_0_0_1_1_n_n : DotDims S64x256 S64x3072 S256x3072 where
  lhsContracting := [0]
  rhsContracting := [0]
  lhsNonContracting := [1]
  rhsNonContracting := [1]
  lhsBatch := []
  rhsBatch := []
  wf := dot_S64x256_S64x3072_S256x3072_0_0_1_1_n_n_wf
def dot_S64x3072_S256x3072_S64x256_1_1_0_0_n_n : DotDims S64x3072 S256x3072 S64x256 where
  lhsContracting := [1]
  rhsContracting := [1]
  lhsNonContracting := [0]
  rhsNonContracting := [0]
  lhsBatch := []
  rhsBatch := []
  wf := dot_S64x3072_S256x3072_S64x256_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1536x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1536x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S1536x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S64x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S64x3072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S64x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S512x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S512x3072 : Shape := ⟨2, ![512, 3072]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S32x49152 : Shape := ⟨2, ![32, 49152]⟩
abbrev S_ : Shape := ⟨0, ![]⟩
abbrev S32 : Shape := ⟨1, ![32]⟩
abbrev S32x1 : Shape := ⟨2, ![32, 1]⟩
abbrev S512x1 : Shape := ⟨2, ![512, 1]⟩
abbrev S1536x3072 : Shape := ⟨2, ![1536, 3072]⟩
abbrev S1536x1 : Shape := ⟨2, ![1536, 1]⟩
abbrev S8x64x3x3072 : Shape := ⟨4, ![8, 64, 3, 3072]⟩
abbrev S8x64x1x3072 : Shape := ⟨4, ![8, 64, 1, 3072]⟩
abbrev S8x64x3072 : Shape := ⟨3, ![8, 64, 3072]⟩
abbrev S8x3072x3072 : Shape := ⟨3, ![8, 3072, 3072]⟩
abbrev S8x3072 : Shape := ⟨2, ![8, 3072]⟩
abbrev S8x3072x1 : Shape := ⟨3, ![8, 3072, 1]⟩

abbrev nBuf : Space → Nat
  | .hbm => 90
  | .vmem => 0
  | .smem => 0
  | _ => 0

abbrev bufTy : (tb : Table) → Fin (tcTables nBuf tb) → BufTy
  | .hbm, ⟨0, _⟩ => ⟨S512x3072, .f32⟩
  | .hbm, ⟨1, _⟩ => ⟨S512, .f32⟩
  | .hbm, ⟨2, _⟩ => ⟨S512, .f32⟩
  | .hbm, ⟨3, _⟩ => ⟨S1536x512, .f32⟩
  | .hbm, ⟨4, _⟩ => ⟨S1536, .f32⟩
  | .hbm, ⟨5, _⟩ => ⟨S512x512, .f32⟩
  | .hbm, ⟨6, _⟩ => ⟨S512, .f32⟩
  | .hbm, ⟨7, _⟩ => ⟨S32x49152, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .i32⟩
  | .hbm, ⟨15, _⟩ => ⟨S_, .f32⟩
  | .hbm, ⟨16, _⟩ => ⟨S32, .f32⟩
  | .hbm, ⟨17, _⟩ => ⟨S32x1, .f32⟩
  | .hbm, ⟨18, _⟩ => ⟨S_, .f32⟩
  | .hbm, ⟨19, _⟩ => ⟨S32x1, .f32⟩
  | .hbm, ⟨20, _⟩ => ⟨S32x1, .f32⟩
  | .hbm, ⟨21, _⟩ => ⟨S32x49152, .f32⟩
  | .hbm, ⟨22, _⟩ => ⟨S32x49152, .f32⟩
  | .hbm, ⟨23, _⟩ => ⟨S32x49152, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32, .f32⟩
  | .hbm, ⟨29, _⟩ => ⟨S32x1, .f32⟩
  | .hbm, ⟨30, _⟩ => ⟨S32x1, .f32⟩
  | .hbm, ⟨31, _⟩ => ⟨S32x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S32x1, .f32⟩
  | .hbm, ⟨37, _⟩ => ⟨S32x1, .f32⟩
  | .hbm, ⟨38, _⟩ => ⟨S32x49152, .f32⟩
  | .hbm, ⟨39, _⟩ => ⟨S32x49152, .f32⟩
  | .hbm, ⟨40, _⟩ => ⟨S_, .f32⟩
  | .hbm, ⟨41, _⟩ => ⟨S32x1, .f32⟩
  | .hbm, ⟨42, _⟩ => ⟨S32x1, .f32⟩
  | .hbm, ⟨43, _⟩ => ⟨S32x1, .f32⟩
  | .hbm, ⟨44, _⟩ => ⟨S32x49152, .f32⟩
  | .hbm, ⟨45, _⟩ => ⟨S32x49152, .f32⟩
  | .hbm, ⟨46, _⟩ => ⟨S512x3072, .f32⟩
  | .hbm, ⟨47, _⟩ => ⟨S512x1, .f32⟩
  | .hbm, ⟨48, _⟩ => ⟨S512x3072, .f32⟩
  | .hbm, ⟨49, _⟩ => ⟨S512x3072, .f32⟩
  | .hbm, ⟨50, _⟩ => ⟨S512x1, .f32⟩
  | .hbm, ⟨51, _⟩ => ⟨S512x3072, .f32⟩
  | .hbm, ⟨52, _⟩ => ⟨S512x3072, .f32⟩
  | .hbm, ⟨53, _⟩ => ⟨S1536x3072, .f32⟩
  | .hbm, ⟨54, _⟩ => ⟨S1536x1, .f32⟩
  | .hbm, ⟨55, _⟩ => ⟨S1536x3072, .f32⟩
  | .hbm, ⟨56, _⟩ => ⟨S1536x3072, .f32⟩
  | .hbm, ⟨57, _⟩ => ⟨S8x64x3x3072, .f32⟩
  | .hbm, ⟨58, _⟩ => ⟨S8x64x1x3072, .f32⟩
  | .hbm, ⟨59, _⟩ => ⟨S8x64x3072, .f32⟩
  | .hbm, ⟨60, _⟩ => ⟨S8x64x1x3072, .f32⟩
  | .hbm, ⟨61, _⟩ => ⟨S8x64x3072, .f32⟩
  | .hbm, ⟨62, _⟩ => ⟨S8x64x1x3072, .f32⟩
  | .hbm, ⟨63, _⟩ => ⟨S8x64x3072, .f32⟩
  | .hbm, ⟨64, _⟩ => ⟨S8x3072x3072, .f32⟩
  | .hbm, ⟨65, _⟩ => ⟨S_, .f32⟩
  | .hbm, ⟨66, _⟩ => ⟨S_, .f32⟩
  | .hbm, ⟨67, _⟩ => ⟨S8x3072x3072, .f32⟩
  | .hbm, ⟨68, _⟩ => ⟨S8x3072x3072, .f32⟩
  | .hbm, ⟨69, _⟩ => ⟨S_, .f32⟩
  | .hbm, ⟨70, _⟩ => ⟨S8x3072, .f32⟩
  | .hbm, ⟨71, _⟩ => ⟨S_, .f32⟩
  | .hbm, ⟨72, _⟩ => ⟨S8x3072, .f32⟩
  | .hbm, ⟨73, _⟩ => ⟨S8x3072, .f32⟩
  | .hbm, ⟨74, _⟩ => ⟨S8x3072x1, .f32⟩
  | .hbm, ⟨75, _⟩ => ⟨S8x3072x3072, .f32⟩
  | .hbm, ⟨76, _⟩ => ⟨S8x3072x3072, .f32⟩
  | .hbm, ⟨77, _⟩ => ⟨S8x3072x3072, .f32⟩
  | .hbm, ⟨78, _⟩ => ⟨S_, .f32⟩
  | .hbm, ⟨79, _⟩ => ⟨S8x3072, .f32⟩
  | .hbm, ⟨80, _⟩ => ⟨S8x3072x1, .f32⟩
  | .hbm, ⟨81, _⟩ => ⟨S8x3072x3072, .f32⟩
  | .hbm, ⟨82, _⟩ => ⟨S8x3072x3072, .f32⟩
  | .hbm, ⟨83, _⟩ => ⟨S8x64x3072, .f32⟩
  | .hbm, ⟨84, _⟩ => ⟨S512x3072, .f32⟩
  | .hbm, ⟨85, _⟩ => ⟨S512x3072, .f32⟩
  | .hbm, ⟨86, _⟩ => ⟨S512x3072, .f32⟩
  | .hbm, ⟨87, _⟩ => ⟨S512x1, .f32⟩
  | .hbm, ⟨88, _⟩ => ⟨S512x3072, .f32⟩
  | .hbm, ⟨89, _⟩ => ⟨S512x3072, .f32⟩
  | _, _ => ⟨S512x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_3 : Ref sig .tc := ⟨.hbm, 69, rfl⟩
abbrev main_v35 : Ref sig .tc := ⟨.hbm, 70, rfl⟩
abbrev main_cst_4 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_5 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩

abbrev nD : Nat := 1
abbrev τ : Topo := Topo.v7x

variable {F : FTy → Type} [FloatOps F]

class Facts₀ : Prop where
  shapeCasts_S512x3072_S32x49152 : S512x3072.ShapeCasts S32x49152
  reducesTo_S32x49152_S32_d1 : S32x49152.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x49152_0_1 : S32x1.BroadcastsInDim S32x49152 (![0, 1] : Fin 2 → Fin S32x49152.rank)
  shapeCasts_S32x49152_S512x3072 : S32x49152.ShapeCasts S512x3072
  bcast_S512_S512x1_0 : S512.BroadcastsInDim S512x1 (![0] : Fin 1 → Fin S512x1.rank)
  bcast_S512x1_S512x3072_0_1 : S512x1.BroadcastsInDim S512x3072 (![0, 1] : Fin 2 → Fin S512x3072.rank)
  bcast_S1536_S1536x1_0 : S1536.BroadcastsInDim S1536x1 (![0] : Fin 1 → Fin S1536x1.rank)
  bcast_S1536x1_S1536x3072_0_1 : S1536x1.BroadcastsInDim S1536x3072 (![0, 1] : Fin 2 → Fin S1536x3072.rank)
  shapeCasts_S1536x3072_S8x64x3x3072 : S1536x3072.ShapeCasts S8x64x3x3072
  slices_S8x64x3x3072_S8x64x1x3072_0_0_0_0 : S8x64x3x3072.Slices ![0, 0, 0, 0] S8x64x1x3072
  shapeCasts_S8x64x1x3072_S8x64x3072 : S8x64x1x3072.ShapeCasts S8x64x3072
  slices_S8x64x3x3072_S8x64x1x3072_0_0_1_0 : S8x64x3x3072.Slices ![0, 0, 1, 0] S8x64x1x3072
  slices_S8x64x3x3072_S8x64x1x3072_0_0_2_0 : S8x64x3x3072.Slices ![0, 0, 2, 0] S8x64x1x3072
  bcast_S_S8x3072x3072 : S_.BroadcastsInDim S8x3072x3072 (![] : Fin 0 → Fin S8x3072x3072.rank)
  reducesTo_S8x3072x3072_S8x3072_d2 : S8x3072x3072.ReducesTo [2] S8x3072
  bcast_S_S8x3072 : S_.BroadcastsInDim S8x3072 (![] : Fin 0 → Fin S8x3072.rank)
  bcast_S8x3072_S8x3072x1_0_1 : S8x3072.BroadcastsInDim S8x3072x1 (![0, 1] : Fin 2 → Fin S8x3072x1.rank)
  bcast_S8x3072x1_S8x3072x3072_0_1_2 : S8x3072x1.BroadcastsInDim S8x3072x3072 (![0, 1, 2] : Fin 3 → Fin S8x3072x3072.rank)
  shapeCasts_S8x64x3072_S512x3072 : S8x64x3072.ShapeCasts S512x3072
  dot_S1536x512_S512x3072_S1536x3072_1_0_0_1_n_n_wf : DotDims.WF S1536x512 S512x3072 S1536x3072 [1] [0] [0] [1] [] []
  dot_S8x64x3072_S8x64x3072_S8x3072x3072_1_1_2_2_0_0_wf : DotDims.WF S8x64x3072 S8x64x3072 S8x3072x3072 [1] [1] [2] [2] [0] [0]
  dot_S8x64x3072_S8x3072x3072_S8x64x3072_2_2_1_1_0_0_wf : DotDims.WF S8x64x3072 S8x3072x3072 S8x64x3072 [2] [2] [1] [1] [0] [0]
  dot_S512x512_S512x3072_S512x3072_1_0_0_1_n_n_wf : DotDims.WF S512x512 S512x3072 S512x3072 [1] [0] [0] [1] [] []

variable [Facts₀]

def dot_S1536x512_S512x3072_S1536x3072_1_0_0_1_n_n : DotDims S1536x512 S512x3072 S1536x3072 where
  lhsContracting := [1]
  rhsContracting := [0]
  lhsNonContracting := [0]
  rhsNonContracting := [1]
  lhsBatch := []
  rhsBatch := []
  wf := dot_S1536x512_S512x3072_S1536x3072_1_0_0_1_n_n_wf
def dot_S8x64x3072_S8x64x3072_S8x3072x3072_1_1_2_2_0_0 : DotDims S8x64x3072 S8x64x3072 S8x3072x3072 where
  lhsContracting := [1]
  rhsContracting := [1]
  lhsNonContracting := [2]
  rhsNonContracting := [2]
  lhsBatch := [0]
  rhsBatch := [0]
  wf := dot_S8x64x3072_S8x64x3072_S8x3072x3072_1_1_2_2_0_0_wf
def dot_S8x64x3072_S8x3072x3072_S8x64x3072_2_2_1_1_0_0 : DotDims S8x64x3072 S8x3072x3072 S8x64x3072 where
  lhsContracting := [2]
  rhsContracting := [2]
  lhsNonContracting := [1]
  rhsNonContracting := [1]
  lhsBatch := [0]
  rhsBatch := [0]
  wf := dot_S8x64x3072_S8x3072x3072_S8x64x3072_2_2_1_1_0_0_wf
def dot_S512x512_S512x3072_S512x3072_1_0_0_1_n_n : DotDims S512x512 S512x3072 S512x3072 where
  lhsContracting := [1]
  rhsContracting := [0]
  lhsNonContracting := [0]
  rhsNonContracting := [1]
  lhsBatch := []
  rhsBatch := []
  wf := dot_S512x512_S512x3072_S512x3072_1_0_0_1_n_n_wf

class Facts : Prop extends Facts₀ where

variable [Facts]
-- ==== Proof.KDats.lean ====
/- The proof data of the three pipelines of the kernel program: for each region, the arrays its windows
   stage as the region finds them, what the body leaves in every staging buffer at a grid point (an input's
   block unchanged, the output's one whole-block store of the body's arithmetic over the input blocks), and
   what each point writes back to the output array. Region 1 reads ONE array (the q, k and v row blocks of the
   projected array) through three windows, so each of them holds a fraction of that array. -/
import proofs.«113005_j19404662243884_2_alg».proof.Proof.Gen.KernelIdeal.Regions
import proofs.«113005_j19404662243884_2_alg».proof.Proof.Gen.KernelIdeal.Skeleton
import proofs.«113005_j19404662243884_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Pipeline.Value

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A TensorCore's buffer contents when a region is entered. -/
abbrev Entry (F : FTy → Type) [FloatOps F] : Type :=
  (c : Dev nD) → (b : Ref sig .tc) → Buf (Elt F) ((c : Thread nD τ).loc b)

section Regions

variable (V : Entry F)

/-! ## Region 0: per-channel scale and shift, the 1536×512 projection, the bias -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x512 := Rect.unit (s := S512x512) ![0, 0] S512x512.size inb_S512x512_S512x512_0_0
abbrev r0_1 : Rect S512x1 := Rect.unit (s := S512x1) ![0, 0] S512x1.size inb_S512x1_S512x1_0_0
abbrev r0_3 : Rect S1536x512 := Rect.unit (s := S1536x512) ![0, 0] S1536x512.size inb_S1536x512_S1536x512_0_0
abbrev r0_4 : Rect S1536x1 := Rect.unit (s := S1536x1) ![0, 0] S1536x1.size inb_S1536x1_S1536x1_0_0

/-- The output buffer after the body: its one whole-block store, of the body's arithmetic over the five input blocks. -/
def out0_5 (x0 : Vec F S512x512 .f32) (x1 x2 : Vec F S512x1 .f32) (x3 : Vec F S1536x512 .bf16) (x4 : Vec F S1536x1 .f32) : Vec F S1536x512 .bf16 :=
  View.canon [⟨r0_3, k0_pay1 (View.ld x0 r0_0) (View.ld x1 r0_1) (View.ld x2 r0_1) (View.ld x3 r0_3) (View.ld x4 r0_4)⟩]

/-- Region 0's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## Region 1: one head's scores against every key, the softmax over the keys, the weighted values -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S64x256 := Rect.unit (s := S64x256) ![0, 0] S64x256.size inb_S64x256_S64x256_0_0
abbrev r1_1 : Rect S64x3072 := Rect.unit (s := S64x3072) ![0, 0] S64x3072.size inb_S64x3072_S64x3072_0_0

def out1_3 (x0 : Vec F S64x256 .bf16) (x1 x2 : Vec F S64x3072 .bf16) : Vec F S64x256 .bf16 :=
  View.canon [⟨r1_0, k1_pay1 (View.ld x0 r1_0) (View.ld x1 r1_1) (View.ld x2 r1_1)⟩]

/-- Region 1's proof data at the entry contents `V`. Its three input windows stage the same array: the query
    window holds the left half of it, the key window the left half of the right half, the value window the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

/-! ## Region 2: the 512×512 output projection, the residual, the bias -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S512x512 .f32) (x1 x2 : Vec F S512x512 .bf16) (x3 : Vec F S512x1 .f32) : Vec F S512x512 .f32 :=
  View.canon [⟨r0_0, k2_pay1 (View.ld x0 r0_0) (View.ld x1 r0_0) (View.ld x2 r0_0) (View.ld x3 r0_1)⟩]

/-- Region 2's proof data at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t
    = out2_4 (iblk2 V c 0 t) (iblk2 V c 1 t) (iblk2 V c 2 t) (iblk2 V c 3 t) := by dsimp only [dat2]

end Regions

/-! ## The family over the three pipelines, each at its region's entry contents -/

variable (m : (ℓ : Loc nD τ sig) → Buf (Elt F) ℓ) (outs : Gen.Outs (F := F))

/-- The TensorCore's buffers when region 0, 1, 2 is entered. -/
abbrev E0 : Entry F := fun c b => Gen.V3 m c b
abbrev E1 : Entry F := fun c b => Gen.V4 m outs c b
abbrev E2 : Entry F := fun c b => Gen.V6 m outs c b

/-- Every pipeline's proof data at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

theorem pdats_0 (c : Dev nD) : pdats m outs 0 c = dat0 (E0 m) c := rfl
theorem pdats_1 (c : Dev nD) : pdats m outs 1 c = dat1 (E1 m outs) c := rfl
theorem pdats_2 (c : Dev nD) : pdats m outs 2 c = dat2 (E2 m outs) c := rfl

/-! ## What each point writes back -/

theorem hz2 : (![0, 0] : Fin 2 → Nat) = fun _ => 0 := funext fun a => by fin_cases a <;> rfl

/-- Region 0's point `t` writes back the body's arithmetic over the five input blocks at `t`. -/
theorem flushed0 (c : Dev nD) (t : Fin cfg0.N) :
    (pdats m outs 0 c).flushed 5 t = (cfg0.win 5).cut (grid0.coords t)
      (out0_5 (iblk0 (E0 m) c 0 t) (iblk0 (E0 m) c 1 t) (iblk0 (E0 m) c 2 t) (iblk0 (E0 m) c 3 t) (iblk0 (E0 m) c 4 t)) := by
  show (cfg0.win 5).cut (grid0.coords t) ((dat0 (E0 m) c).after 5 t) = _
  rw [after0_5]

/-- Region 1's point `t` writes back the body's arithmetic over the query, key and value blocks at `t`. -/
theorem flushed1 (c : Dev nD) (t : Fin cfg1.N) :
    (pdats m outs 1 c).flushed 3 t = (cfg1.win 3).cut (grid1.coords t)
      (out1_3 (iblk1 (E1 m outs) c 0 t) (iblk1 (E1 m outs) c 1 t) (iblk1 (E1 m outs) c 2 t)) := by
  show (cfg1.win 3).cut (grid1.coords t) ((dat1 (E1 m outs) c).after 3 t) = _
  rw [after1_3]

/-- Region 2's point `t` writes back the body's arithmetic over the four input blocks at `t`. -/
theorem flushed2 (c : Dev nD) (t : Fin cfg2.N) :
    (pdats m outs 2 c).flushed 4 t = (cfg2.win 4).cut (grid2.coords t)
      (out2_4 (iblk2 (E2 m outs) c 0 t) (iblk2 (E2 m outs) c 1 t) (iblk2 (E2 m outs) c 2 t) (iblk2 (E2 m outs) c 3 t)) := by
  show (cfg2.win 4).cut (grid2.coords t) ((dat2 (E2 m outs) c).after 4 t) = _
  rw [after2_4]

/-- A whole-block store of a payload over whole-block loads leaves the payload of the blocks. -/
theorem out0_5_eq (x0 : Vec F S512x512 .f32) (x1 x2 : Vec F S512x1 .f32) (x3 : Vec F S1536x512 .bf16) (x4 : Vec F S1536x1 .f32) :
    out0_5 x0 x1 x2 x3 x4 = k0_pay1 x0 x1 x2 x3 x4 := by
  unfold out0_5
  rw [View.canon_unit_zero hz2]
  simp only [View.ld_unit_zero (S := S512x512) hz2, View.ld_unit_zero (S := S512x1) hz2,
    View.ld_unit_zero (S := S1536x512) hz2, View.ld_unit_zero (S := S1536x1) hz2]
theorem out1_3_eq (x0 : Vec F S64x256 .bf16) (x1 x2 : Vec F S64x3072 .bf16) :
    out1_3 x0 x1 x2 = k1_pay1 x0 x1 x2 := by
  unfold out1_3
  rw [View.canon_unit_zero hz2]
  simp only [View.ld_unit_zero (S := S64x256) hz2, View.ld_unit_zero (S := S64x3072) hz2]
theorem out2_4_eq (x0 : Vec F S512x512 .f32) (x1 x2 : Vec F S512x512 .bf16) (x3 : Vec F S512x1 .f32) :
    out2_4 x0 x1 x2 x3 = k2_pay1 x0 x1 x2 x3 := by
  unfold out2_4
  rw [View.canon_unit_zero hz2]
  simp only [View.ld_unit_zero (S := S512x512) hz2, View.ld_unit_zero (S := S512x1) hz2]

end Cert.KernelIdeal.Hand

end
-- ==== Proof.KState.lean ====
/- What rides beside a TensorCore's buffers between the items of the program: the core's generator register at
   some state and the core owing nothing. No level is assigned and no variant is used. -/
import proofs.«113005_j19404662243884_2_alg».proof.Proof.KDats
import Idealize.ShloMosaic.Lib.Pipeline.RegionsLoop
import Idealize.ShloMosaic.Lib.Pipeline.FrameSuffix

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- Beside the buffers: the generator register at some state, and nothing owed. -/
abbrev Rst (c : Dev nD) : sProp 𝕄 :=
  iprop((∃ r, prngReg c r) ∗ ∃ W, owes (c : Thread nD τ) (0 : CellTallies nD τ sig Unit) W)

/-- The same rest between any two items. -/
abbrev Erest : Fin 4 → Dev nD → sProp 𝕄 := fun _ c => Rst (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Body0.lean ====
/- Region 0's body at a grid point: the five input blocks are loaded whole, scaled and shifted per channel,
   multiplied by the projection matrix and biased, and the result is stored over the whole output block. -/
import proofs.«113005_j19404662243884_2_alg».proof.Proof.KDats
import Idealize.ShloMosaic.Lib.Ring
import Idealize.ShloMosaic.Lib.Tactic

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body's one store covers the output buffer -/

theorem cover0_5 (p0 : Vec F S1536x512 .bf16) (y : S1536x512.Idx) :
    ∃ pc ∈ ([⟨r0_3, p0⟩] : List (View.Piece (Elt F) S1536x512 .bf16)), y ∈ pc.1.set :=
  View.cover_of_tiled [⟨r0_3, p0⟩] S1536x512.size (by rfl) y

/-! ## The body's triple -/

-- the body's symbolic run carries the whole 512×512 and 1536×512 blocks through five loads, a matrix product and a store
set_option maxHeartbeats 1000000 in
/-- The kernel body on whole staging memrefs, the inputs' at contents `xW` and the output's at anything, runs to the
    continuation holding the inputs' as they were and the output's at `out0_5` of the inputs'. -/
theorem sound_kernel0 (c : Dev nD) (E : Set ℕ) (i : grid0.Coords) (arg0 : Memref sig .tc .vmem S512x512 .f32) (harg0 : arg0.IsWhole) (arg1 : Memref sig .tc .vmem S512x1 .f32) (harg1 : arg1.IsWhole) (arg2 : Memref sig .tc .vmem S512x1 .f32) (harg2 : arg2.IsWhole) (arg3 : Memref sig .tc .vmem S1536x512 .bf16) (harg3 : arg3.IsWhole) (arg4 : Memref sig .tc .vmem S1536x1 .f32) (harg4 : arg4.IsWhole) (arg5 : Memref sig .tc .vmem S1536x512 .bf16) (harg5 : arg5.IsWhole)
    (x0 : Vec F S512x512 .f32) (x1 : Vec F S512x1 .f32) (x2 : Vec F S512x1 .f32) (x3 : Vec F S1536x512 .bf16) (x4 : Vec F S1536x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__qkv_kernel i arg0 harg0 arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg0.lean ====
/- Region 0 as a segment of the program: from the buffers after the host stretch that prepares the scale, the shift and
   the reordered weights, to the same buffers with the projected array at what the six points wrote back. -/
import proofs.«113005_j19404662243884_2_alg».proof.Proof.KState
import proofs.«113005_j19404662243884_2_alg».proof.Proof.Body0

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- At the region's exit an input array holds what it held at entry, -/
theorem hF0_in (c : Dev nD) (w : Fin 6) (hw : (cfg0.win w).isOut = false) (hne : Pipeline.arrRef spec0 w ∉ ([main_v43] : List (Ref sig .tc))) :
    (dat0 (E0 m) c).arrAt w cfg0.N = E1 m outs c (Pipeline.arrRef spec0 w) :=
  ((dat0 (E0 m) c).arrAt_in w hw _).trans ((A_eq0 _ c w).trans (Gen.V4_of m outs c _ hne).symm)

/-- and the output array the write-backs of all the points. -/
theorem hF0_out (hout : ∀ c, outs 4 main_v43 c = (dat0 (E0 m) c).arrAt 5 cfg0.N) (c : Dev nD) :
    (dat0 (E0 m) c).arrAt 5 cfg0.N = E1 m outs c (Pipeline.arrRef spec0 5) := by
  rw [← hout c]
  exact (Function.update_self (f := Gen.V3 m c) (Proc.devRef .tc main_v43) (outs 4 main_v43 c)).symm

/-- Window by window: at the region's exit every array behind a window holds what the exit contents say — the inputs
    unchanged, the projected array at what the six points wrote back. -/
theorem hF0 (hout : ∀ c, outs 4 main_v43 c = (dat0 (E0 m) c).arrAt 5 cfg0.N) (c : Dev nD) :
    ∀ w : Fin 6, (dat0 (E0 m) c).arrAt w cfg0.N = E1 m outs c (Pipeline.arrRef spec0 w)
  | 0 => hF0_in m outs c 0 rfl (by decide)
  | 1 => hF0_in m outs c 1 rfl (by decide)
  | 2 => hF0_in m outs c 2 rfl (by decide)
  | 3 => hF0_in m outs c 3 rfl (by decide)
  | 4 => hF0_in m outs c 4 rfl (by decide)
  | 5 => hF0_out m outs hout c
  | ⟨_ + 6, h⟩ => absurd h (Nat.not_lt.2 (Nat.le_add_left _ _))

/-- Every other buffer holds what it held at entry. -/
theorem hrest0 (c : Dev nD) : ∀ b, b ∉ Finset.univ.image (Pipeline.arrRef spec0) → E1 m outs c b = E0 m c b :=
  fun b hb => Gen.V4_of m outs c b fun h => hb (Finset.mem_image.mpr ⟨5, Finset.mem_univ _,
    (by decide : Pipeline.arrRef spec0 (5 : Fin 6) = main_v43).trans (List.mem_singleton.mp h).symm⟩)

set_option backward.isDefEq.respectTransparency.types false in
/-- The region over the thread state: entered from every unscoped buffer at the entry contents, left at the exit
    contents. Its arrays are split out of the unscoped buffers and put back; the generator register goes into the
    pipeline's invariant and comes out; nothing is owed; the kernel has no semaphore of its own. -/
def R0 (hout : ∀ c, outs 4 main_v43 c = (dat0 (E0 m) c).arrAt 5 cfg0.N) :
    Pipeline.RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m outs c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (E0 m c) (E1 m outs c) ((pdats m outs 0 c).arrAt · cfg0.N) (hF0 m outs hout c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R0_pre (hout : ∀ c, outs 4 main_v43 c = (dat0 (E0 m) c).arrAt 5 cfg0.N) (c : Dev nD) :
    (R0 m outs hout).pre c = iprop(StableHlo.held (c : Thread nD τ) (Pipeline.ucRefs τ sig) (Gen.V3 m c) ∗ Rst c) := rfl
/-- and left at the same with the projected array replaced by what the region's points wrote back. -/
theorem R0_post (hout : ∀ c, outs 4 main_v43 c = (dat0 (E0 m) c).arrAt 5 cfg0.N) (c : Dev nD) :
    (R0 m outs hout).post c = iprop(StableHlo.held (c : Thread nD τ) (Pipeline.ucRefs τ sig) (Gen.V4 m outs c) ∗ Rst c) := rfl

end Cert.KernelIdeal.Hand

end
-- ==== Proof.Body1.lean ====
/- Region 1's body at a grid point: one head's query block against all its keys, scaled, the softmax along the
   keys, the weights applied to the values; the result is stored over the whole output block. -/
import proofs.«113005_j19404662243884_2_alg».proof.Proof.KDats
import Idealize.ShloMosaic.Lib.Ring
import Idealize.ShloMosaic.Lib.Tactic

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's one store covers the output buffer -/

theorem cover1_3 (p0 : Vec F S64x256 .bf16) (y : S64x256.Idx) :
    ∃ pc ∈ ([⟨r1_0, p0⟩] : List (View.Piece (Elt F) S64x256 .bf16)), y ∈ pc.1.set :=
  View.cover_of_tiled [⟨r1_0, p0⟩] S64x256.size (by rfl) y

/-! ## The body's triple -/

-- the body's symbolic run carries a 64×256 block and two 64×3072 blocks through two matrix products and a 256×3072 softmax
set_option maxHeartbeats 1000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (arg0 : Memref sig .tc .vmem S64x256 .bf16) (harg0 : arg0.IsWhole) (arg1 : Memref sig .tc .vmem S64x3072 .bf16) (harg1 : arg1.IsWhole) (arg2 : Memref sig .tc .vmem S64x3072 .bf16) (harg2 : arg2.IsWhole) (arg3 : Memref sig .tc .vmem S64x256 .bf16) (harg3 : arg3.IsWhole)
    (x0 : Vec F S64x256 .bf16) (x1 : Vec F S64x3072 .bf16) (x2 : Vec F S64x3072 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg1.lean ====
/- Region 1 as a segment of the program. Its query, key and value windows all stage the projected array, so the array's
   whole share is dealt among them at entry — a half, a quarter, a quarter — and gathered again at exit; the attention
   array ends at what the ninety-six points wrote back. -/
import proofs.«113005_j19404662243884_2_alg».proof.Proof.KState
import proofs.«113005_j19404662243884_2_alg».proof.Proof.Body1

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- The TensorCore's buffers when region 1 is left. -/
abbrev E1x : Entry F := fun c b => Gen.V5 m outs c b

/-- At the region's exit an input array holds what it held at entry, -/
theorem hF1_in (c : Dev nD) (w : Fin 4) (hw : (cfg1.win w).isOut = false) (hne : Pipeline.arrRef spec1 w ∉ ([main_v44] : List (Ref sig .tc))) :
    (dat1 (E1 m outs) c).arrAt w cfg1.N = E1x m outs c (Pipeline.arrRef spec1 w) :=
  ((dat1 (E1 m outs) c).arrAt_in w hw _).trans ((A_eq1 _ c w).trans (Gen.V5_of m outs c _ hne).symm)

/-- and the output array the write-backs of all the points. -/
theorem hF1_out (hout : ∀ c, outs 5 main_v44 c = (dat1 (E1 m outs) c).arrAt 3 cfg1.N) (c : Dev nD) :
    (dat1 (E1 m outs) c).arrAt 3 cfg1.N = E1x m outs c (Pipeline.arrRef spec1 3) := by
  rw [← hout c]
  exact (Function.update_self (f := Gen.V4 m outs c) (Proc.devRef .tc main_v44) (outs 5 main_v44 c)).symm

/-- Window by window: at the region's exit every array behind a window holds what the exit contents say — the inputs
    unchanged, the attention array at what the ninety-six points wrote back. -/
theorem hF1 (hout : ∀ c, outs 5 main_v44 c = (dat1 (E1 m outs) c).arrAt 3 cfg1.N) (c : Dev nD) :
    ∀ w : Fin 4, (dat1 (E1 m outs) c).arrAt w cfg1.N = E1x m outs c (Pipeline.arrRef spec1 w)
  | 0 => hF1_in m outs c 0 rfl (by decide)
  | 1 => hF1_in m outs c 1 rfl (by decide)
  | 2 => hF1_in m outs c 2 rfl (by decide)
  | 3 => hF1_out m outs hout c
  | ⟨_ + 4, h⟩ => absurd h (Nat.not_lt.2 (Nat.le_add_left _ _))

/-- Every other buffer holds what it held at entry. -/
theorem hrest1 (c : Dev nD) : ∀ b, b ∉ Finset.univ.image (Pipeline.arrRef spec1) → E1x m outs c b = E1 m outs c b :=
  fun b hb => Gen.V5_of m outs c b fun h => hb (Finset.mem_image.mpr ⟨3, Finset.mem_univ _,
    (by decide : Pipeline.arrRef spec1 (3 : Fin 4) = main_v44).trans (List.mem_singleton.mp h).symm⟩)

/-! ## One array behind three windows -/

/-- The distinct buffers behind region 1's windows: the projected array and the attention array. -/
theorem img1 : Finset.univ.image (Pipeline.arrRef spec1) = ([main_v43, main_v44] : List (Ref sig .tc)).toFinset := by decide

section Shares
variable (V : Entry F) (c : Dev nD) (G : (w : Fin cfg1.W) → Buf (Elt F) ((cfg1.win w).arr.view.loc (c.tc : Thread nD τ)))

/-- The query window's array is the projected array, held at the left half of its share. -/
theorem arr1_0 : (View.loc c.tc (cfg1.win 0).arr.view ↦[(cfg1.win 0).arr.view.set]{(dat1 V c).share 0} G 0 : sProp 𝕄)
    = ((c : Thread nD τ).loc main_v43 ↦{fullShare.left} G 0) := by
  rw [(arr_whole1 0).set_eq_univ]; rfl
/-- The key window's array is the same projected array, held at the left half of the right half. -/
theorem arr1_1 : (View.loc c.tc (cfg1.win 1).arr.view ↦[(cfg1.win 1).arr.view.set]{(dat1 V c).share 1} G 1 : sProp 𝕄)
    = ((c : Thread nD τ).loc main_v43 ↦{fullShare.right.left} G 1) := by
  rw [(arr_whole1 1).set_eq_univ]; rfl
/-- The value window's array is the same projected array again, held at the remaining quarter. -/
theorem arr1_2 : (View.loc c.tc (cfg1.win 2).arr.view ↦[(cfg1.win 2).arr.view.set]{(dat1 V c).share 2} G 2 : sProp 𝕄)
    = ((c : Thread nD τ).loc main_v43 ↦{fullShare.right.right} G 2) := by
  rw [(arr_whole1 2).set_eq_univ]; rfl
/-- The output window's array is the attention array, held whole. -/
theorem arr1_3 : (View.loc c.tc (cfg1.win 3).arr.view ↦[(cfg1.win 3).arr.view.set]{(dat1 V c).share 3} G 3 : sProp 𝕄)
    = ((c : Thread nD τ).loc main_v44 ↦{fullShare} G 3) := by
  rw [(arr_whole1 3).set_eq_univ]; rfl

/-- The two buffers whole at contents `Vc` ARE the pipeline's four arrays at contents that read `Vc`: the projected
    array's share splits into the three input windows' and joins back. -/
theorem arrays1_iff (Vc : (b : Ref sig .tc) → Buf (Elt F) ((c.tc : Thread nD τ).loc b))
    (hG : ∀ w, G w = Vc (Pipeline.arrRef spec1 w)) :
    (Pipeline.arrBufs (Ix := Unit) (Name := ℕ) (U := UR sig nD τ) (Lvl := ℕ) spec1 c Vc : sProp 𝕄) ⊣⊢ (dat1 V c).arrays G := by
  unfold Pipeline.arrBufs Dat.arrays
  rw [bigSep_eq_bigSepL_of_eq [main_v43, main_v44] img1 (by decide), bigSep_W1, arr1_0, arr1_1, arr1_2, arr1_3,
    hG 0, hG 1, hG 2, hG 3]
  show (iprop(((c : Thread nD τ).loc main_v43 ↦{fullShare} Vc main_v43) ∗ ((c : Thread nD τ).loc main_v44 ↦{fullShare} Vc main_v44)) : sProp 𝕄) ⊣⊢ _
  constructor
  · iintro ⟨H43, H44⟩
    ihave Hs := (pointsTo_share (PosShare.mem_left_op_right fullShare)).1 $$ H43
    icases Hs with ⟨Hl, Hr⟩
    ihave Hs2 := (pointsTo_share (PosShare.mem_left_op_right fullShare.right)).1 $$ Hr
    icases Hs2 with ⟨Hrl, Hrr⟩
    isplitl [Hl]; · iexact Hl
    isplitl [Hrl]; · iexact Hrl
    isplitl [Hrr]; · iexact Hrr
    iexact H44
  · iintro ⟨Hl, Hrl, Hrr, H44⟩
    isplitr [H44]
    · iapply (pointsTo_share (PosShare.mem_left_op_right fullShare)).2
      isplitl [Hl]; · iexact Hl
      iapply (pointsTo_share (PosShare.mem_left_op_right fullShare.right)).2
      isplitl [Hrl] <;> iassumption
    iexact H44

end Shares

set_option backward.isDefEq.respectTransparency.types false in
/-- The region over the thread state: entered from every unscoped buffer at the entry contents, left at the exit
    contents. The two buffers behind its windows are split out of the unscoped buffers and dealt to the four windows,
    and gathered and put back at exit; the generator register goes into the pipeline's invariant and comes out;
    nothing is owed; the kernel has no semaphore of its own. -/
def R1 (hout : ∀ c, outs 5 main_v44 c = (dat1 (E1 m outs) c).arrAt 3 cfg1.N) :
    Pipeline.RegionSeg (pcfgs (F := F)) Gen.adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (Gen.V4 m outs c) ∗ Rst c)
  post c := iprop(StableHlo.held (c : Thread nD τ) (Pipeline.ucRefs τ sig) (Gen.V5 m outs c) ∗ Rst c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hub : (unscopedBufs c (E1 m outs c) : sProp 𝕄) = iprop(Pipeline.arrBufs spec1 c (E1 m outs c) ∗ Pipeline.unscopedRest spec1 c (E1 m outs c)) :=
      Pipeline.unscopedBufs_split₀ (Ix := Unit) (Name := ℕ) (U := UR sig nD τ) (Lvl := ℕ) (Pipeline.pin (pcfgs (F := F)) Gen.adm) 1
        winFacts₀1.arr_unscoped c (E1 m outs c)
    rw [Pipeline.unscopedBufs_held] at hub
    iintro ⟨⟨Hub, Hp, HO⟩, -, -⟩
    ihave H := (Entails.of_eq hub) $$ Hub
    icases H with ⟨Ha, Hrest⟩
    ihave Ha' := (arrays1_iff (E1 m outs) c ((pdats m outs 1 c).arrAt · 0) (E1 m outs c) (fun _ => rfl)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hub : (unscopedBufs c (E1x m outs c) : sProp 𝕄) = iprop(Pipeline.arrBufs spec1 c (E1x m outs c) ∗ Pipeline.unscopedRest spec1 c (E1x m outs c)) :=
      Pipeline.unscopedBufs_split₀ (Ix := Unit) (Name := ℕ) (U := UR sig nD τ) (Lvl := ℕ) (Pipeline.pin (pcfgs (F := F)) Gen.adm) 1
        winFacts₀1.arr_unscoped c (E1x m outs c)
    rw [Pipeline.unscopedBufs_held] at hub
    have hrestEq : (Pipeline.unscopedRest (Ix := Unit) (Name := ℕ) (U := UR sig nD τ) (Lvl := ℕ) spec1 c (E1 m outs c) : sProp 𝕄)
        = Pipeline.unscopedRest spec1 c (E1x m outs c) := by
      unfold Pipeline.unscopedRest
      exact bigSep_congr fun b hb => by rw [hrest1 m outs c b (Finset.mem_sdiff.mp hb).2]
    iintro ⟨Ha, HO, HY, Hrest⟩
    imodintro
    isplitl [Ha Hrest]
    · iapply (Entails.of_eq hub.symm)
      isplitl [Ha]
      · iapply (arrays1_iff (E1 m outs) c ((pdats m outs 1 c).arrAt · cfg1.N) (E1x m outs c) (hF1 m outs hout c)).2
        iexact Ha
      iapply (Entails.of_eq hrestEq); iexact Hrest
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R1_pre (hout : ∀ c, outs 5 main_v44 c = (dat1 (E1 m outs) c).arrAt 3 cfg1.N) (c : Dev nD) :
    (R1 m outs hout).pre c = iprop(StableHlo.held (c : Thread nD τ) (Pipeline.ucRefs τ sig) (Gen.V4 m outs c) ∗ Rst c) := rfl
/-- and left at the same with the attention array replaced by what the region's points wrote back. -/
theorem R1_post (hout : ∀ c, outs 5 main_v44 c = (dat1 (E1 m outs) c).arrAt 3 cfg1.N) (c : Dev nD) :
    (R1 m outs hout).post c = iprop(StableHlo.held (c : Thread nD τ) (Pipeline.ucRefs τ sig) (Gen.V5 m outs c) ∗ Rst c) := rfl

end Cert.KernelIdeal.Hand

end
-- ==== Proof.Body2.lean ====
/- Region 2's body at a grid point: the attention block multiplied by the output projection, added to the
   input block and the bias; the result is stored over the whole output block. -/
import proofs.«113005_j19404662243884_2_alg».proof.Proof.KDats
import Idealize.ShloMosaic.Lib.Ring
import Idealize.ShloMosaic.Lib.Tactic

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body's one store covers the output buffer -/

theorem cover2_4 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-! ## The body's triple -/

-- the body's symbolic run carries four whole 512×512 blocks through a matrix product, two additions and a store
set_option maxHeartbeats 1000000 in
/-- The kernel body on whole staging memrefs, the inputs' at contents `xW` and the output's at anything, runs to the
    continuation holding the inputs' as they were and the output's at `out2_4` of the inputs'. -/
theorem sound_kernel2 (c : Dev nD) (E : Set ℕ) (i : grid2.Coords) (arg0 : Memref sig .tc .vmem S512x512 .f32) (harg0 : arg0.IsWhole) (arg1 : Memref sig .tc .vmem S512x512 .bf16) (harg1 : arg1.IsWhole) (arg2 : Memref sig .tc .vmem S512x512 .bf16) (harg2 : arg2.IsWhole) (arg3 : Memref sig .tc .vmem S512x1 .f32) (harg3 : arg3.IsWhole) (arg4 : Memref sig .tc .vmem S512x512 .f32) (harg4 : arg4.IsWhole)
    (x0 : Vec F S512x512 .f32) (x1 : Vec F S512x512 .bf16) (x2 : Vec F S512x512 .bf16) (x3 : Vec F S512x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__proj_kernel i arg0 harg0 arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Reg2.lean ====
/- Region 2 as a segment of the program: from the buffers after the host stretch that rounds the output projection and
   reshapes its bias, to the same buffers with the result array at what the six points wrote back. -/
import proofs.«113005_j19404662243884_2_alg».proof.Proof.KState
import proofs.«113005_j19404662243884_2_alg».proof.Proof.Body2

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- The TensorCore's buffers when region 2 is left. -/
abbrev E3 : Entry F := fun c b => Gen.V7 m outs c b

/-- At the region's exit an input array holds what it held at entry, -/
theorem hF2_in (c : Dev nD) (w : Fin 5) (hw : (cfg2.win w).isOut = false) (hne : Pipeline.arrRef spec2 w ∉ ([main_v47] : List (Ref sig .tc))) :
    (dat2 (E2 m outs) c).arrAt w cfg2.N = E3 m outs c (Pipeline.arrRef spec2 w) :=
  ((dat2 (E2 m outs) c).arrAt_in w hw _).trans ((A_eq2 _ c w).trans (Gen.V7_of m outs c _ hne).symm)

/-- and the output array the write-backs of all the points. -/
theorem hF2_out (hout : ∀ c, outs 7 main_v47 c = (dat2 (E2 m outs) c).arrAt 4 cfg2.N) (c : Dev nD) :
    (dat2 (E2 m outs) c).arrAt 4 cfg2.N = E3 m outs c (Pipeline.arrRef spec2 4) := by
  rw [← hout c]
  exact (Function.update_self (f := Gen.V6 m outs c) (Proc.devRef .tc main_v47) (outs 7 main_v47 c)).symm

/-- Window by window: at the region's exit every array behind a window holds what the exit contents say — the inputs
    unchanged, the result array at what the six points wrote back. -/
theorem hF2 (hout : ∀ c, outs 7 main_v47 c = (dat2 (E2 m outs) c).arrAt 4 cfg2.N) (c : Dev nD) :
    ∀ w : Fin 5, (dat2 (E2 m outs) c).arrAt w cfg2.N = E3 m outs c (Pipeline.arrRef spec2 w)
  | 0 => hF2_in m outs c 0 rfl (by decide)
  | 1 => hF2_in m outs c 1 rfl (by decide)
  | 2 => hF2_in m outs c 2 rfl (by decide)
  | 3 => hF2_in m outs c 3 rfl (by decide)
  | 4 => hF2_out m outs hout c
  | ⟨_ + 5, h⟩ => absurd h (Nat.not_lt.2 (Nat.le_add_left _ _))

/-- Every other buffer holds what it held at entry. -/
theorem hrest2 (c : Dev nD) : ∀ b, b ∉ Finset.univ.image (Pipeline.arrRef spec2) → E3 m outs c b = E2 m outs c b :=
  fun b hb => Gen.V7_of m outs c b fun h => hb (Finset.mem_image.mpr ⟨4, Finset.mem_univ _,
    (by decide : Pipeline.arrRef spec2 (4 : Fin 5) = main_v47).trans (List.mem_singleton.mp h).symm⟩)

set_option backward.isDefEq.respectTransparency.types false in
/-- The region over the thread state: entered from every unscoped buffer at the entry contents, left at the exit
    contents. Its arrays are split out of the unscoped buffers and put back; the generator register goes into the
    pipeline's invariant and comes out; nothing is owed; the kernel has no semaphore of its own. -/
def R2 (hout : ∀ c, outs 7 main_v47 c = (dat2 (E2 m outs) c).arrAt 4 cfg2.N) :
    Pipeline.RegionSeg (pcfgs (F := F)) Gen.adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (Gen.V6 m outs c) ∗ Rst c)
  post c := iprop(StableHlo.held (c : Thread nD τ) (Pipeline.ucRefs τ sig) (Gen.V7 m outs c) ∗ Rst c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) (E2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      (E2 m outs c) (E3 m outs c) ((pdats m outs 2 c).arrAt · cfg2.N) (hF2 m outs hout c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R2_pre (hout : ∀ c, outs 7 main_v47 c = (dat2 (E2 m outs) c).arrAt 4 cfg2.N) (c : Dev nD) :
    (R2 m outs hout).pre c = iprop(StableHlo.held (c : Thread nD τ) (Pipeline.ucRefs τ sig) (Gen.V6 m outs c) ∗ Rst c) := rfl
/-- and left at the same with the result array replaced by what the region's points wrote back. -/
theorem R2_post (hout : ∀ c, outs 7 main_v47 c = (dat2 (E2 m outs) c).arrAt 4 cfg2.N) (c : Dev nD) :
    (R2 m outs hout).post c = iprop(StableHlo.held (c : Thread nD τ) (Pipeline.ucRefs τ sig) (Gen.V7 m outs c) ∗ Rst c) := rfl

end Cert.KernelIdeal.Hand

end
-- ==== Proof.Run.lean ====
/- The kernel program's run through its three regions with the result array named: what each region leaves in its
   output array is defined region by region — the projected array from the buffers after the first host stretches,
   the attention array from the buffers holding that, the result from the buffers holding both — and every weakly fair
   execution from a memory with zero counters ends with the result array at the last of these and the seven
   arguments as launched. -/
import proofs.«113005_j19404662243884_2_alg».proof.Proof.Reg0
import proofs.«113005_j19404662243884_2_alg».proof.Proof.Reg1
import proofs.«113005_j19404662243884_2_alg».proof.Proof.Reg2

-- the blocks' extents (up to 1536×3072) are walked a coordinate at a time where a rectangle's membership is decided
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Pipeline (Seg HostSeg RegionSeg)

local notation "𝕄" => MT nD τ sig Unit (Elt F) ℕ (UR sig nD τ) ℕ

variable (m : (ℓ : Loc nD τ sig) → Buf (Elt F) ℓ) (ρ : Dev nD → PrngReg)

/-! ## What the regions leave, region by region -/

/-- The projected array after region 0: the six points' write-backs over the buffers the host stretches leave. -/
def o4 (c : Dev nD) : Buf (Elt F) ((c : Thread nD τ).loc main_v43) := (dat0 (E0 m) c).arrAt 5 cfg0.N
/-- The buffers after region 0: those the host stretches leave, the projected array replaced by `o4`. -/
def X4 (c : Dev nD) : Valuation τ sig (Elt F) := Function.update (Gen.V3 m c) main_v43 (o4 m c)
/-- Region 1's entry contents: the buffers after region 0, read at the TensorCore's references. -/
abbrev EX4 : Entry F := fun c b => X4 m c b
/-- The attention array after region 1: the ninety-six points' write-backs, computed from the entry contents `EX4`. -/
def o5 (c : Dev nD) : Buf (Elt F) ((c : Thread nD τ).loc main_v44) := (dat1 (EX4 m) c).arrAt 3 cfg1.N
/-- The buffers after region 1: those after region 0, the attention array replaced by `o5`. -/
def X5 (c : Dev nD) : Valuation τ sig (Elt F) := Function.update (X4 m c) main_v44 (o5 m c)
/-- The buffers after the host stretch that follows region 1 (the output projection rounded, its bias reshaped). -/
def X6 (c : Dev nD) : Valuation τ sig (Elt F) := StableHlo.after hostOps2 (X5 m c)
/-- Region 2's entry contents: the buffers after that host stretch, read at the TensorCore's references. -/
abbrev EX6 : Entry F := fun c b => X6 m c b
/-- The result array after region 2: the six points' write-backs, computed from the entry contents `EX6`. -/
def o7 (c : Dev nD) : Buf (Elt F) ((c : Thread nD τ).loc main_v47) := (dat2 (EX6 m) c).arrAt 4 cfg2.N
/-- The buffers at the end: those entering region 2, the result array replaced by `o7`. -/
def X7 (c : Dev nD) : Valuation τ sig (Elt F) := Function.update (X6 m c) main_v47 (o7 m c)

/-- What the regions leave in the buffers they may change: after item 3 the buffers `X4`, after item 4 `X5`, after
    item 6 `X7`. -/
def outsOf : Gen.Outs (F := F) := fun j r c =>
  match j with
  | 4 => X4 m c r
  | 5 => X5 m c r
  | _ => X7 m c r

/-- Read at the projected array, the contents after item 3 are `o4`. -/
theorem outsOf_4 (c : Dev nD) : outsOf m 4 main_v43 c = o4 m c := by
  show X4 m c (Proc.devRef .tc main_v43) = _
  unfold X4; exact Function.update_self _ _ _
/-- With these contents, the buffers between region 0 and region 1 are `X4`. -/
theorem V4_eq (c : Dev nD) : Gen.V4 m (outsOf m) c = X4 m c := by
  show Function.update (Gen.V3 m c) (Proc.devRef .tc main_v43) (outsOf m 4 main_v43 c) = _
  rw [outsOf_4]; rfl
/-- So region 1 is entered from `EX4`. -/
theorem E1_eq : E1 m (outsOf m) = EX4 m := by
  funext c b; show Gen.V4 m (outsOf m) c b = _; rw [V4_eq]
/-- Read at the attention array, the contents after item 4 are `o5`. -/
theorem outsOf_5 (c : Dev nD) : outsOf m 5 main_v44 c = o5 m c := by
  show X5 m c (Proc.devRef .tc main_v44) = _
  unfold X5; exact Function.update_self _ _ _
/-- The buffers after region 1 are `X5`, -/
theorem V5_eq (c : Dev nD) : Gen.V5 m (outsOf m) c = X5 m c := by
  show Function.update (Gen.V4 m (outsOf m) c) (Proc.devRef .tc main_v44) (outsOf m 5 main_v44 c) = _
  rw [outsOf_5, V4_eq]; rfl
/-- and after the host stretch that follows it `X6`. -/
theorem V6_eq (c : Dev nD) : Gen.V6 m (outsOf m) c = X6 m c := by
  show StableHlo.after hostOps2 (Gen.V5 m (outsOf m) c) = _
  rw [V5_eq]; rfl
/-- So region 2 is entered from `EX6`. -/
theorem E2_eq : E2 m (outsOf m) = EX6 m := by
  funext c b; show Gen.V6 m (outsOf m) c b = _; rw [V6_eq]
/-- Read at the result array, the contents after item 6 are `o7`. -/
theorem outsOf_7 (c : Dev nD) : outsOf m 7 main_v47 c = o7 m c := by
  show X7 m c (Proc.devRef .tc main_v47) = _
  unfold X7; exact Function.update_self _ _ _

/-- The three equations that tie the regions' results to the proof data: each region's output array is what its
    points' write-backs leave, computed from the buffers the region is entered from. -/
theorem hout4 (c : Dev nD) : outsOf m 4 main_v43 c = (dat0 (E0 m) c).arrAt 5 cfg0.N := outsOf_4 m c
theorem hout5 (c : Dev nD) : outsOf m 5 main_v44 c = (dat1 (E1 m (outsOf m)) c).arrAt 3 cfg1.N := by
  rw [outsOf_5, E1_eq]; rfl
theorem hout7 (c : Dev nD) : outsOf m 7 main_v47 c = (dat2 (E2 m (outsOf m)) c).arrAt 4 cfg2.N := by
  rw [outsOf_7, E2_eq]; rfl

/-! ## The run -/

variable (outs : Gen.Outs (F := F))

/-- The last thread state: the buffers and the generator register beside the core owing nothing. -/
theorem last_step (c : Dev nD) :
    (iprop(StableHlo.held (c : Thread nD τ) (Pipeline.ucRefs τ sig) (Gen.V7 m outs c) ∗ Rst c) : sProp 𝕄)
      ⊢ iprop((StableHlo.held (c : Thread nD τ) (Pipeline.ucRefs τ sig) (Gen.V7 m outs c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- For ANY contents `outs` that satisfy the three equations: every weakly fair execution of @main from memory `m`
    with zero counters terminates, and every final memory holds the result array at `outs 7 main_v47` and each
    argument as launched. -/
theorem run_of
    (h4 : ∀ c, outs 4 main_v43 c = (dat0 (E0 m) c).arrAt 5 cfg0.N)
    (h5 : ∀ c, outs 5 main_v44 c = (dat1 (E1 m outs) c).arrAt 3 cfg1.N)
    (h7 : ∀ c, outs 7 main_v47 c = (dat2 (E2 m outs) c).arrAt 4 cfg2.N) :
    θ_run defs (onTc (τ := τ) (main (F := F))) ⟨m, fun _ => 0, ρ⟩ (fun r => ∀ c : Dev nD,
      r.2.mem ((c.tc : Thread nD τ).loc main_v47) = outs 7 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_dev (pcfgs (F := F)) Gen.adm (pdats m outs) () cellOf_inj emb₁ defs₀ 𝒱₀ L lv m ρ main
    (Gen.segs m outs 𝒱₀ L lv Erest () (pdats m outs) (R0 m outs h4) (R1 m outs h5) (R2 m outs h7))
    (fun c Q => by
      rewrite [main_chain c, Seg.run_eq_chain,
        show (Gen.segs m outs 𝒱₀ L lv Erest () (pdats m outs) (R0 m outs h4) (R1 m outs h5) (R2 m outs h7) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V7 m outs c) ∗ ∃ r, prngReg c r))
    (hch := fun c => ⟨.rfl, .rfl, .rfl, .rfl, .rfl, .rfl, .rfl, last_step m outs c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m outs c) s')
      isplitl [Hh] <;> iassumption)
    (hQ := fun s h c =>
      ⟨(h c _ (mem_uc main_v47 (by decide))).trans (Function.update_self (f := Gen.V6 m outs c) (Proc.devRef .tc main_v47) (outs 7 main_v47 c)),
        (h c _ (mem_uc main_arg0 (by decide))).trans (Gen.V7_main_arg0 m outs c),
        (h c _ (mem_uc main_arg1 (by decide))).trans (Gen.V7_main_arg1 m outs c),
        (h c _ (mem_uc main_arg2 (by decide))).trans (Gen.V7_main_arg2 m outs c),
        (h c _ (mem_uc main_arg3 (by decide))).trans (Gen.V7_main_arg3 m outs c),
        (h c _ (mem_uc main_arg4 (by decide))).trans (Gen.V7_main_arg4 m outs c),
        (h c _ (mem_uc main_arg5 (by decide))).trans (Gen.V7_main_arg5 m outs c),
        (h c _ (mem_uc main_arg6 (by decide))).trans (Gen.V7_main_arg6 m outs c)⟩)

/-- THE RUN, THE RESULT NAMED: contents `outs` exist with which every weakly fair execution of @main from memory `m`
    with zero counters terminates, every final memory holding the result array at `outs 7 main_v47` and the
    arguments as launched, and which are, region by region, what the pipeline's write-backs leave. -/
theorem run_named : ∃ outs : Gen.Outs (F := F),
    (θ_run defs (onTc (τ := τ) (main (F := F))) ⟨m, fun _ => 0, ρ⟩ (fun r => ∀ c : Dev nD,
      r.2.mem ((c.tc : Thread nD τ).loc main_v47) = outs 7 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
    ∧ (∀ c, outs 4 main_v43 c = (pdats m outs 0 c).arrAt 5 cfg0.N)
    ∧ (∀ c, outs 5 main_v44 c = (pdats m outs 1 c).arrAt 3 cfg1.N)
    ∧ (∀ c, outs 7 main_v47 c = (pdats m outs 2 c).arrAt 4 cfg2.N) :=
  ⟨outsOf m, run_of m ρ (outsOf m) (hout4 m) (hout5 m) (hout7 m), hout4 m, hout5 m, hout7 m⟩

end Cert.KernelIdeal.Hand

end
-- ==== Proof.Word.KDats.lean ====
/- The proof data of the three pipelines of the kernel program: for each region, the arrays its windows
   stage as the region finds them, what the body leaves in every staging buffer at a grid point (an input's
   block unchanged, the output's one whole-block store of the body's arithmetic over the input blocks), and
   what each point writes back to the output array. Region 1 reads ONE array (the q, k and v row blocks of the
   projected array) through three windows, so each of them holds a fraction of that array. -/
import proofs.«113005_j19404662243884_2_alg».proof.Proof.Gen.Kernel.Regions
import proofs.«113005_j19404662243884_2_alg».proof.Proof.Gen.Kernel.Skeleton
import proofs.«113005_j19404662243884_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Pipeline.Value

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A TensorCore's buffer contents when a region is entered. -/
abbrev Entry (F : FTy → Type) [FloatOps F] : Type :=
  (c : Dev nD) → (b : Ref sig .tc) → Buf (Elt F) ((c : Thread nD τ).loc b)

section Regions

variable (V : Entry F)

/-! ## Region 0: per-channel scale and shift, the 1536×512 projection, the bias -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x512 := Rect.unit (s := S512x512) ![0, 0] S512x512.size inb_S512x512_S512x512_0_0
abbrev r0_1 : Rect S512x1 := Rect.unit (s := S512x1) ![0, 0] S512x1.size inb_S512x1_S512x1_0_0
abbrev r0_3 : Rect S1536x512 := Rect.unit (s := S1536x512) ![0, 0] S1536x512.size inb_S1536x512_S1536x512_0_0
abbrev r0_4 : Rect S1536x1 := Rect.unit (s := S1536x1) ![0, 0] S1536x1.size inb_S1536x1_S1536x1_0_0

/-- The output buffer after the body: its one whole-block store, of the body's arithmetic over the five input blocks. -/
def out0_5 (x0 : Vec F S512x512 .f32) (x1 x2 : Vec F S512x1 .f32) (x3 : Vec F S1536x512 .bf16) (x4 : Vec F S1536x1 .f32) : Vec F S1536x512 .bf16 :=
  View.canon [⟨r0_3, k0_pay1 (View.ld x0 r0_0) (View.ld x1 r0_1) (View.ld x2 r0_1) (View.ld x3 r0_3) (View.ld x4 r0_4)⟩]

/-- Region 0's proof data at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## Region 1: one head's scores against every key, the softmax over the keys, the weighted values -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S64x256 := Rect.unit (s := S64x256) ![0, 0] S64x256.size inb_S64x256_S64x256_0_0
abbrev r1_1 : Rect S64x3072 := Rect.unit (s := S64x3072) ![0, 0] S64x3072.size inb_S64x3072_S64x3072_0_0

def out1_3 (x0 : Vec F S64x256 .bf16) (x1 x2 : Vec F S64x3072 .bf16) : Vec F S64x256 .bf16 :=
  View.canon [⟨r1_0, k1_pay1 (View.ld x0 r1_0) (View.ld x1 r1_1) (View.ld x2 r1_1)⟩]

/-- Region 1's proof data at the entry contents `V`. Its three input windows stage the same array: the query
    window holds the left half of it, the key window the left half of the right half, the value window the rest. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t
    = out1_3 (iblk1 V c 0 t) (iblk1 V c 1 t) (iblk1 V c 2 t) := by dsimp only [dat1]

/-! ## Region 2: the 512×512 output projection, the residual, the bias -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_4 (x0 : Vec F S512x512 .f32) (x1 x2 : Vec F S512x512 .bf16) (x3 : Vec F S512x1 .f32) : Vec F S512x512 .f32 :=
  View.canon [⟨r0_0, k2_pay1 (View.ld x0 r0_0) (View.ld x1 r0_0) (View.ld x2 r0_0) (View.ld x3 r0_1)⟩]

/-- Region 2's proof data at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t
    = out2_4 (iblk2 V c 0 t) (iblk2 V c 1 t) (iblk2 V c 2 t) (iblk2 V c 3 t) := by dsimp only [dat2]

end Regions

/-! ## The family over the three pipelines, each at its region's entry contents -/

variable (m : (ℓ : Loc nD τ sig) → Buf (Elt F) ℓ) (outs : Gen.Outs (F := F))

/-- The TensorCore's buffers when region 0, 1, 2 is entered. -/
abbrev E0 : Entry F := fun c b => Gen.V3 m c b
abbrev E1 : Entry F := fun c b => Gen.V4 m outs c b
abbrev E2 : Entry F := fun c b => Gen.V6 m outs c b

/-- Every pipeline's proof data at its region's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

theorem pdats_0 (c : Dev nD) : pdats m outs 0 c = dat0 (E0 m) c := rfl
theorem pdats_1 (c : Dev nD) : pdats m outs 1 c = dat1 (E1 m outs) c := rfl
theorem pdats_2 (c : Dev nD) : pdats m outs 2 c = dat2 (E2 m outs) c := rfl

/-! ## What each point writes back -/

theorem hz2 : (![0, 0] : Fin 2 → Nat) = fun _ => 0 := funext fun a => by fin_cases a <;> rfl

/-- Region 0's point `t` writes back the body's arithmetic over the five input blocks at `t`. -/
theorem flushed0 (c : Dev nD) (t : Fin cfg0.N) :
    (pdats m outs 0 c).flushed 5 t = (cfg0.win 5).cut (grid0.coords t)
      (out0_5 (iblk0 (E0 m) c 0 t) (iblk0 (E0 m) c 1 t) (iblk0 (E0 m) c 2 t) (iblk0 (E0 m) c 3 t) (iblk0 (E0 m) c 4 t)) := by
  show (cfg0.win 5).cut (grid0.coords t) ((dat0 (E0 m) c).after 5 t) = _
  rw [after0_5]

/-- Region 1's point `t` writes back the body's arithmetic over the query, key and value blocks at `t`. -/
theorem flushed1 (c : Dev nD) (t : Fin cfg1.N) :
    (pdats m outs 1 c).flushed 3 t = (cfg1.win 3).cut (grid1.coords t)
      (out1_3 (iblk1 (E1 m outs) c 0 t) (iblk1 (E1 m outs) c 1 t) (iblk1 (E1 m outs) c 2 t)) := by
  show (cfg1.win 3).cut (grid1.coords t) ((dat1 (E1 m outs) c).after 3 t) = _
  rw [after1_3]

/-- Region 2's point `t` writes back the body's arithmetic over the four input blocks at `t`. -/
theorem flushed2 (c : Dev nD) (t : Fin cfg2.N) :
    (pdats m outs 2 c).flushed 4 t = (cfg2.win 4).cut (grid2.coords t)
      (out2_4 (iblk2 (E2 m outs) c 0 t) (iblk2 (E2 m outs) c 1 t) (iblk2 (E2 m outs) c 2 t) (iblk2 (E2 m outs) c 3 t)) := by
  show (cfg2.win 4).cut (grid2.coords t) ((dat2 (E2 m outs) c).after 4 t) = _
  rw [after2_4]

/-- A whole-block store of a payload over whole-block loads leaves the payload of the blocks. -/
theorem out0_5_eq (x0 : Vec F S512x512 .f32) (x1 x2 : Vec F S512x1 .f32) (x3 : Vec F S1536x512 .bf16) (x4 : Vec F S1536x1 .f32) :
    out0_5 x0 x1 x2 x3 x4 = k0_pay1 x0 x1 x2 x3 x4 := by
  unfold out0_5
  rw [View.canon_unit_zero hz2]
  simp only [View.ld_unit_zero (S := S512x512) hz2, View.ld_unit_zero (S := S512x1) hz2,
    View.ld_unit_zero (S := S1536x512) hz2, View.ld_unit_zero (S := S1536x1) hz2]
theorem out1_3_eq (x0 : Vec F S64x256 .bf16) (x1 x2 : Vec F S64x3072 .bf16) :
    out1_3 x0 x1 x2 = k1_pay1 x0 x1 x2 := by
  unfold out1_3
  rw [View.canon_unit_zero hz2]
  simp only [View.ld_unit_zero (S := S64x256) hz2, View.ld_unit_zero (S := S64x3072) hz2]
theorem out2_4_eq (x0 : Vec F S512x512 .f32) (x1 x2 : Vec F S512x512 .bf16) (x3 : Vec F S512x1 .f32) :
    out2_4 x0 x1 x2 x3 = k2_pay1 x0 x1 x2 x3 := by
  unfold out2_4
  rw [View.canon_unit_zero hz2]
  simp only [View.ld_unit_zero (S := S512x512) hz2, View.ld_unit_zero (S := S512x1) hz2]

end Cert.Kernel.Hand

end
-- ==== Proof.Word.KState.lean ====
/- What rides beside a TensorCore's buffers between the items of the program: the core's generator register at
   some state and the core owing nothing. No level is assigned and no variant is used. -/
import proofs.«113005_j19404662243884_2_alg».proof.Proof.Word.KDats
import Idealize.ShloMosaic.Lib.Pipeline.RegionsLoop
import Idealize.ShloMosaic.Lib.Pipeline.FrameSuffix

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- Beside the buffers: the generator register at some state, and nothing owed. -/
abbrev Rst (c : Dev nD) : sProp 𝕄 :=
  iprop((∃ r, prngReg c r) ∗ ∃ W, owes (c : Thread nD τ) (0 : CellTallies nD τ sig Unit) W)

/-- The same rest between any two items. -/
abbrev Erest : Fin 4 → Dev nD → sProp 𝕄 := fun _ c => Rst (F := F) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.Word.Body0.lean ====
/- Region 0's body at a grid point: the five input blocks are loaded whole, scaled and shifted per channel,
   multiplied by the projection matrix and biased, and the result is stored over the whole output block. -/
import proofs.«113005_j19404662243884_2_alg».proof.Proof.Word.KDats
import Idealize.ShloMosaic.Lib.Ring
import Idealize.ShloMosaic.Lib.Tactic

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body's one store covers the output buffer -/

theorem cover0_5 (p0 : Vec F S1536x512 .bf16) (y : S1536x512.Idx) :
    ∃ pc ∈ ([⟨r0_3, p0⟩] : List (View.Piece (Elt F) S1536x512 .bf16)), y ∈ pc.1.set :=
  View.cover_of_tiled [⟨r0_3, p0⟩] S1536x512.size (by rfl) y

/-! ## The body's triple -/

-- the body's symbolic run carries the whole 512×512 and 1536×512 blocks through five loads, a matrix product and a store
set_option maxHeartbeats 1000000 in
/-- The kernel body on whole staging memrefs, the inputs' at contents `xW` and the output's at anything, runs to the
    continuation holding the inputs' as they were and the output's at `out0_5` of the inputs'. -/
theorem sound_kernel0 (c : Dev nD) (E : Set ℕ) (i : grid0.Coords) (arg0 : Memref sig .tc .vmem S512x512 .f32) (harg0 : arg0.IsWhole) (arg1 : Memref sig .tc .vmem S512x1 .f32) (harg1 : arg1.IsWhole) (arg2 : Memref sig .tc .vmem S512x1 .f32) (harg2 : arg2.IsWhole) (arg3 : Memref sig .tc .vmem S1536x512 .bf16) (harg3 : arg3.IsWhole) (arg4 : Memref sig .tc .vmem S1536x1 .f32) (harg4 : arg4.IsWhole) (arg5 : Memref sig .tc .vmem S1536x512 .bf16) (harg5 : arg5.IsWhole)
    (x0 : Vec F S512x512 .f32) (x1 : Vec F S512x1 .f32) (x2 : Vec F S512x1 .f32) (x3 : Vec F S1536x512 .bf16) (x4 : Vec F S1536x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4)) -∗ K ⟨⟩))
      ⊢ wp frame (wpE (defs₀ (F := F)) Variants.none c none) E (cc0__qkv_kernel i arg0 harg0 arg1 harg1 arg2 harg2 arg3 harg3 arg4 harg4 arg5 harg5) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Word.Reg0.lean ====
/- Region 0 as a segment of the program: from the buffers after the host stretch that prepares the scale, the shift and
   the reordered weights, to the same buffers with the projected array at what the six points wrote back. -/
import proofs.«113005_j19404662243884_2_alg».proof.Proof.Word.KState
import proofs.«113005_j19404662243884_2_alg».proof.Proof.Word.Body0

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- At the region's exit an input array holds what it held at entry, -/
theorem hF0_in (c : Dev nD) (w : Fin 6) (hw : (cfg0.win w).isOut = false) (hne : Pipeline.arrRef spec0 w ∉ ([main_v43] : List (Ref sig .tc))) :
    (dat0 (E0 m) c).arrAt w cfg0.N = E1 m outs c (Pipeline.arrRef spec0 w) :=
  ((dat0 (E0 m) c).arrAt_in w hw _).trans ((A_eq0 _ c w).trans (Gen.V4_of m outs c _ hne).symm)

/-- and the output array the write-backs of all the points. -/
theorem hF0_out (hout : ∀ c, outs 4 main_v43 c = (dat0 (E0 m) c).arrAt 5 cfg0.N) (c : Dev nD) :
    (dat0 (E0 m) c).arrAt 5 cfg0.N = E1 m outs c (Pipeline.arrRef spec0 5) := by
  rw [← hout c]
  exact (Function.update_self (f := Gen.V3 m c) (Proc.devRef .tc main_v43) (outs 4 main_v43 c)).symm

/-- Window by window: at the region's exit every array behind a window holds what the exit contents say — the inputs
    unchanged, the projected array at what the six points wrote back. -/
theorem hF0 (hout : ∀ c, outs 4 main_v43 c = (dat0 (E0 m) c).arrAt 5 cfg0.N) (c : Dev nD) :
    ∀ w : Fin 6, (dat0 (E0 m) c).arrAt w cfg0.N = E1 m outs c (Pipeline.arrRef spec0 w)
  | 0 => hF0_in m outs c 0 rfl (by decide)
  | 1 => hF0_in m outs c 1 rfl (by decide)
  | 2 => hF0_in m outs c 2 rfl (by decide)
  | 3 => hF0_in m outs c 3 rfl (by decide)
  | 4 => hF0_in m outs c 4 rfl (by decide)
  | 5 => hF0_out m outs hout c
  | ⟨_ + 6, h⟩ => absurd h (Nat.not_lt.2 (Nat.le_add_left _ _))

/-- Every other buffer holds what it held at entry. -/
theorem hrest0 (c : Dev nD) : ∀ b, b ∉ Finset.univ.image (Pipeline.arrRef spec0) → E1 m outs c b = E0 m c b :=
  fun b hb => Gen.V4_of m outs c b fun h => hb (Finset.mem_image.mpr ⟨5, Finset.mem_univ _,
    (by decide : Pipeline.arrRef spec0 (5 : Fin 6) = main_v43).trans (List.mem_singleton.mp h).symm⟩)

set_option backward.isDefEq.respectTransparency.types false in
/-- The region over the thread state: entered from every unscoped buffer at the entry contents, left at the exit
    contents. Its arrays are split out of the unscoped buffers and put back; the generator register goes into the
    pipeline's invariant and comes out; nothing is owed; the kernel has no semaphore of its own. -/
def R0 (hout : ∀ c, outs 4 main_v43 c = (dat0 (E0 m) c).arrAt 5 cfg0.N) :
    Pipeline.RegionSeg (pcfgs (F := F)) Gen.adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V3 m c) ∗ Rst c)
  post c := iprop(StableHlo.held (c : Thread nD τ) (Pipeline.ucRefs τ sig) (Gen.V4 m outs c) ∗ Rst c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (E0 m c) (E1 m outs c) ((pdats m outs 0 c).arrAt · cfg0.N) (hF0 m outs hout c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R0_pre (hout : ∀ c, outs 4 main_v43 c = (dat0 (E0 m) c).arrAt 5 cfg0.N) (c : Dev nD) :
    (R0 m outs hout).pre c = iprop(StableHlo.held (c : Thread nD τ) (Pipeline.ucRefs τ sig) (Gen.V3 m c) ∗ Rst c) := rfl
/-- and left at the same with the projected array replaced by what the region's points wrote back. -/
theorem R0_post (hout : ∀ c, outs 4 main_v43 c = (dat0 (E0 m) c).arrAt 5 cfg0.N) (c : Dev nD) :
    (R0 m outs hout).post c = iprop(StableHlo.held (c : Thread nD τ) (Pipeline.ucRefs τ sig) (Gen.V4 m outs c) ∗ Rst c) := rfl

end Cert.Kernel.Hand

end
-- ==== Proof.Word.Body1.lean ====
/- Region 1's body at a grid point: one head's query block against all its keys, scaled, the softmax along the
   keys, the weights applied to the values; the result is stored over the whole output block. -/
import proofs.«113005_j19404662243884_2_alg».proof.Proof.Word.KDats
import Idealize.ShloMosaic.Lib.Ring
import Idealize.ShloMosaic.Lib.Tactic

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body's one store covers the output buffer -/

theorem cover1_3 (p0 : Vec F S64x256 .bf16) (y : S64x256.Idx) :
    ∃ pc ∈ ([⟨r1_0, p0⟩] : List (View.Piece (Elt F) S64x256 .bf16)), y ∈ pc.1.set :=
  View.cover_of_tiled [⟨r1_0, p0⟩] S64x256.size (by rfl) y

/-! ## The body's triple -/

-- the body's symbolic run carries a 64×256 block and two 64×3072 blocks through two matrix products and a 256×3072 softmax
set_option maxHeartbeats 1000000 in
/-- The kernel body on whole staging memrefs, the inputs' at contents `xW` and the output's at anything, runs to the
    continuation holding the inputs' as they were and the output's at `out1_3` of the inputs'. -/
theorem sound_kernel1 (c : Dev nD) (E : Set ℕ) (i : grid1.Coords) (arg0 : Memref sig .tc .vmem S64x256 .bf16) (harg0 : arg0.IsWhole) (arg1 : Memref sig .tc .vmem S64x3072 .bf16) (harg1 : arg1.IsWhole) (arg2 : Memref sig .tc .vmem S64x3072 .bf16) (harg2 : arg2.IsWhole) (arg3 : Memref sig .tc .vmem S64x256 .bf16) (harg3 : arg3.IsWhole)
    (x0 : Vec F S64x256 .bf16) (x1 : Vec F S64x3072 .bf16) (x2 : Vec F S64x3072 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Word.Reg1.lean ====
/- Region 1 as a segment of the program. Its query, key and value windows all stage the projected array, so the array's
   whole share is dealt among them at entry — a half, a quarter, a quarter — and gathered again at exit; the attention
   array ends at what the ninety-six points wrote back. -/
import proofs.«113005_j19404662243884_2_alg».proof.Proof.Word.KState
import proofs.«113005_j19404662243884_2_alg».proof.Proof.Word.Body1

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- The TensorCore's buffers when region 1 is left. -/
abbrev E1x : Entry F := fun c b => Gen.V5 m outs c b

/-- At the region's exit an input array holds what it held at entry, -/
theorem hF1_in (c : Dev nD) (w : Fin 4) (hw : (cfg1.win w).isOut = false) (hne : Pipeline.arrRef spec1 w ∉ ([main_v44] : List (Ref sig .tc))) :
    (dat1 (E1 m outs) c).arrAt w cfg1.N = E1x m outs c (Pipeline.arrRef spec1 w) :=
  ((dat1 (E1 m outs) c).arrAt_in w hw _).trans ((A_eq1 _ c w).trans (Gen.V5_of m outs c _ hne).symm)

/-- and the output array the write-backs of all the points. -/
theorem hF1_out (hout : ∀ c, outs 5 main_v44 c = (dat1 (E1 m outs) c).arrAt 3 cfg1.N) (c : Dev nD) :
    (dat1 (E1 m outs) c).arrAt 3 cfg1.N = E1x m outs c (Pipeline.arrRef spec1 3) := by
  rw [← hout c]
  exact (Function.update_self (f := Gen.V4 m outs c) (Proc.devRef .tc main_v44) (outs 5 main_v44 c)).symm

/-- Window by window: at the region's exit every array behind a window holds what the exit contents say — the inputs
    unchanged, the attention array at what the ninety-six points wrote back. -/
theorem hF1 (hout : ∀ c, outs 5 main_v44 c = (dat1 (E1 m outs) c).arrAt 3 cfg1.N) (c : Dev nD) :
    ∀ w : Fin 4, (dat1 (E1 m outs) c).arrAt w cfg1.N = E1x m outs c (Pipeline.arrRef spec1 w)
  | 0 => hF1_in m outs c 0 rfl (by decide)
  | 1 => hF1_in m outs c 1 rfl (by decide)
  | 2 => hF1_in m outs c 2 rfl (by decide)
  | 3 => hF1_out m outs hout c
  | ⟨_ + 4, h⟩ => absurd h (Nat.not_lt.2 (Nat.le_add_left _ _))

/-- Every other buffer holds what it held at entry. -/
theorem hrest1 (c : Dev nD) : ∀ b, b ∉ Finset.univ.image (Pipeline.arrRef spec1) → E1x m outs c b = E1 m outs c b :=
  fun b hb => Gen.V5_of m outs c b fun h => hb (Finset.mem_image.mpr ⟨3, Finset.mem_univ _,
    (by decide : Pipeline.arrRef spec1 (3 : Fin 4) = main_v44).trans (List.mem_singleton.mp h).symm⟩)

/-! ## One array behind three windows -/

/-- The distinct buffers behind region 1's windows: the projected array and the attention array. -/
theorem img1 : Finset.univ.image (Pipeline.arrRef spec1) = ([main_v43, main_v44] : List (Ref sig .tc)).toFinset := by decide

section Shares
variable (V : Entry F) (c : Dev nD) (G : (w : Fin cfg1.W) → Buf (Elt F) ((cfg1.win w).arr.view.loc (c.tc : Thread nD τ)))

/-- The query window's array is the projected array, held at the left half of its share. -/
theorem arr1_0 : (View.loc c.tc (cfg1.win 0).arr.view ↦[(cfg1.win 0).arr.view.set]{(dat1 V c).share 0} G 0 : sProp 𝕄)
    = ((c : Thread nD τ).loc main_v43 ↦{fullShare.left} G 0) := by
  rw [(arr_whole1 0).set_eq_univ]; rfl
/-- The key window's array is the same projected array, held at the left half of the right half. -/
theorem arr1_1 : (View.loc c.tc (cfg1.win 1).arr.view ↦[(cfg1.win 1).arr.view.set]{(dat1 V c).share 1} G 1 : sProp 𝕄)
    = ((c : Thread nD τ).loc main_v43 ↦{fullShare.right.left} G 1) := by
  rw [(arr_whole1 1).set_eq_univ]; rfl
/-- The value window's array is the same projected array again, held at the remaining quarter. -/
theorem arr1_2 : (View.loc c.tc (cfg1.win 2).arr.view ↦[(cfg1.win 2).arr.view.set]{(dat1 V c).share 2} G 2 : sProp 𝕄)
    = ((c : Thread nD τ).loc main_v43 ↦{fullShare.right.right} G 2) := by
  rw [(arr_whole1 2).set_eq_univ]; rfl
/-- The output window's array is the attention array, held whole. -/
theorem arr1_3 : (View.loc c.tc (cfg1.win 3).arr.view ↦[(cfg1.win 3).arr.view.set]{(dat1 V c).share 3} G 3 : sProp 𝕄)
    = ((c : Thread nD τ).loc main_v44 ↦{fullShare} G 3) := by
  rw [(arr_whole1 3).set_eq_univ]; rfl

/-- The two buffers whole at contents `Vc` ARE the pipeline's four arrays at contents that read `Vc`: the projected
    array's share splits into the three input windows' and joins back. -/
theorem arrays1_iff (Vc : (b : Ref sig .tc) → Buf (Elt F) ((c.tc : Thread nD τ).loc b))
    (hG : ∀ w, G w = Vc (Pipeline.arrRef spec1 w)) :
    (Pipeline.arrBufs (Ix := Unit) (Name := ℕ) (U := UR sig nD τ) (Lvl := ℕ) spec1 c Vc : sProp 𝕄) ⊣⊢ (dat1 V c).arrays G := by
  unfold Pipeline.arrBufs Dat.arrays
  rw [bigSep_eq_bigSepL_of_eq [main_v43, main_v44] img1 (by decide), bigSep_W1, arr1_0, arr1_1, arr1_2, arr1_3,
    hG 0, hG 1, hG 2, hG 3]
  show (iprop(((c : Thread nD τ).loc main_v43 ↦{fullShare} Vc main_v43) ∗ ((c : Thread nD τ).loc main_v44 ↦{fullShare} Vc main_v44)) : sProp 𝕄) ⊣⊢ _
  constructor
  · iintro ⟨H43, H44⟩
    ihave Hs := (pointsTo_share (PosShare.mem_left_op_right fullShare)).1 $$ H43
    icases Hs with ⟨Hl, Hr⟩
    ihave Hs2 := (pointsTo_share (PosShare.mem_left_op_right fullShare.right)).1 $$ Hr
    icases Hs2 with ⟨Hrl, Hrr⟩
    isplitl [Hl]; · iexact Hl
    isplitl [Hrl]; · iexact Hrl
    isplitl [Hrr]; · iexact Hrr
    iexact H44
  · iintro ⟨Hl, Hrl, Hrr, H44⟩
    isplitr [H44]
    · iapply (pointsTo_share (PosShare.mem_left_op_right fullShare)).2
      isplitl [Hl]; · iexact Hl
      iapply (pointsTo_share (PosShare.mem_left_op_right fullShare.right)).2
      isplitl [Hrl] <;> iassumption
    iexact H44

end Shares

set_option backward.isDefEq.respectTransparency.types false in
/-- The region over the thread state: entered from every unscoped buffer at the entry contents, left at the exit
    contents. The two buffers behind its windows are split out of the unscoped buffers and dealt to the four windows,
    and gathered and put back at exit; the generator register goes into the pipeline's invariant and comes out;
    nothing is owed; the kernel has no semaphore of its own. -/
def R1 (hout : ∀ c, outs 5 main_v44 c = (dat1 (E1 m outs) c).arrAt 3 cfg1.N) :
    Pipeline.RegionSeg (pcfgs (F := F)) Gen.adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (Gen.V4 m outs c) ∗ Rst c)
  post c := iprop(StableHlo.held (c : Thread nD τ) (Pipeline.ucRefs τ sig) (Gen.V5 m outs c) ∗ Rst c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hub : (unscopedBufs c (E1 m outs c) : sProp 𝕄) = iprop(Pipeline.arrBufs spec1 c (E1 m outs c) ∗ Pipeline.unscopedRest spec1 c (E1 m outs c)) :=
      Pipeline.unscopedBufs_split₀ (Ix := Unit) (Name := ℕ) (U := UR sig nD τ) (Lvl := ℕ) (Pipeline.pin (pcfgs (F := F)) Gen.adm) 1
        winFacts₀1.arr_unscoped c (E1 m outs c)
    rw [Pipeline.unscopedBufs_held] at hub
    iintro ⟨⟨Hub, Hp, HO⟩, -, -⟩
    ihave H := (Entails.of_eq hub) $$ Hub
    icases H with ⟨Ha, Hrest⟩
    ihave Ha' := (arrays1_iff (E1 m outs) c ((pdats m outs 1 c).arrAt · 0) (E1 m outs c) (fun _ => rfl)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hub : (unscopedBufs c (E1x m outs c) : sProp 𝕄) = iprop(Pipeline.arrBufs spec1 c (E1x m outs c) ∗ Pipeline.unscopedRest spec1 c (E1x m outs c)) :=
      Pipeline.unscopedBufs_split₀ (Ix := Unit) (Name := ℕ) (U := UR sig nD τ) (Lvl := ℕ) (Pipeline.pin (pcfgs (F := F)) Gen.adm) 1
        winFacts₀1.arr_unscoped c (E1x m outs c)
    rw [Pipeline.unscopedBufs_held] at hub
    have hrestEq : (Pipeline.unscopedRest (Ix := Unit) (Name := ℕ) (U := UR sig nD τ) (Lvl := ℕ) spec1 c (E1 m outs c) : sProp 𝕄)
        = Pipeline.unscopedRest spec1 c (E1x m outs c) := by
      unfold Pipeline.unscopedRest
      exact bigSep_congr fun b hb => by rw [hrest1 m outs c b (Finset.mem_sdiff.mp hb).2]
    iintro ⟨Ha, HO, HY, Hrest⟩
    imodintro
    isplitl [Ha Hrest]
    · iapply (Entails.of_eq hub.symm)
      isplitl [Ha]
      · iapply (arrays1_iff (E1 m outs) c ((pdats m outs 1 c).arrAt · cfg1.N) (E1x m outs c) (hF1 m outs hout c)).2
        iexact Ha
      iapply (Entails.of_eq hrestEq); iexact Hrest
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R1_pre (hout : ∀ c, outs 5 main_v44 c = (dat1 (E1 m outs) c).arrAt 3 cfg1.N) (c : Dev nD) :
    (R1 m outs hout).pre c = iprop(StableHlo.held (c : Thread nD τ) (Pipeline.ucRefs τ sig) (Gen.V4 m outs c) ∗ Rst c) := rfl
/-- and left at the same with the attention array replaced by what the region's points wrote back. -/
theorem R1_post (hout : ∀ c, outs 5 main_v44 c = (dat1 (E1 m outs) c).arrAt 3 cfg1.N) (c : Dev nD) :
    (R1 m outs hout).post c = iprop(StableHlo.held (c : Thread nD τ) (Pipeline.ucRefs τ sig) (Gen.V5 m outs c) ∗ Rst c) := rfl

end Cert.Kernel.Hand

end
-- ==== Proof.Word.Body2.lean ====
/- Region 2's body at a grid point: the attention block multiplied by the output projection, added to the
   input block and the bias; the result is stored over the whole output block. -/
import proofs.«113005_j19404662243884_2_alg».proof.Proof.Word.KDats
import Idealize.ShloMosaic.Lib.Ring
import Idealize.ShloMosaic.Lib.Tactic

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-! ## Each input's current staging buffer holds its block at every point, fetched there or not -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)

/-! ## The body's one store covers the output buffer -/

theorem cover2_4 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-! ## The body's triple -/

-- the body's symbolic run carries four whole 512×512 blocks through a matrix product, two additions and a store
set_option maxHeartbeats 1000000 in
/-- The kernel body on whole staging memrefs, the inputs' at contents `xW` and the output's at anything, runs to the
    continuation holding the inputs' as they were and the output's at `out2_4` of the inputs'. -/
theorem sound_kernel2 (c : Dev nD) (E : Set ℕ) (i : grid2.Coords) (arg0 : Memref sig .tc .vmem S512x512 .f32) (harg0 : arg0.IsWhole) (arg1 : Memref sig .tc .vmem S512x512 .bf16) (harg1 : arg1.IsWhole) (arg2 : Memref sig .tc .vmem S512x512 .bf16) (harg2 : arg2.IsWhole) (arg3 : Memref sig .tc .vmem S512x1 .f32) (harg3 : arg3.IsWhole) (arg4 : Memref sig .tc .vmem S512x512 .f32) (harg4 : arg4.IsWhole)
    (x0 : Vec F S512x512 .f32) (x1 : Vec F S512x512 .bf16) (x2 : Vec F S512x512 .bf16) (x3 : Vec F S512x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__proj_kernel i arg0 harg0 arg1 harg1 arg2 harg2 arg3 harg3 arg4 harg4) K := by
  simp only [cc2__proj_kernel_eq_skeleton]; unfold cc2__proj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Word.Reg2.lean ====
/- Region 2 as a segment of the program: from the buffers after the host stretch that rounds the output projection and
   reshapes its bias, to the same buffers with the result array at what the six points wrote back. -/
import proofs.«113005_j19404662243884_2_alg».proof.Proof.Word.KState
import proofs.«113005_j19404662243884_2_alg».proof.Proof.Word.Body2

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

/-- The TensorCore's buffers when region 2 is left. -/
abbrev E3 : Entry F := fun c b => Gen.V7 m outs c b

/-- At the region's exit an input array holds what it held at entry, -/
theorem hF2_in (c : Dev nD) (w : Fin 5) (hw : (cfg2.win w).isOut = false) (hne : Pipeline.arrRef spec2 w ∉ ([main_v47] : List (Ref sig .tc))) :
    (dat2 (E2 m outs) c).arrAt w cfg2.N = E3 m outs c (Pipeline.arrRef spec2 w) :=
  ((dat2 (E2 m outs) c).arrAt_in w hw _).trans ((A_eq2 _ c w).trans (Gen.V7_of m outs c _ hne).symm)

/-- and the output array the write-backs of all the points. -/
theorem hF2_out (hout : ∀ c, outs 7 main_v47 c = (dat2 (E2 m outs) c).arrAt 4 cfg2.N) (c : Dev nD) :
    (dat2 (E2 m outs) c).arrAt 4 cfg2.N = E3 m outs c (Pipeline.arrRef spec2 4) := by
  rw [← hout c]
  exact (Function.update_self (f := Gen.V6 m outs c) (Proc.devRef .tc main_v47) (outs 7 main_v47 c)).symm

/-- Window by window: at the region's exit every array behind a window holds what the exit contents say — the inputs
    unchanged, the result array at what the six points wrote back. -/
theorem hF2 (hout : ∀ c, outs 7 main_v47 c = (dat2 (E2 m outs) c).arrAt 4 cfg2.N) (c : Dev nD) :
    ∀ w : Fin 5, (dat2 (E2 m outs) c).arrAt w cfg2.N = E3 m outs c (Pipeline.arrRef spec2 w)
  | 0 => hF2_in m outs c 0 rfl (by decide)
  | 1 => hF2_in m outs c 1 rfl (by decide)
  | 2 => hF2_in m outs c 2 rfl (by decide)
  | 3 => hF2_in m outs c 3 rfl (by decide)
  | 4 => hF2_out m outs hout c
  | ⟨_ + 5, h⟩ => absurd h (Nat.not_lt.2 (Nat.le_add_left _ _))

/-- Every other buffer holds what it held at entry. -/
theorem hrest2 (c : Dev nD) : ∀ b, b ∉ Finset.univ.image (Pipeline.arrRef spec2) → E3 m outs c b = E2 m outs c b :=
  fun b hb => Gen.V7_of m outs c b fun h => hb (Finset.mem_image.mpr ⟨4, Finset.mem_univ _,
    (by decide : Pipeline.arrRef spec2 (4 : Fin 5) = main_v47).trans (List.mem_singleton.mp h).symm⟩)

set_option backward.isDefEq.respectTransparency.types false in
/-- The region over the thread state: entered from every unscoped buffer at the entry contents, left at the exit
    contents. Its arrays are split out of the unscoped buffers and put back; the generator register goes into the
    pipeline's invariant and comes out; nothing is owed; the kernel has no semaphore of its own. -/
def R2 (hout : ∀ c, outs 7 main_v47 c = (dat2 (E2 m outs) c).arrAt 4 cfg2.N) :
    Pipeline.RegionSeg (pcfgs (F := F)) Gen.adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (Gen.V6 m outs c) ∗ Rst c)
  post c := iprop(StableHlo.held (c : Thread nD τ) (Pipeline.ucRefs τ sig) (Gen.V7 m outs c) ∗ Rst c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) (E2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      (E2 m outs c) (E3 m outs c) ((pdats m outs 2 c).arrAt · cfg2.N) (hF2 m outs hout c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from every unscoped buffer at the contents before it, beside the generator register and
    nothing owed, -/
theorem R2_pre (hout : ∀ c, outs 7 main_v47 c = (dat2 (E2 m outs) c).arrAt 4 cfg2.N) (c : Dev nD) :
    (R2 m outs hout).pre c = iprop(StableHlo.held (c : Thread nD τ) (Pipeline.ucRefs τ sig) (Gen.V6 m outs c) ∗ Rst c) := rfl
/-- and left at the same with the result array replaced by what the region's points wrote back. -/
theorem R2_post (hout : ∀ c, outs 7 main_v47 c = (dat2 (E2 m outs) c).arrAt 4 cfg2.N) (c : Dev nD) :
    (R2 m outs hout).post c = iprop(StableHlo.held (c : Thread nD τ) (Pipeline.ucRefs τ sig) (Gen.V7 m outs c) ∗ Rst c) := rfl

end Cert.Kernel.Hand

end
-- ==== Proof.Word.Run.lean ====
/- The kernel program's run through its three regions with the result array named: what each region leaves in its
   output array is defined region by region — the projected array from the buffers after the first host stretches,
   the attention array from the buffers holding that, the result from the buffers holding both — and every weakly fair
   execution from a memory with zero counters ends with the result array at the last of these and the seven
   arguments as launched. -/
import proofs.«113005_j19404662243884_2_alg».proof.Proof.Word.Reg0
import proofs.«113005_j19404662243884_2_alg».proof.Proof.Word.Reg1
import proofs.«113005_j19404662243884_2_alg».proof.Proof.Word.Reg2

-- the blocks' extents (up to 1536×3072) are walked a coordinate at a time where a rectangle's membership is decided
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Pipeline (Seg HostSeg RegionSeg)

local notation "𝕄" => MT nD τ sig Unit (Elt F) ℕ (UR sig nD τ) ℕ

variable (m : (ℓ : Loc nD τ sig) → Buf (Elt F) ℓ) (ρ : Dev nD → PrngReg)

/-! ## What the regions leave, region by region -/

/-- The projected array after region 0: the six points' write-backs over the buffers the host stretches leave. -/
def o4 (c : Dev nD) : Buf (Elt F) ((c : Thread nD τ).loc main_v43) := (dat0 (E0 m) c).arrAt 5 cfg0.N
/-- The buffers after region 0: those the host stretches leave, the projected array replaced by `o4`. -/
def X4 (c : Dev nD) : Valuation τ sig (Elt F) := Function.update (Gen.V3 m c) main_v43 (o4 m c)
/-- Region 1's entry contents: the buffers after region 0, read at the TensorCore's references. -/
abbrev EX4 : Entry F := fun c b => X4 m c b
/-- The attention array after region 1: the ninety-six points' write-backs, computed from the entry contents `EX4`. -/
def o5 (c : Dev nD) : Buf (Elt F) ((c : Thread nD τ).loc main_v44) := (dat1 (EX4 m) c).arrAt 3 cfg1.N
/-- The buffers after region 1: those after region 0, the attention array replaced by `o5`. -/
def X5 (c : Dev nD) : Valuation τ sig (Elt F) := Function.update (X4 m c) main_v44 (o5 m c)
/-- The buffers after the host stretch that follows region 1 (the output projection rounded, its bias reshaped). -/
def X6 (c : Dev nD) : Valuation τ sig (Elt F) := StableHlo.after hostOps2 (X5 m c)
/-- Region 2's entry contents: the buffers after that host stretch, read at the TensorCore's references. -/
abbrev EX6 : Entry F := fun c b => X6 m c b
/-- The result array after region 2: the six points' write-backs, computed from the entry contents `EX6`. -/
def o7 (c : Dev nD) : Buf (Elt F) ((c : Thread nD τ).loc main_v47) := (dat2 (EX6 m) c).arrAt 4 cfg2.N
/-- The buffers at the end: those entering region 2, the result array replaced by `o7`. -/
def X7 (c : Dev nD) : Valuation τ sig (Elt F) := Function.update (X6 m c) main_v47 (o7 m c)

/-- What the regions leave in the buffers they may change: after item 3 the buffers `X4`, after item 4 `X5`, after
    item 6 `X7`. -/
def outsOf : Gen.Outs (F := F) := fun j r c =>
  match j with
  | 4 => X4 m c r
  | 5 => X5 m c r
  | _ => X7 m c r

/-- Read at the projected array, the contents after item 3 are `o4`. -/
theorem outsOf_4 (c : Dev nD) : outsOf m 4 main_v43 c = o4 m c := by
  show X4 m c (Proc.devRef .tc main_v43) = _
  unfold X4; exact Function.update_self _ _ _
/-- With these contents, the buffers between region 0 and region 1 are `X4`. -/
theorem V4_eq (c : Dev nD) : Gen.V4 m (outsOf m) c = X4 m c := by
  show Function.update (Gen.V3 m c) (Proc.devRef .tc main_v43) (outsOf m 4 main_v43 c) = _
  rw [outsOf_4]; rfl
/-- So region 1 is entered from `EX4`. -/
theorem E1_eq : E1 m (outsOf m) = EX4 m := by
  funext c b; show Gen.V4 m (outsOf m) c b = _; rw [V4_eq]
/-- Read at the attention array, the contents after item 4 are `o5`. -/
theorem outsOf_5 (c : Dev nD) : outsOf m 5 main_v44 c = o5 m c := by
  show X5 m c (Proc.devRef .tc main_v44) = _
  unfold X5; exact Function.update_self _ _ _
/-- The buffers after region 1 are `X5`, -/
theorem V5_eq (c : Dev nD) : Gen.V5 m (outsOf m) c = X5 m c := by
  show Function.update (Gen.V4 m (outsOf m) c) (Proc.devRef .tc main_v44) (outsOf m 5 main_v44 c) = _
  rw [outsOf_5, V4_eq]; rfl
/-- and after the host stretch that follows it `X6`. -/
theorem V6_eq (c : Dev nD) : Gen.V6 m (outsOf m) c = X6 m c := by
  show StableHlo.after hostOps2 (Gen.V5 m (outsOf m) c) = _
  rw [V5_eq]; rfl
/-- So region 2 is entered from `EX6`. -/
theorem E2_eq : E2 m (outsOf m) = EX6 m := by
  funext c b; show Gen.V6 m (outsOf m) c b = _; rw [V6_eq]
/-- Read at the result array, the contents after item 6 are `o7`. -/
theorem outsOf_7 (c : Dev nD) : outsOf m 7 main_v47 c = o7 m c := by
  show X7 m c (Proc.devRef .tc main_v47) = _
  unfold X7; exact Function.update_self _ _ _

/-- The three equations that tie the regions' results to the proof data: each region's output array is what its
    points' write-backs leave, computed from the buffers the region is entered from. -/
theorem hout4 (c : Dev nD) : outsOf m 4 main_v43 c = (dat0 (E0 m) c).arrAt 5 cfg0.N := outsOf_4 m c
theorem hout5 (c : Dev nD) : outsOf m 5 main_v44 c = (dat1 (E1 m (outsOf m)) c).arrAt 3 cfg1.N := by
  rw [outsOf_5, E1_eq]; rfl
theorem hout7 (c : Dev nD) : outsOf m 7 main_v47 c = (dat2 (E2 m (outsOf m)) c).arrAt 4 cfg2.N := by
  rw [outsOf_7, E2_eq]; rfl

/-! ## The run -/

variable (outs : Gen.Outs (F := F))

/-- The last thread state: the buffers and the generator register beside the core owing nothing. -/
theorem last_step (c : Dev nD) :
    (iprop(StableHlo.held (c : Thread nD τ) (Pipeline.ucRefs τ sig) (Gen.V7 m outs c) ∗ Rst c) : sProp 𝕄)
      ⊢ iprop((StableHlo.held (c : Thread nD τ) (Pipeline.ucRefs τ sig) (Gen.V7 m outs c) ∗ ∃ r, prngReg c r)
          ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in
/-- For ANY contents `outs` that satisfy the three equations: every weakly fair execution of @main from memory `m`
    with zero counters terminates, and every final memory holds the result array at `outs 7 main_v47` and each
    argument as launched. -/
theorem run_of
    (h4 : ∀ c, outs 4 main_v43 c = (dat0 (E0 m) c).arrAt 5 cfg0.N)
    (h5 : ∀ c, outs 5 main_v44 c = (dat1 (E1 m outs) c).arrAt 3 cfg1.N)
    (h7 : ∀ c, outs 7 main_v47 c = (dat2 (E2 m outs) c).arrAt 4 cfg2.N) :
    θ_run defs (onTc (τ := τ) (main (F := F))) ⟨m, fun _ => 0, ρ⟩ (fun r => ∀ c : Dev nD,
      r.2.mem ((c.tc : Thread nD τ).loc main_v47) = outs 7 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_dev (pcfgs (F := F)) Gen.adm (pdats m outs) () cellOf_inj emb₁ defs₀ 𝒱₀ L lv m ρ main
    (Gen.segs m outs 𝒱₀ L lv Erest () (pdats m outs) (R0 m outs h4) (R1 m outs h5) (R2 m outs h7))
    (fun c Q => by
      rewrite [main_chain c, Seg.run_eq_chain,
        show (Gen.segs m outs 𝒱₀ L lv Erest () (pdats m outs) (R0 m outs h4) (R1 m outs h5) (R2 m outs h7) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => iprop(StableHlo.held (c : Thread nD τ) (Pipeline.ucRefs τ sig) (Gen.V7 m outs c) ∗ ∃ r, prngReg c r))
    (hch := fun c => ⟨.rfl, .rfl, .rfl, .rfl, .rfl, .rfl, .rfl, last_step m outs c⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m outs c b)
    (hfin := fun c s' => by
      iintro ⟨⟨Hh, -⟩, HSI⟩
      unfold StableHlo.held
      imodintro
      iapply (pointsTo_read_all (Pipeline.ucRefs τ sig) (fun b => (((c : Thread nD τ)).1, b)) (Gen.V7 m outs c) s')
      isplitl [Hh] <;> iassumption)
    (hQ := fun s h c =>
      ⟨(h c _ (mem_uc main_v47 (by decide))).trans (Function.update_self (f := Gen.V6 m outs c) (Proc.devRef .tc main_v47) (outs 7 main_v47 c)),
        (h c _ (mem_uc main_arg0 (by decide))).trans (Gen.V7_main_arg0 m outs c),
        (h c _ (mem_uc main_arg1 (by decide))).trans (Gen.V7_main_arg1 m outs c),
        (h c _ (mem_uc main_arg2 (by decide))).trans (Gen.V7_main_arg2 m outs c),
        (h c _ (mem_uc main_arg3 (by decide))).trans (Gen.V7_main_arg3 m outs c),
        (h c _ (mem_uc main_arg4 (by decide))).trans (Gen.V7_main_arg4 m outs c),
        (h c _ (mem_uc main_arg5 (by decide))).trans (Gen.V7_main_arg5 m outs c),
        (h c _ (mem_uc main_arg6 (by decide))).trans (Gen.V7_main_arg6 m outs c)⟩)

/-- THE RUN, THE RESULT NAMED: contents `outs` exist with which every weakly fair execution of @main from memory `m`
    with zero counters terminates, every final memory holding the result array at `outs 7 main_v47` and the
    arguments as launched, and which are, region by region, what the pipeline's write-backs leave. -/
theorem run_named : ∃ outs : Gen.Outs (F := F),
    (θ_run defs (onTc (τ := τ) (main (F := F))) ⟨m, fun _ => 0, ρ⟩ (fun r => ∀ c : Dev nD,
      r.2.mem ((c.tc : Thread nD τ).loc main_v47) = outs 7 main_v47 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)))
    ∧ (∀ c, outs 4 main_v43 c = (pdats m outs 0 c).arrAt 5 cfg0.N)
    ∧ (∀ c, outs 5 main_v44 c = (pdats m outs 1 c).arrAt 3 cfg1.N)
    ∧ (∀ c, outs 7 main_v47 c = (pdats m outs 2 c).arrAt 4 cfg2.N) :=
  ⟨outsOf m, run_of m ρ (outsOf m) (hout4 m) (hout5 m) (hout7 m), hout4 m, hout5 m, hout7 m⟩

end Cert.Kernel.Hand

end
-- ==== Proof.ClaimsFrame.lean ====
/-
  The kernel program's two frame claims: read at the word level and at the ideal instance it runs through its three
  regions to the end, faults nowhere, and leaves its seven argument arrays unchanged — the named run with the result
  dropped.
-/
import proofs.«113005_j19404662243884_2_alg».proof.Defs
import proofs.«113005_j19404662243884_2_alg».proof.Proof.Gen.Kernel
import proofs.«113005_j19404662243884_2_alg».proof.Proof.Gen.KernelIdeal
import proofs.«113005_j19404662243884_2_alg».proof.Proof.Gen.Pre_finite_inputs
import proofs.«113005_j19404662243884_2_alg».proof.Proof.Run
import proofs.«113005_j19404662243884_2_alg».proof.Proof.Word.Run

noncomputable section

open Idealize.ShloMosaic Idealize.ShloMosaic.TcCoe Idealize.SL.Sem

namespace Cert.Proof.FrameClaims

/-- The word-level kernel program runs and leaves its arguments unchanged. -/
theorem frame_k : Cert.frame_Kernel := fun m ρ _ => by
  obtain ⟨outs, hrun, -⟩ := Cert.Kernel.Hand.run_named (F := Bits) m ρ
  exact (θ_run Cert.Kernel.defs _ _).mono (fun _ h c => (h c).2) hrun

/-- The idealized kernel program runs and leaves its arguments unchanged. -/
theorem frame_ki : Cert.frame_KernelIdeal := fun m ρ _ => by
  obtain ⟨outs, hrun, -⟩ := Cert.KernelIdeal.Hand.run_named (F := Ideal) m ρ
  exact (θ_run Cert.KernelIdeal.defs _ _).mono (fun _ h c => (h c).2) hrun

end Cert.Proof.FrameClaims

end
-- ==== Proof.RefOps.lean ====
/-
  The reference as one straight line of operations.

  The reference calls the variance as a function, which itself calls a guarded select; both bodies are written
  out at their call over the call's own buffers, so the program is one list of eighty-three operations: eight up
  to the call (the re-laying into groups, the group sums, the mean), the variance's twenty and its select's three,
  twenty-six from the normalisation to the three slices of the projected rows, and twenty-six for the attention
  and the result.
-/
import proofs.«113005_j19404662243884_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ reshape main_arg0 main_v0 rfl shapeCasts_S512x3072_S32x49152,
    nullary main_cst (constant S_ .f32 0x00000000#32),
    binary main_v0 main_cst main_v1 ((fun x v => Host.reduceAdd x v reducesTo_S32x49152_S32_d1 h_S_) : (⟨S32x49152, .f32⟩ : BufTy).Contents (Elt F) → (⟨S_, .f32⟩ : BufTy).Contents (Elt F) → (⟨S32, .f32⟩ : BufTy).Contents (Elt F)),
    unary main_v1 main_v2 (broadcastInDim S32x1 ![0] bcast_S32_S32x1_0 : (⟨S32, .f32⟩ : BufTy).Contents (Elt F) → (⟨S32x1, .f32⟩ : BufTy).Contents (Elt F)),
    nullary main_cst_0 (constant S_ .f32 0x47400000#32),
    unary main_cst_0 main_v3 (broadcastInDim S32x1 ![] bcast_S_S32x1 : (⟨S_, .f32⟩ : BufTy).Contents (Elt F) → (⟨S32x1, .f32⟩ : BufTy).Contents (Elt F)),
    binary main_v2 main_v3 main_v4 (Host.divf : (⟨S32x1, .f32⟩ : BufTy).Contents (Elt F) → (⟨S32x1, .f32⟩ : BufTy).Contents (Elt F) → (⟨S32x1, .f32⟩ : BufTy).Contents (Elt F)),
    nullary main_c (constantI S_ 32 0#32),
TRef.nullary main_call0.cst (constant S_ .f32 0x00000000#32),
    TRef.binary (.of main_v0) main_call0.cst main_call0.v0 (fun x v => Host.reduceAdd x v reducesTo_S32x49152_S32_d1 h_S_),
    TRef.unary main_call0.v0 main_call0.v1 (broadcastInDim S32x1 ![0] bcast_S32_S32x1_0),
    TRef.nullary main_call0.cst_0 (constant S_ .f32 0x47400000#32),
    TRef.unary main_call0.cst_0 main_call0.v2 (broadcastInDim S32x1 ![] bcast_S_S32x1),
    TRef.binary main_call0.v1 main_call0.v2 main_call0.v3 Host.divf,
    TRef.unary main_call0.v3 main_call0.v4 (broadcastInDim S32x49152 ![0, 1] bcast_S32x1_S32x49152_0_1),
    TRef.binary (.of main_v0) main_call0.v4 main_call0.v5 subf,
    TRef.binary main_call0.v5 main_call0.v5 main_call0.v6 mulf,
    TRef.unary (.of main_c) main_call0.v7 (sitofp .f32),
    TRef.nullary main_call0.cst_1 (constant S_ .f32 0x47400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x49152_S32_d1 h_S_),
    TRef.unary main_call0.v9 main_call0.v10 (broadcastInDim S32x1 ![0] bcast_S32_S32x1_0),
    TRef.unary main_call0.v8 main_call0.v11 (broadcastInDim S32x1 ![] bcast_S_S32x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S32x1 ![] bcast_S_S32x1),
    TRef.ternary main_call0.v13 main_call0.v12 main_call0.call0.v1 main_call0.call0.v2 (fun p a b => select (broadcastInDim S32x1 ![] bcast_S_S32x1 p) a b),
unary main_v4 main_v6 (broadcastInDim S32x49152 ![0, 1] bcast_S32x1_S32x49152_0_1 : (⟨S32x1, .f32⟩ : BufTy).Contents (Elt F) → (⟨S32x49152, .f32⟩ : BufTy).Contents (Elt F)),
    binary main_v0 main_v6 main_v7 (subf : (⟨S32x49152, .f32⟩ : BufTy).Contents (Elt F) → (⟨S32x49152, .f32⟩ : BufTy).Contents (Elt F) → (⟨S32x49152, .f32⟩ : BufTy).Contents (Elt F)),
    nullary main_cst_1 (constant S_ .f32 0x3727C5AC#32),
    unary main_cst_1 main_v8 (broadcastInDim S32x1 ![] bcast_S_S32x1 : (⟨S_, .f32⟩ : BufTy).Contents (Elt F) → (⟨S32x1, .f32⟩ : BufTy).Contents (Elt F)),
    binary main_v5 main_v8 main_v9 (addf : (⟨S32x1, .f32⟩ : BufTy).Contents (Elt F) → (⟨S32x1, .f32⟩ : BufTy).Contents (Elt F) → (⟨S32x1, .f32⟩ : BufTy).Contents (Elt F)),
    unary main_v9 main_v10 (Host.rsqrt : (⟨S32x1, .f32⟩ : BufTy).Contents (Elt F) → (⟨S32x1, .f32⟩ : BufTy).Contents (Elt F)),
    unary main_v10 main_v11 (broadcastInDim S32x49152 ![0, 1] bcast_S32x1_S32x49152_0_1 : (⟨S32x1, .f32⟩ : BufTy).Contents (Elt F) → (⟨S32x49152, .f32⟩ : BufTy).Contents (Elt F)),
    binary main_v7 main_v11 main_v12 (mulf : (⟨S32x49152, .f32⟩ : BufTy).Contents (Elt F) → (⟨S32x49152, .f32⟩ : BufTy).Contents (Elt F) → (⟨S32x49152, .f32⟩ : BufTy).Contents (Elt F)),
    reshape main_v12 main_v13 rfl shapeCasts_S32x49152_S512x3072,
    unary main_arg1 main_v14 (broadcastInDim S512x1 ![0] bcast_S512_S512x1_0 : (⟨S512, .f32⟩ : BufTy).Contents (Elt F) → (⟨S512x1, .f32⟩ : BufTy).Contents (Elt F)),
    unary main_v14 main_v15 (broadcastInDim S512x3072 ![0, 1] bcast_S512x1_S512x3072_0_1 : (⟨S512x1, .f32⟩ : BufTy).Contents (Elt F) → (⟨S512x3072, .f32⟩ : BufTy).Contents (Elt F)),
    binary main_v13 main_v15 main_v16 (mulf : (⟨S512x3072, .f32⟩ : BufTy).Contents (Elt F) → (⟨S512x3072, .f32⟩ : BufTy).Contents (Elt F) → (⟨S512x3072, .f32⟩ : BufTy).Contents (Elt F)),
    unary main_arg2 main_v17 (broadcastInDim S512x1 ![0] bcast_S512_S512x1_0 : (⟨S512, .f32⟩ : BufTy).Contents (Elt F) → (⟨S512x1, .f32⟩ : BufTy).Contents (Elt F)),
    unary main_v17 main_v18 (broadcastInDim S512x3072 ![0, 1] bcast_S512x1_S512x3072_0_1 : (⟨S512x1, .f32⟩ : BufTy).Contents (Elt F) → (⟨S512x3072, .f32⟩ : BufTy).Contents (Elt F)),
    binary main_v16 main_v18 main_v19 (addf : (⟨S512x3072, .f32⟩ : BufTy).Contents (Elt F) → (⟨S512x3072, .f32⟩ : BufTy).Contents (Elt F) → (⟨S512x3072, .f32⟩ : BufTy).Contents (Elt F)),
    binary main_arg3 main_v19 main_v20 ((fun l r => Host.dotGeneral dot_S1536x512_S512x3072_S1536x3072_1_0_0_1_n_n none l r) : (⟨S1536x512, .f32⟩ : BufTy).Contents (Elt F) → (⟨S512x3072, .f32⟩ : BufTy).Contents (Elt F) → (⟨S1536x3072, .f32⟩ : BufTy).Contents (Elt F)),
    unary main_arg4 main_v21 (broadcastInDim S1536x1 ![0] bcast_S1536_S1536x1_0 : (⟨S1536, .f32⟩ : BufTy).Contents (Elt F) → (⟨S1536x1, .f32⟩ : BufTy).Contents (Elt F)),
    unary main_v21 main_v22 (broadcastInDim S1536x3072 ![0, 1] bcast_S1536x1_S1536x3072_0_1 : (⟨S1536x1, .f32⟩ : BufTy).Contents (Elt F) → (⟨S1536x3072, .f32⟩ : BufTy).Contents (Elt F)),
    binary main_v20 main_v22 main_v23 (addf : (⟨S1536x3072, .f32⟩ : BufTy).Contents (Elt F) → (⟨S1536x3072, .f32⟩ : BufTy).Contents (Elt F) → (⟨S1536x3072, .f32⟩ : BufTy).Contents (Elt F)),
    reshape main_v23 main_v24 rfl shapeCasts_S1536x3072_S8x64x3x3072,
    unary main_v24 main_v25 ((extractStridedSlice S8x64x1x3072 ![0, 0, 0, 0] · slices_S8x64x3x3072_S8x64x1x3072_0_0_0_0) : (⟨S8x64x3x3072, .f32⟩ : BufTy).Contents (Elt F) → (⟨S8x64x1x3072, .f32⟩ : BufTy).Contents (Elt F)),
    reshape main_v25 main_v26 rfl shapeCasts_S8x64x1x3072_S8x64x3072,
    unary main_v24 main_v27 ((extractStridedSlice S8x64x1x3072 ![0, 0, 1, 0] · slices_S8x64x3x3072_S8x64x1x3072_0_0_1_0) : (⟨S8x64x3x3072, .f32⟩ : BufTy).Contents (Elt F) → (⟨S8x64x1x3072, .f32⟩ : BufTy).Contents (Elt F)),
    reshape main_v27 main_v28 rfl shapeCasts_S8x64x1x3072_S8x64x3072,
    unary main_v24 main_v29 ((extractStridedSlice S8x64x1x3072 ![0, 0, 2, 0] · slices_S8x64x3x3072_S8x64x1x3072_0_0_2_0) : (⟨S8x64x3x3072, .f32⟩ : BufTy).Contents (Elt F) → (⟨S8x64x1x3072, .f32⟩ : BufTy).Contents (Elt F)),
    reshape main_v29 main_v30 rfl shapeCasts_S8x64x1x3072_S8x64x3072,
binary main_v26 main_v28 main_v31 ((fun l r => Host.dotGeneral dot_S8x64x3072_S8x64x3072_S8x3072x3072_1_1_2_2_0_0 none l r) : (⟨S8x64x3072, .f32⟩ : BufTy).Contents (Elt F) → (⟨S8x64x3072, .f32⟩ : BufTy).Contents (Elt F) → (⟨S8x3072x3072, .f32⟩ : BufTy).Contents (Elt F)),
    nullary main_cst_2 (constant S_ .f32 0x42800000#32),
    unary main_cst_2 main_v32 (Host.sqrt : (⟨S_, .f32⟩ : BufTy).Contents (Elt F) → (⟨S_, .f32⟩ : BufTy).Contents (Elt F)),
    unary main_v32 main_v33 (broadcastInDim S8x3072x3072 ![] bcast_S_S8x3072x3072 : (⟨S_, .f32⟩ : BufTy).Contents (Elt F) → (⟨S8x3072x3072, .f32⟩ : BufTy).Contents (Elt F)),
    binary main_v31 main_v33 main_v34 (Host.divf : (⟨S8x3072x3072, .f32⟩ : BufTy).Contents (Elt F) → (⟨S8x3072x3072, .f32⟩ : BufTy).Contents (Elt F) → (⟨S8x3072x3072, .f32⟩ : BufTy).Contents (Elt F)),
    nullary main_cst_3 (constant S_ .f32 0xFF800000#32),
    binary main_v34 main_cst_3 main_v35 ((fun x v => Host.reduce FloatOps.maximumf x v reducesTo_S8x3072x3072_S8x3072_d2 h_S_) : (⟨S8x3072x3072, .f32⟩ : BufTy).Contents (Elt F) → (⟨S_, .f32⟩ : BufTy).Contents (Elt F) → (⟨S8x3072, .f32⟩ : BufTy).Contents (Elt F)),
    nullary main_cst_4 (constant S_ .f32 0xFF800000#32),
    unary main_cst_4 main_v36 (broadcastInDim S8x3072 ![] bcast_S_S8x3072 : (⟨S_, .f32⟩ : BufTy).Contents (Elt F) → (⟨S8x3072, .f32⟩ : BufTy).Contents (Elt F)),
    binary main_v36 main_v35 main_v37 (maximumf : (⟨S8x3072, .f32⟩ : BufTy).Contents (Elt F) → (⟨S8x3072, .f32⟩ : BufTy).Contents (Elt F) → (⟨S8x3072, .f32⟩ : BufTy).Contents (Elt F)),
    unary main_v37 main_v38 (broadcastInDim S8x3072x1 ![0, 1] bcast_S8x3072_S8x3072x1_0_1 : (⟨S8x3072, .f32⟩ : BufTy).Contents (Elt F) → (⟨S8x3072x1, .f32⟩ : BufTy).Contents (Elt F)),
    unary main_v38 main_v39 (broadcastInDim S8x3072x3072 ![0, 1, 2] bcast_S8x3072x1_S8x3072x3072_0_1_2 : (⟨S8x3072x1, .f32⟩ : BufTy).Contents (Elt F) → (⟨S8x3072x3072, .f32⟩ : BufTy).Contents (Elt F)),
    binary main_v34 main_v39 main_v40 (subf : (⟨S8x3072x3072, .f32⟩ : BufTy).Contents (Elt F) → (⟨S8x3072x3072, .f32⟩ : BufTy).Contents (Elt F) → (⟨S8x3072x3072, .f32⟩ : BufTy).Contents (Elt F)),
    unary main_v40 main_v41 (Host.exp : (⟨S8x3072x3072, .f32⟩ : BufTy).Contents (Elt F) → (⟨S8x3072x3072, .f32⟩ : BufTy).Contents (Elt F)),
    nullary main_cst_5 (constant S_ .f32 0x00000000#32),
    binary main_v41 main_cst_5 main_v42 ((fun x v => Host.reduceAdd x v reducesTo_S8x3072x3072_S8x3072_d2 h_S_) : (⟨S8x3072x3072, .f32⟩ : BufTy).Contents (Elt F) → (⟨S_, .f32⟩ : BufTy).Contents (Elt F) → (⟨S8x3072, .f32⟩ : BufTy).Contents (Elt F)),
    unary main_v42 main_v43 (broadcastInDim S8x3072x1 ![0, 1] bcast_S8x3072_S8x3072x1_0_1 : (⟨S8x3072, .f32⟩ : BufTy).Contents (Elt F) → (⟨S8x3072x1, .f32⟩ : BufTy).Contents (Elt F)),
    unary main_v43 main_v44 (broadcastInDim S8x3072x3072 ![0, 1, 2] bcast_S8x3072x1_S8x3072x3072_0_1_2 : (⟨S8x3072x1, .f32⟩ : BufTy).Contents (Elt F) → (⟨S8x3072x3072, .f32⟩ : BufTy).Contents (Elt F)),
    binary main_v41 main_v44 main_v45 (Host.divf : (⟨S8x3072x3072, .f32⟩ : BufTy).Contents (Elt F) → (⟨S8x3072x3072, .f32⟩ : BufTy).Contents (Elt F) → (⟨S8x3072x3072, .f32⟩ : BufTy).Contents (Elt F)),
    binary main_v30 main_v45 main_v46 ((fun l r => Host.dotGeneral dot_S8x64x3072_S8x3072x3072_S8x64x3072_2_2_1_1_0_0 none l r) : (⟨S8x64x3072, .f32⟩ : BufTy).Contents (Elt F) → (⟨S8x3072x3072, .f32⟩ : BufTy).Contents (Elt F) → (⟨S8x64x3072, .f32⟩ : BufTy).Contents (Elt F)),
    reshape main_v46 main_v47 rfl shapeCasts_S8x64x3072_S512x3072,
    binary main_arg5 main_v47 main_v48 ((fun l r => Host.dotGeneral dot_S512x512_S512x3072_S512x3072_1_0_0_1_n_n none l r) : (⟨S512x512, .f32⟩ : BufTy).Contents (Elt F) → (⟨S512x3072, .f32⟩ : BufTy).Contents (Elt F) → (⟨S512x3072, .f32⟩ : BufTy).Contents (Elt F)),
    binary main_arg0 main_v48 main_v49 (addf : (⟨S512x3072, .f32⟩ : BufTy).Contents (Elt F) → (⟨S512x3072, .f32⟩ : BufTy).Contents (Elt F) → (⟨S512x3072, .f32⟩ : BufTy).Contents (Elt F)),
    unary main_arg6 main_v50 (broadcastInDim S512x1 ![0] bcast_S512_S512x1_0 : (⟨S512, .f32⟩ : BufTy).Contents (Elt F) → (⟨S512x1, .f32⟩ : BufTy).Contents (Elt F)),
    unary main_v50 main_v51 (broadcastInDim S512x3072 ![0, 1] bcast_S512x1_S512x3072_0_1 : (⟨S512x1, .f32⟩ : BufTy).Contents (Elt F) → (⟨S512x3072, .f32⟩ : BufTy).Contents (Elt F)),
    binary main_v49 main_v51 main_v52 (addf : (⟨S512x3072, .f32⟩ : BufTy).Contents (Elt F) → (⟨S512x3072, .f32⟩ : BufTy).Contents (Elt F) → (⟨S512x3072, .f32⟩ : BufTy).Contents (Elt F)) ]

set_option maxRecDepth 8192 in
set_option maxHeartbeats 4000000 in  -- eighty-three sequenced operations, each re-associated in turn: a long chain
/-- The program is that line: the two functions' bodies unfolded at their calls, the sequencing re-associated. -/
theorem main_eq (c : Dev nD) : main (F := F) c = seq ops := by
  simp only [main, main_part0, main_part1, fn_var.body, fn_where.body, seq, bind_assoc, pure_bind, ops]

/-- The signature scopes no buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

set_option maxRecDepth 8192 in
/-- Every operation touches TensorCore buffers only: each of the eighty-three, by the fact for its arity. -/
theorem ops_sub : (ops : List (HloOp τ sig (Elt F))).Forall fun op => op.bufs ⊆ tcRefs τ sig := by
  simp only [ops, List.Forall, nullary_bufs_sub, unary_bufs_sub, binary_bufs_sub, ternary_bufs_sub, reshape_bufs_sub,
    and_self]

end Cert.ReferenceIdeal.RefValue

end
-- ==== Proof.RefTerm.lean ====
/-
  The reference's operations composed, stage by stage, as functions of whole arrays.

  Each stage is the composition of a few consecutive operations of the reference: the re-laying of the input
  into 32 groups of 49152 entries; a group's mean and its variance (the variance through its guarded quotient);
  the normalised, scaled and shifted array; the projected rows; the three slices (query, key, value) of the
  re-laid rows; the scaled scores; a score row's maximum; the exponentials of the deviations; the weights; the
  attended values re-laid to channels; and the result.
-/
import proofs.«113005_j19404662243884_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- An array of extended reals over a shape. -/
abbrev Arr (s : Shape) : Type := FVec Ideal s .f32

/-- The input re-laid as 32 groups of 49152 entries. -/
def sGrp (a0 : Arr S512x3072) : Arr S32x49152 := shapeCast S32x49152 a0 shapeCasts_S512x3072_S32x49152

/-- A group's mean, kept as a column. -/
def sMean (v0 : Arr S32x49152) : Arr S32x1 :=
  Host.divf
    (broadcastInDim S32x1 ![0] bcast_S32_S32x1_0
      (Host.reduceAdd v0 (constant (F := Ideal) S_ .f32 0x00000000#32) reducesTo_S32x49152_S32_d1 h_S_))
    (broadcastInDim S32x1 ![] bcast_S_S32x1 (constant (F := Ideal) S_ .f32 0x47400000#32))

/-- The count the variance divides by: 49152 minus the zero correction. -/
def sCount : Arr S_ :=
  subf (constant (F := Ideal) S_ .f32 0x47400000#32) (sitofp (F := Ideal) .f32 (constantI S_ 32 0#32))

/-- A group's variance, kept as a column: the guarded quotient of the summed squared deviations by the count. -/
def sVar (v0 : Arr S32x49152) : Arr S32x1 :=
  select
    (broadcastInDim S32x1 ![] bcast_S_S32x1 (cmpf .ogt sCount (constant (F := Ideal) S_ .f32 0x00000000#32)))
    (Host.divf
      (broadcastInDim S32x1 ![0] bcast_S32_S32x1_0
        (Host.reduceAdd
          (mulf (subf v0 (broadcastInDim S32x49152 ![0, 1] bcast_S32x1_S32x49152_0_1 (sMean v0)))
            (subf v0 (broadcastInDim S32x49152 ![0, 1] bcast_S32x1_S32x49152_0_1 (sMean v0))))
          (constant (F := Ideal) S_ .f32 0x00000000#32) reducesTo_S32x49152_S32_d1 h_S_))
      (broadcastInDim S32x1 ![] bcast_S_S32x1 sCount))
    (broadcastInDim S32x1 ![] bcast_S_S32x1 (id (constant (F := Ideal) S_ .f32 0x7FC00000#32)))

/-- The normalised array, scaled and shifted per channel. -/
def sXn (v0 : Arr S32x49152) (a1 a2 : Arr S512) : Arr S512x3072 :=
  addf
    (mulf
      (shapeCast S512x3072
        (mulf (subf v0 (broadcastInDim S32x49152 ![0, 1] bcast_S32x1_S32x49152_0_1 (sMean v0)))
          (broadcastInDim S32x49152 ![0, 1] bcast_S32x1_S32x49152_0_1
            (Host.rsqrt (addf (sVar v0)
              (broadcastInDim S32x1 ![] bcast_S_S32x1 (constant (F := Ideal) S_ .f32 0x3727C5AC#32))))))
        shapeCasts_S32x49152_S512x3072)
      (broadcastInDim S512x3072 ![0, 1] bcast_S512x1_S512x3072_0_1 (broadcastInDim S512x1 ![0] bcast_S512_S512x1_0 a1)))
    (broadcastInDim S512x3072 ![0, 1] bcast_S512x1_S512x3072_0_1 (broadcastInDim S512x1 ![0] bcast_S512_S512x1_0 a2))

/-- The projected rows. -/
def sQkv (a3 : Arr S1536x512) (a4 : Arr S1536) (v19 : Arr S512x3072) : Arr S1536x3072 :=
  addf (Host.dotGeneral dot_S1536x512_S512x3072_S1536x3072_1_0_0_1_n_n none a3 v19)
    (broadcastInDim S1536x3072 ![0, 1] bcast_S1536x1_S1536x3072_0_1 (broadcastInDim S1536x1 ![0] bcast_S1536_S1536x1_0 a4))

/-- The queries: part 0 of the rows re-laid by head, channel and part. -/
def sQ (v23 : Arr S1536x3072) : Arr S8x64x3072 :=
  shapeCast S8x64x3072
    (extractStridedSlice S8x64x1x3072 ![0, 0, 0, 0] (shapeCast S8x64x3x3072 v23 shapeCasts_S1536x3072_S8x64x3x3072)
      slices_S8x64x3x3072_S8x64x1x3072_0_0_0_0)
    shapeCasts_S8x64x1x3072_S8x64x3072

/-- The keys: part 1. -/
def sK (v23 : Arr S1536x3072) : Arr S8x64x3072 :=
  shapeCast S8x64x3072
    (extractStridedSlice S8x64x1x3072 ![0, 0, 1, 0] (shapeCast S8x64x3x3072 v23 shapeCasts_S1536x3072_S8x64x3x3072)
      slices_S8x64x3x3072_S8x64x1x3072_0_0_1_0)
    shapeCasts_S8x64x1x3072_S8x64x3072

/-- The values: part 2. -/
def sV (v23 : Arr S1536x3072) : Arr S8x64x3072 :=
  shapeCast S8x64x3072
    (extractStridedSlice S8x64x1x3072 ![0, 0, 2, 0] (shapeCast S8x64x3x3072 v23 shapeCasts_S1536x3072_S8x64x3x3072)
      slices_S8x64x3x3072_S8x64x1x3072_0_0_2_0)
    shapeCasts_S8x64x1x3072_S8x64x3072

/-- The scaled scores. -/
def sSc (q k : Arr S8x64x3072) : Arr S8x3072x3072 :=
  Host.divf (Host.dotGeneral dot_S8x64x3072_S8x64x3072_S8x3072x3072_1_1_2_2_0_0 none q k)
    (broadcastInDim S8x3072x3072 ![] bcast_S_S8x3072x3072 (Host.sqrt (constant (F := Ideal) S_ .f32 0x42800000#32)))

/-- A score row's maximum. -/
def sMx (v34 : Arr S8x3072x3072) : Arr S8x3072 :=
  maximumf (broadcastInDim S8x3072 ![] bcast_S_S8x3072 (constant (F := Ideal) S_ .f32 0xFF800000#32))
    (Host.reduce FloatOps.maximumf v34 (constant (F := Ideal) S_ .f32 0xFF800000#32) reducesTo_S8x3072x3072_S8x3072_d2 h_S_)

/-- The exponentials of the deviations from the row maximum. -/
def sEx (v34 : Arr S8x3072x3072) : Arr S8x3072x3072 :=
  Host.exp (subf v34
    (broadcastInDim S8x3072x3072 ![0, 1, 2] bcast_S8x3072x1_S8x3072x3072_0_1_2
      (broadcastInDim S8x3072x1 ![0, 1] bcast_S8x3072_S8x3072x1_0_1 (sMx v34))))

/-- The attention weights. -/
def sWt (v41 : Arr S8x3072x3072) : Arr S8x3072x3072 :=
  Host.divf v41
    (broadcastInDim S8x3072x3072 ![0, 1, 2] bcast_S8x3072x1_S8x3072x3072_0_1_2
      (broadcastInDim S8x3072x1 ![0, 1] bcast_S8x3072_S8x3072x1_0_1
        (Host.reduceAdd v41 (constant (F := Ideal) S_ .f32 0x00000000#32) reducesTo_S8x3072x3072_S8x3072_d2 h_S_)))

/-- The attended values, re-laid to channels. -/
def sAtt (v : Arr S8x64x3072) (w : Arr S8x3072x3072) : Arr S512x3072 :=
  shapeCast S512x3072 (Host.dotGeneral dot_S8x64x3072_S8x3072x3072_S8x64x3072_2_2_1_1_0_0 none v w)
    shapeCasts_S8x64x3072_S512x3072

/-- The result: the input plus the projection of the attended values, plus the projection's bias. -/
def sOut (a0 : Arr S512x3072) (a5 : Arr S512x512) (a6 : Arr S512) (v47 : Arr S512x3072) : Arr S512x3072 :=
  addf (addf a0 (Host.dotGeneral dot_S512x512_S512x3072_S512x3072_1_0_0_1_n_n none a5 v47))
    (broadcastInDim S512x3072 ![0, 1] bcast_S512x1_S512x3072_0_1 (broadcastInDim S512x1 ![0] bcast_S512_S512x1_0 a6))

/-- The reference's result as one function of its seven argument arrays. -/
def refTerm (a0 : Arr S512x3072) (a1 a2 : Arr S512) (a3 : Arr S1536x512) (a4 : Arr S1536) (a5 : Arr S512x512)
    (a6 : Arr S512) : Arr S512x3072 :=
  sOut a0 a5 a6
    (sAtt (sV (sQkv a3 a4 (sXn (sGrp a0) a1 a2)))
      (sWt (sEx (sSc (sQ (sQkv a3 a4 (sXn (sGrp a0) a1 a2))) (sK (sQkv a3 a4 (sXn (sGrp a0) a1 a2)))))))

end Cert.ReferenceIdeal.RefValue

end
-- ==== Proof.RefAfter.lean ====
/-
  What the straight line leaves in the result buffer and in the argument buffers, as a fold read back.

  The fold of the eighty-three operations over any starting contents, read at the result buffer, is the staged
  composition of the argument arrays; read at an argument buffer it is what was there, since no operation
  writes an argument.
-/
import proofs.«113005_j19404662243884_2_alg».proof.Proof.RefOps
import proofs.«113005_j19404662243884_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

attribute [local irreducible] Host.reduce Host.reduceAdd in
set_option maxRecDepth 8192 in
set_option maxHeartbeats 40000000 in  -- the result depends on all eighty-three operations, and each intermediate array is traced back past every later operation that does not write it
/-- The result buffer after the line holds the staged composition of the seven argument arrays. -/
theorem out_eq (V : Valuation τ sig (Elt Ideal)) :
    after (ops (F := Ideal)) V (main_v52 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  rfl

end Cert.ReferenceIdeal.RefValue

end
-- ==== Proof.RefRun.lean ====
/-
  The reference's run.

  Every weakly fair execution of the reference terminates with the result buffer at the staged composition of the
  seven argument arrays as they were at launch, and the seven argument buffers as they were: no operation of the
  line writes an argument.
-/
import proofs.«113005_j19404662243884_2_alg».proof.Proof.RefAfter

noncomputable section

namespace Cert.ReferenceIdeal.RefValue

open Cert.ReferenceIdeal Cert.ReferenceIdeal.Gen Idealize.ShloMosaic Idealize.ShloMosaic.TcCoe Idealize.SL.Sem Idealize.ShloMosaic.StableHlo

section Args
variable (V : Valuation τ sig (Elt Ideal))

set_option maxRecDepth 8192 in
set_option maxHeartbeats 4000000 in  -- an argument's contents are followed, unchanged, past each of the eighty-three operations
theorem arg0_eq : after (ops (F := Ideal)) V (main_arg0 : DevRef τ sig) = V (main_arg0 : DevRef τ sig) := by after_results_simp
set_option maxRecDepth 8192 in
set_option maxHeartbeats 4000000 in  -- an argument's contents are followed, unchanged, past each of the eighty-three operations
theorem arg1_eq : after (ops (F := Ideal)) V (main_arg1 : DevRef τ sig) = V (main_arg1 : DevRef τ sig) := by after_results_simp
set_option maxRecDepth 8192 in
set_option maxHeartbeats 4000000 in  -- an argument's contents are followed, unchanged, past each of the eighty-three operations
theorem arg2_eq : after (ops (F := Ideal)) V (main_arg2 : DevRef τ sig) = V (main_arg2 : DevRef τ sig) := by after_results_simp
set_option maxRecDepth 8192 in
set_option maxHeartbeats 4000000 in  -- an argument's contents are followed, unchanged, past each of the eighty-three operations
theorem arg3_eq : after (ops (F := Ideal)) V (main_arg3 : DevRef τ sig) = V (main_arg3 : DevRef τ sig) := by after_results_simp
set_option maxRecDepth 8192 in
set_option maxHeartbeats 4000000 in  -- an argument's contents are followed, unchanged, past each of the eighty-three operations
theorem arg4_eq : after (ops (F := Ideal)) V (main_arg4 : DevRef τ sig) = V (main_arg4 : DevRef τ sig) := by after_results_simp
set_option maxRecDepth 8192 in
set_option maxHeartbeats 4000000 in  -- an argument's contents are followed, unchanged, past each of the eighty-three operations
theorem arg5_eq : after (ops (F := Ideal)) V (main_arg5 : DevRef τ sig) = V (main_arg5 : DevRef τ sig) := by after_results_simp
set_option maxRecDepth 8192 in
set_option maxHeartbeats 4000000 in  -- an argument's contents are followed, unchanged, past each of the eighty-three operations
theorem arg6_eq : after (ops (F := Ideal)) V (main_arg6 : DevRef τ sig) = V (main_arg6 : DevRef τ sig) := by after_results_simp

end Args

/-- On every device, from any memory with zero counters: every weakly fair execution of the reference terminates
    with the result at the staged composition of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v52).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefValue

end
-- ==== Proof.Spec.lean ====
/-
  The function both programs compute, written once over coordinates and extended reals, with no program imported.

  Channels 0..511 fall in 32 groups of 16 consecutive channels. Group `g`'s statistics are taken over its 16·3072
  entries, read in row-major order of the [32, 49152] re-laying: entry `k` of group `g` is `x` at channel
  `16·g + k / 3072`, pixel `k % 3072`. The normalised value is `((x − mean) · rstd) · w + b` with
  `rstd = (var + ε)^(-1/2)`. The 1536 projected rows are interleaved: row `(h·64 + d)·3 + j` is head `h`, channel `d`
  of query (j = 0), key (j = 1) or value (j = 2). Scores are `(∑_d q·k) / √64`, normalised along the key axis by
  `exp (s − max) / ∑ exp (s − max)`; the attended value is `∑_k v·w`; the result adds the projection of the attended
  values and its bias to `x`.
-/
import Idealize.ShloMosaic.PureOps.Ideal
import Idealize.ShloMosaic.Lib.ValueIdx

noncomputable section

open Idealize.ShloMosaic Idealize.ShloMosaic.ValueIdx
open scoped BigOperators

namespace Cert.Spec

/-- The channel that entry `k` of group `g` is read from. -/
def gchan (g : Fin 32) (k : Fin 49152) : Fin 512 := ⟨16 * g.val + k.val / 3072, by omega⟩
/-- The pixel that entry `k` of a group is read from. -/
def gpix (k : Fin 49152) : Fin 3072 := ⟨k.val % 3072, Nat.mod_lt _ (by norm_num)⟩
/-- The group of a channel. -/
def grp (c : Fin 512) : Fin 32 := ⟨c.val / 16, by omega⟩
/-- The projected row of head `h`, channel `d`, part `j` (0 query, 1 key, 2 value). -/
def row (h : Fin 8) (d : Fin 64) (j : Fin 3) : Fin 1536 := ⟨(h.val * 64 + d.val) * 3 + j.val, by omega⟩
/-- The head of an attended channel. -/
def hd (c : Fin 512) : Fin 8 := ⟨c.val / 64, by omega⟩
/-- The channel within its head. -/
def dm (c : Fin 512) : Fin 64 := ⟨c.val % 64, Nat.mod_lt _ (by norm_num)⟩

/-- The float words the two programs share, kept as words. -/
abbrev z0 : EReal := Ideal.ofBits .f32 0x00000000#32
abbrev n49152 : EReal := Ideal.ofBits .f32 0x47400000#32
abbrev eps : EReal := Ideal.ofBits .f32 0x3727C5AC#32
abbrev c64 : EReal := Ideal.ofBits .f32 0x42800000#32

section
variable (x : Fin 512 → Fin 3072 → EReal) (nw nb : Fin 512 → EReal)
  (qw : Fin 1536 → Fin 512 → EReal) (qb : Fin 1536 → EReal)
  (pw : Fin 512 → Fin 512 → EReal) (pb : Fin 512 → EReal)

/-- A group's mean: the sum of its entries from the zero word, over 49152. -/
def mean (g : Fin 32) : EReal := Ideal.div (z0 + ∑ k : Fin 49152, x (gchan g k) (gpix k)) n49152
/-- A group's variance: the mean of the squared deviations. -/
def var (g : Fin 32) : EReal :=
  Ideal.div (z0 + ∑ k : Fin 49152, (x (gchan g k) (gpix k) - mean x g) * (x (gchan g k) (gpix k) - mean x g)) n49152
/-- A group's reciprocal standard deviation. -/
def rstd (g : Fin 32) : EReal := Ideal.rsqrt (var x g + eps)
/-- The normalised, scaled and shifted entry. -/
def xn (c : Fin 512) (n : Fin 3072) : EReal := ((x c n - mean x (grp c)) * rstd x (grp c)) * nw c + nb c
/-- The projected rows. -/
def qkv (o : Fin 1536) (n : Fin 3072) : EReal := (∑ c : Fin 512, qw o c * xn x nw nb c n) + qb o
/-- The scaled scores of head `h`, query pixel `i`, key pixel `j`. -/
def sc (h : Fin 8) (i j : Fin 3072) : EReal :=
  Ideal.div (∑ d : Fin 64, qkv x nw nb qw qb (row h d 0) i * qkv x nw nb qw qb (row h d 1) j) (Ideal.sqrt c64)
/-- A score row's maximum. -/
def mx (h : Fin 8) (i : Fin 3072) : EReal := Finset.univ.sup fun j : Fin 3072 => sc x nw nb qw qb h i j
/-- The exponentials of a score row's deviations from its maximum. -/
def ex (h : Fin 8) (i j : Fin 3072) : EReal := Ideal.exp (sc x nw nb qw qb h i j - mx x nw nb qw qb h i)
/-- Their sum from the zero word. -/
def den (h : Fin 8) (i : Fin 3072) : EReal := z0 + ∑ j : Fin 3072, ex x nw nb qw qb h i j
/-- The attention weights. -/
def wt (h : Fin 8) (i j : Fin 3072) : EReal := Ideal.div (ex x nw nb qw qb h i j) (den x nw nb qw qb h i)
/-- The attended value of head `h`, channel `d`, pixel `i`. -/
def att (h : Fin 8) (d : Fin 64) (i : Fin 3072) : EReal :=
  ∑ j : Fin 3072, qkv x nw nb qw qb (row h d 2) j * wt x nw nb qw qb h i j
/-- The result: the input plus the projection of the attended values, plus the projection's bias. -/
def out (c : Fin 512) (n : Fin 3072) : EReal :=
  (x c n + ∑ c' : Fin 512, pw c c' * att x nw nb qw qb (hd c') (dm c') n) + pb c
end

/-- The result as an array function of the seven argument arrays. -/
def Gout (a0 : (⟨2, ![512, 3072]⟩ : Shape).Idx → EReal) (a1 a2 : (⟨1, ![512]⟩ : Shape).Idx → EReal)
    (a3 : (⟨2, ![1536, 512]⟩ : Shape).Idx → EReal) (a4 : (⟨1, ![1536]⟩ : Shape).Idx → EReal)
    (a5 : (⟨2, ![512, 512]⟩ : Shape).Idx → EReal) (a6 : (⟨1, ![512]⟩ : Shape).Idx → EReal) :
    (⟨2, ![512, 3072]⟩ : Shape).Idx → EReal := fun i =>
  out (fun c n => a0 (ix2 c n)) (fun c => a1 (ix1 c)) (fun c => a2 (ix1 c)) (fun o c => a3 (ix2 o c))
    (fun o => a4 (ix1 o)) (fun c c' => a5 (ix2 c c')) (fun c => a6 (ix1 c)) (i 0) (i 1)

end Cert.Spec

end
-- ==== Proof.LitFacts.lean ====
/-
  The float words the two programs mention, evaluated once as extended reals.

  Every word here is a finite binary32 pattern except the negative infinity that starts a maximum and the
  quiet-NaN word the variance's guard would select if its count were not positive; the guard compares
  49152 − 0 with 0 and is therefore true, so the guarded quotient is the one selected.
-/
import proofs.«113005_j19404662243884_2_alg».proof.Proof.Spec

noncomputable section

open Idealize.ShloMosaic

namespace Cert.Spec.Lit

/-- The zero word is zero. -/
theorem z0_eq : z0 = 0 := by simp [z0, Ideal.ofBits, Ideal.ieee]

/-- The word 0x47400000 is 49152 = 1.5 · 2^15. -/
theorem n49152_eq : n49152 = ((49152 : ℝ) : EReal) := by
  simp [n49152, Ideal.ofBits, Ideal.ieee, -EReal.coe_mul]; norm_num

/-- The word 0x42800000 is 64. -/
theorem c64_eq : c64 = ((64 : ℝ) : EReal) := by
  simp [c64, Ideal.ofBits, Ideal.ieee, -EReal.coe_mul]; norm_num

/-- The square root of the word 64 is 8. -/
theorem sqrt_c64 : Ideal.sqrt c64 = ((8 : ℝ) : EReal) := by
  rw [c64_eq, Ideal.sqrt_coe, if_neg (by norm_num)]
  congr 1
  rw [show (64 : ℝ) = 8 ^ 2 by norm_num]
  exact Real.sqrt_sq (by norm_num)

/-- The word 0x3E000000 is 1/8. -/
theorem eighth_eq : Ideal.ofBits .f32 0x3E000000#32 = ((1 / 8 : ℝ) : EReal) := by
  simp [Ideal.ofBits, Ideal.ieee, -EReal.coe_mul]; norm_num

/-- The word 0xFF800000 is negative infinity. -/
theorem neg_inf_eq : Ideal.ofBits .f32 0xFF800000#32 = (⊥ : EReal) := by simp [Ideal.ofBits, Ideal.ieee]

/-- The quiet-NaN word reads as the junk value. -/
theorem nan_eq : Ideal.ofBits .f32 0x7FC00000#32 = (⊥ : EReal) := by simp [Ideal.ofBits, Ideal.ieee]

/-- ε = 0x3727C5AC is the real 10995116 · 2^(-40). -/
theorem eps_eq : eps = (((10995116 : ℝ) * (2 : ℝ) ^ (-40 : ℤ) : ℝ) : EReal) := by
  simp [eps, Ideal.ofBits, Ideal.ieee, -EReal.coe_mul]

/-- ε is a positive real number. -/
theorem eps_real : ∃ r : ℝ, 0 < r ∧ eps = (r : EReal) :=
  ⟨(10995116 : ℝ) * (2 : ℝ) ^ (-40 : ℤ), by positivity, eps_eq⟩

/-- ε is positive. -/
theorem eps_pos : (0 : EReal) < eps := by
  obtain ⟨r, hr, h⟩ := eps_real
  rw [h]; exact_mod_cast hr

/-- The signed reading of the 32-bit zero word, as a float, is zero. -/
theorem sitofp_zero : FloatOps.sitofp (F := Ideal) .f32 (0#32 : BitVec 32) = (0 : EReal) := by
  show (((0#32 : BitVec 32).toInt : ℝ) : EReal) = 0
  simp

/-- The count the variance divides by, 49152 − 0, is 49152. -/
theorem count_eq :
    FloatOps.subf (F := Ideal) (φ := .f32) (Ideal.ofBits .f32 0x47400000#32) (FloatOps.sitofp (F := Ideal) .f32 (0#32 : BitVec 32))
      = n49152 := by
  rw [sitofp_zero]; show n49152 - 0 = n49152; simp

/-- The variance's guard, 49152 − 0 > 0, is true. -/
theorem guard_true :
    FloatOps.cmpf (F := Ideal) (φ := .f32) .ogt
      (FloatOps.subf (F := Ideal) (φ := .f32) (Ideal.ofBits .f32 0x47400000#32) (FloatOps.sitofp (F := Ideal) .f32 (0#32 : BitVec 32)))
      (Ideal.ofBits .f32 0x00000000#32) = 1#1 := by
  rw [count_eq]
  show Ideal.cmp .ogt n49152 z0 = 1#1
  rw [n49152_eq, z0_eq]
  simp [Ideal.cmp]

/-- So the guarded select keeps its first branch. -/
theorem select_guard {α : Type} (a b : α) :
    Scalar.select
      (FloatOps.cmpf (F := Ideal) (φ := .f32) .ogt
        (FloatOps.subf (F := Ideal) (φ := .f32) (Ideal.ofBits .f32 0x47400000#32) (FloatOps.sitofp (F := Ideal) .f32 (0#32 : BitVec 32)))
        (Ideal.ofBits .f32 0x00000000#32)) a b = a := by
  rw [guard_true]; simp [Scalar.select]

end Cert.Spec.Lit

end
-- ==== Proof.SpecNorm.lean ====
/-
  The first stages read index by index: the groups, their means and variances, and the normalised array.

  Entry k of group g of the re-laid input is the input at channel 16·g + k / 3072 and pixel k % 3072, because both
  sit at row-major position g·49152 + k. A group's sum is the zero word plus the plain sum over its 49152 entries;
  the variance's guard is true, so its select keeps the quotient by the count 49152 − 0. Channel c, pixel n of the
  normalised array reads entry (c % 16)·3072 + n of group c / 16, which is the input at (c, n).
-/
import proofs.«113005_j19404662243884_2_alg».proof.Proof.RefTerm
import proofs.«113005_j19404662243884_2_alg».proof.Proof.LitFacts
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx Cert.Spec
open scoped BigOperators

/-- Entry k of group g is the input at the group's channel and pixel for k. -/
theorem sGrp_apply (a0 : Arr S512x3072) (g : Fin 32) (k : Fin 49152) :
    sGrp a0 (ix2 g k) = a0 (ix2 (gchan g k) (gpix k)) := by
  unfold sGrp
  refine shapeCast_apply a0 _ _ _ ?_
  rw [Shape.rowMajor_val_two, Shape.rowMajor_val_two]
  show (16 * g.val + k.val / 3072) * 3072 + k.val % 3072 = g.val * 49152 + k.val
  omega

/-- A group's sum from the zero word. -/
theorem rowsum_apply (v : Arr S32x49152) (g : Fin 32) :
    Host.reduceAdd v (constant (F := Ideal) S_ .f32 0x00000000#32) reducesTo_S32x49152_S32_d1 h_S_ (ix1 g)
      = z0 + ∑ k : Fin 49152, v (ix2 g k) := by
  have h : S32x49152.Reduces [1] S32 := by decide
  rw [hostReduceAdd_apply, Ideal.hostReduceAdd_single _ h]
  refine congrArg (z0 + ·) (Finset.sum_congr rfl fun k _ => congrArg v ?_)
  funext a
  match a with
  | ⟨0, _⟩ => rfl
  | ⟨1, _⟩ => rfl

/-- A column of group values spread along its group's entries reads the group's value. -/
theorem spreadG_apply {α : Type} (x : S32x1.Idx → α) (g : Fin 32) (k : Fin 49152) :
    broadcastInDim S32x49152 ![0, 1] bcast_S32x1_S32x49152_0_1 x (ix2 g k) = x (ix2 g 0) :=
  broadcastInDim_apply _ _ _ _ (ix2 g 0) fun a => by
    match a with
    | ⟨0, _⟩ => rfl
    | ⟨1, _⟩ => rfl

/-- A per-group value kept as a column reads the group's value. -/
theorem colG_apply {α : Type} (x : S32.Idx → α) (g : Fin 32) (u : Fin 1) :
    broadcastInDim S32x1 ![0] bcast_S32_S32x1_0 x (ix2 g u) = x (ix1 g) :=
  broadcastInDim_apply _ _ _ _ (ix1 g) fun a => by
    match a with
    | ⟨0, _⟩ => rfl

/-- A per-channel value spread along the pixels reads the channel's value. -/
theorem spreadC_apply {α : Type} (x : S512.Idx → α) (c : Fin 512) (n : Fin 3072) :
    broadcastInDim S512x3072 ![0, 1] bcast_S512x1_S512x3072_0_1 (broadcastInDim S512x1 ![0] bcast_S512_S512x1_0 x) (ix2 c n)
      = x (ix1 c) :=
  (broadcastInDim_apply _ _ _ _ (ix2 c 0) fun a => by
    match a with
    | ⟨0, _⟩ => rfl
    | ⟨1, _⟩ => rfl).trans
  (broadcastInDim_apply _ _ _ _ (ix1 c) fun a => by
    match a with
    | ⟨0, _⟩ => rfl)

/-- A group's mean: its sum from the zero word, over 49152. -/
theorem sMean_apply (v : Arr S32x49152) (g : Fin 32) (u : Fin 1) :
    sMean v (ix2 g u) = Ideal.div (z0 + ∑ k : Fin 49152, v (ix2 g k)) n49152 := by
  unfold sMean
  rw [hostDivf_apply]
  refine congrArg₂ Ideal.div ((colG_apply _ g u).trans (rowsum_apply v g)) ?_
  exact broadcastInDim_scalar_apply _ _ _

/-- A group's variance: the guard is true, so it is the summed squared deviations over the count 49152 − 0. -/
theorem sVar_apply (v : Arr S32x49152) (g : Fin 32) (u : Fin 1) :
    sVar v (ix2 g u)
      = Ideal.div (z0 + ∑ k : Fin 49152, (v (ix2 g k) - sMean v (ix2 g 0)) * (v (ix2 g k) - sMean v (ix2 g 0))) n49152 := by
  unfold sVar
  refine (select_apply _ _ _ _).trans ?_
  refine (congrArg (fun b => Scalar.select b _ _) ((broadcastInDim_scalar_apply _ _ _).trans Lit.guard_true)).trans ?_
  refine (select_one _ _).trans ?_
  rw [hostDivf_apply]
  refine congrArg₂ Ideal.div ((colG_apply _ g u).trans ((rowsum_apply _ g).trans ?_)) ?_
  · refine congrArg (z0 + ·) (Finset.sum_congr rfl fun k _ => ?_)
    rw [mulf_apply, subf_apply, spreadG_apply]
  · exact (broadcastInDim_scalar_apply _ _ _).trans Lit.count_eq

/-- The normalised entries before the re-laying to channels. -/
def nrm (v : Arr S32x49152) : Arr S32x49152 :=
  mulf (subf v (broadcastInDim S32x49152 ![0, 1] bcast_S32x1_S32x49152_0_1 (sMean v)))
    (broadcastInDim S32x49152 ![0, 1] bcast_S32x1_S32x49152_0_1
      (Host.rsqrt (addf (sVar v)
        (broadcastInDim S32x1 ![] bcast_S_S32x1 (constant (F := Ideal) S_ .f32 0x3727C5AC#32)))))

/-- Entry k of group g, normalised: its deviation from the mean times the reciprocal standard deviation. -/
theorem nrm_apply (v : Arr S32x49152) (g : Fin 32) (k : Fin 49152) :
    nrm v (ix2 g k) = (v (ix2 g k) - sMean v (ix2 g 0)) * Ideal.rsqrt (sVar v (ix2 g 0) + eps) := by
  unfold nrm
  rw [mulf_apply, subf_apply, spreadG_apply, spreadG_apply]
  refine congrArg (fun e : EReal => (v (ix2 g k) - sMean v (ix2 g 0)) * e) ?_
  show Ideal.rsqrt (addf (sVar v) _ (ix2 g 0)) = _
  rw [addf_apply]
  refine congrArg (fun e : EReal => Ideal.rsqrt (sVar v (ix2 g 0) + e)) ?_
  exact broadcastInDim_scalar_apply _ _ _

/-- The normalised array is the normalised entries re-laid, scaled and shifted per channel. -/
theorem sXn_eq (v : Arr S32x49152) (a1 a2 : Arr S512) :
    sXn v a1 a2
      = addf (mulf (shapeCast S512x3072 (nrm v) shapeCasts_S32x49152_S512x3072)
          (broadcastInDim S512x3072 ![0, 1] bcast_S512x1_S512x3072_0_1 (broadcastInDim S512x1 ![0] bcast_S512_S512x1_0 a1)))
        (broadcastInDim S512x3072 ![0, 1] bcast_S512x1_S512x3072_0_1 (broadcastInDim S512x1 ![0] bcast_S512_S512x1_0 a2)) := rfl

/-- Channel c, pixel n of the normalised array, over any grouped array: entry (c % 16)·3072 + n of group c / 16. -/
theorem sXn_apply (v : Arr S32x49152) (a1 a2 : Arr S512) (c : Fin 512) (n : Fin 3072) (k : Fin 49152)
    (hk : k.val = (c.val % 16) * 3072 + n.val) :
    sXn v a1 a2 (ix2 c n)
      = ((v (ix2 (grp c) k) - sMean v (ix2 (grp c) 0)) * Ideal.rsqrt (sVar v (ix2 (grp c) 0) + eps)) * a1 (ix1 c)
          + a2 (ix1 c) := by
  rw [sXn_eq, addf_apply, mulf_apply, spreadC_apply, spreadC_apply]
  refine congrArg (fun e : EReal => e * a1 (ix1 c) + a2 (ix1 c)) ?_
  refine (shapeCast_apply (nrm v) _ _ (ix2 (grp c) k) ?_).trans (nrm_apply v (grp c) k)
  rw [Shape.rowMajor_val_two, Shape.rowMajor_val_two]
  show (c.val / 16) * 49152 + k.val = c.val * 3072 + n.val
  omega

/-- The normalised array of the input is the specification's. -/
theorem sXn_spec (a0 : Arr S512x3072) (a1 a2 : Arr S512) (c : Fin 512) (n : Fin 3072) :
    sXn (sGrp a0) a1 a2 (ix2 c n)
      = xn (fun c n => a0 (ix2 c n)) (fun c => a1 (ix1 c)) (fun c => a2 (ix1 c)) c n := by
  have hk : (c.val % 16) * 3072 + n.val < 49152 := by omega
  rw [sXn_apply (sGrp a0) a1 a2 c n ⟨_, hk⟩ rfl]
  have hm : ∀ g : Fin 32, sMean (sGrp a0) (ix2 g 0) = mean (fun c n => a0 (ix2 c n)) g := fun g => by
    rw [sMean_apply]; unfold mean
    exact congrArg (fun s => Ideal.div (z0 + s) n49152) (Finset.sum_congr rfl fun k _ => sGrp_apply a0 g k)
  have hv : ∀ g : Fin 32, sVar (sGrp a0) (ix2 g 0) = var (fun c n => a0 (ix2 c n)) g := fun g => by
    rw [sVar_apply, hm g]; unfold var
    exact congrArg (fun s => Ideal.div (z0 + s) n49152) (Finset.sum_congr rfl fun k _ => by rw [sGrp_apply a0 g k])
  rw [hm, hv, sGrp_apply]
  unfold xn rstd
  have hc : gchan (grp c) ⟨_, hk⟩ = c := Fin.ext (by show 16 * (c.val / 16) + ((c.val % 16) * 3072 + n.val) / 3072 = c.val; omega)
  have hp : gpix (⟨_, hk⟩ : Fin 49152) = n := Fin.ext (by show ((c.val % 16) * 3072 + n.val) % 3072 = n.val; omega)
  rw [hc, hp]

end Cert.ReferenceIdeal.RefValue

end
-- ==== Proof.SpecQkv.lean ====
/-
  The projected rows and their three slices read index by index.

  Row o, pixel n of the projection is the sum over the 512 channels of weight times normalised value, plus the
  row's bias. The rows are then re-laid by head, channel within the head and part; part j of head h, channel d is
  row (h·64 + d)·3 + j, since both sit at row-major position ((h·64 + d)·3 + j)·3072 + n.
-/
import proofs.«113005_j19404662243884_2_alg».proof.Proof.RefTerm
import proofs.«113005_j19404662243884_2_alg».proof.Proof.Spec
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx Cert.Spec
open scoped BigOperators

/-- A per-row value spread along the pixels reads the row's value. -/
theorem spreadO_apply {α : Type} (x : S1536.Idx → α) (o : Fin 1536) (n : Fin 3072) :
    broadcastInDim S1536x3072 ![0, 1] bcast_S1536x1_S1536x3072_0_1 (broadcastInDim S1536x1 ![0] bcast_S1536_S1536x1_0 x) (ix2 o n)
      = x (ix1 o) :=
  (broadcastInDim_apply _ _ _ _ (ix2 o 0) fun a => by
    match a with
    | ⟨0, _⟩ => rfl
    | ⟨1, _⟩ => rfl).trans
  (broadcastInDim_apply _ _ _ _ (ix1 o) fun a => by
    match a with
    | ⟨0, _⟩ => rfl)

/-- The projection's matrix product at (o, n): the sum over the 512 channels. -/
theorem dotQkv_apply (a3 : Arr S1536x512) (v : Arr S512x3072) (o : Fin 1536) (n : Fin 3072) :
    Host.dotGeneral dot_S1536x512_S512x3072_S1536x3072_1_0_0_1_n_n none a3 v (ix2 o n)
      = ∑ c : Fin 512, a3 (ix2 o c) * v (ix2 c n) := by
  refine (Ideal.dotGeneral_apply dot_S1536x512_S512x3072_S1536x3072_1_0_0_1_n_n none .single a3 v (ix2 o n)).trans ?_
  refine (Equiv.sum_comp (contrEquiv1 dot_S1536x512_S512x3072_S1536x3072_1_0_0_1_n_n 512 rfl rfl).symm _).symm.trans ?_
  refine Finset.sum_congr rfl fun c _ => ?_
  refine congrArg₂ (· * ·) (congrArg a3 ?_) (congrArg v ?_)
  · funext a
    match a with
    | ⟨0, _⟩ => rfl
    | ⟨1, _⟩ => rfl
  · funext a
    match a with
    | ⟨0, _⟩ => rfl
    | ⟨1, _⟩ => rfl

/-- Row o, pixel n of the projection. -/
theorem sQkv_apply (a3 : Arr S1536x512) (a4 : Arr S1536) (v : Arr S512x3072) (o : Fin 1536) (n : Fin 3072) :
    sQkv a3 a4 v (ix2 o n) = (∑ c : Fin 512, a3 (ix2 o c) * v (ix2 c n)) + a4 (ix1 o) := by
  unfold sQkv
  rw [addf_apply, spreadO_apply, dotQkv_apply]

/-- The rows re-laid by head, channel and part, read at a part kept as a unit axis. -/
theorem relay_apply (v23 : Arr S1536x3072) (h : Fin 8) (d : Fin 64) (j : Fin 3) (n : Fin 3072) :
    shapeCast S8x64x3x3072 v23 shapeCasts_S1536x3072_S8x64x3x3072 (ix4 h d j n) = v23 (ix2 (row h d j) n) := by
  refine shapeCast_apply v23 _ _ _ ?_
  rw [Shape.rowMajor_val_two, Shape.rowMajor_val_four]
  rfl

/-- The queries are part 0 of the re-laid rows. -/
theorem sQ_apply (v23 : Arr S1536x3072) (h : Fin 8) (d : Fin 64) (n : Fin 3072) :
    sQ v23 (ix3 h d n) = v23 (ix2 (row h d 0) n) := by
  unfold sQ
  refine (shapeCast_apply _ _ _ (ix4 h d (0 : Fin 1) n) ?_).trans ?_
  · rw [Shape.rowMajor_val_four, Shape.rowMajor_val_three]
    show ((h.val * 64 + d.val) * 1 + 0) * 3072 + n.val = (h.val * 64 + d.val) * 3072 + n.val
    omega
  · refine (extractStridedSlice_apply _ _ _ _ (ix4 h d (0 : Fin 3) n) fun a => ?_).trans (relay_apply v23 h d 0 n)
    match a with
    | ⟨0, _⟩ => exact (Nat.zero_add _).symm
    | ⟨1, _⟩ => exact (Nat.zero_add _).symm
    | ⟨2, _⟩ => rfl
    | ⟨3, _⟩ => exact (Nat.zero_add _).symm

/-- The keys are part 1. -/
theorem sK_apply (v23 : Arr S1536x3072) (h : Fin 8) (d : Fin 64) (n : Fin 3072) :
    sK v23 (ix3 h d n) = v23 (ix2 (row h d 1) n) := by
  unfold sK
  refine (shapeCast_apply _ _ _ (ix4 h d (0 : Fin 1) n) ?_).trans ?_
  · rw [Shape.rowMajor_val_four, Shape.rowMajor_val_three]
    show ((h.val * 64 + d.val) * 1 + 0) * 3072 + n.val = (h.val * 64 + d.val) * 3072 + n.val
    omega
  · refine (extractStridedSlice_apply _ _ _ _ (ix4 h d (1 : Fin 3) n) fun a => ?_).trans (relay_apply v23 h d 1 n)
    match a with
    | ⟨0, _⟩ => exact (Nat.zero_add _).symm
    | ⟨1, _⟩ => exact (Nat.zero_add _).symm
    | ⟨2, _⟩ => rfl
    | ⟨3, _⟩ => exact (Nat.zero_add _).symm

/-- The values are part 2. -/
theorem sV_apply (v23 : Arr S1536x3072) (h : Fin 8) (d : Fin 64) (n : Fin 3072) :
    sV v23 (ix3 h d n) = v23 (ix2 (row h d 2) n) := by
  unfold sV
  refine (shapeCast_apply _ _ _ (ix4 h d (0 : Fin 1) n) ?_).trans ?_
  · rw [Shape.rowMajor_val_four, Shape.rowMajor_val_three]
    show ((h.val * 64 + d.val) * 1 + 0) * 3072 + n.val = (h.val * 64 + d.val) * 3072 + n.val
    omega
  · refine (extractStridedSlice_apply _ _ _ _ (ix4 h d (2 : Fin 3) n) fun a => ?_).trans (relay_apply v23 h d 2 n)
    match a with
    | ⟨0, _⟩ => exact (Nat.zero_add _).symm
    | ⟨1, _⟩ => exact (Nat.zero_add _).symm
    | ⟨2, _⟩ => rfl
    | ⟨3, _⟩ => exact (Nat.zero_add _).symm

end Cert.ReferenceIdeal.RefValue

end
-- ==== Proof.SpecAttn.lean ====
/-
  The attention stages read index by index: scores, row maxima, exponentials, weights, attended values, result.

  A batched product keeps the head and contracts one axis: the scores contract the 64 channels of a head, the
  attended values the 3072 key pixels. A row's maximum is the fold of max from negative infinity over the key
  pixels, and taking the maximum with negative infinity once more changes nothing. A row's sum is the zero word
  plus the plain sum over the key pixels. Channel c of the attended values re-laid to 512 channels is head c / 64,
  channel c % 64.
-/
import proofs.«113005_j19404662243884_2_alg».proof.Proof.RefTerm
import proofs.«113005_j19404662243884_2_alg».proof.Proof.LitFacts
import Idealize.ShloMosaic.Lib.IdealHost
import Idealize.ShloMosaic.Lib.ValueLayout

noncomputable section

namespace Cert.ReferenceIdeal.RefValue

open Cert.ReferenceIdeal Cert.ReferenceIdeal.Gen Idealize.ShloMosaic Idealize.ShloMosaic.ValueIdx Cert.Spec
open scoped BigOperators

/-- A per-row value (head, query pixel) spread along the key pixels reads the row's value. -/
theorem spreadR_apply {α : Type} (x : S8x3072.Idx → α) (h : Fin 8) (i j : Fin 3072) :
    broadcastInDim S8x3072x3072 ![0, 1, 2] bcast_S8x3072x1_S8x3072x3072_0_1_2
        (broadcastInDim S8x3072x1 ![0, 1] bcast_S8x3072_S8x3072x1_0_1 x) (ix3 h i j)
      = x (ix2 h i) :=
  (broadcastInDim_apply _ _ _ _ (ix3 h i 0) fun a => by
    match a with
    | ⟨0, _⟩ => rfl
    | ⟨1, _⟩ => rfl
    | ⟨2, _⟩ => rfl).trans
  (broadcastInDim_apply _ _ _ _ (ix2 h i) fun a => by
    match a with
    | ⟨0, _⟩ => rfl
    | ⟨1, _⟩ => rfl)

/-- The scores' batched product at (h, i, j): the sum over the head's 64 channels. -/
theorem dotSc_apply (q k : Arr S8x64x3072) (h : Fin 8) (i j : Fin 3072) :
    Host.dotGeneral dot_S8x64x3072_S8x64x3072_S8x3072x3072_1_1_2_2_0_0 none q k (ix3 h i j)
      = ∑ d : Fin 64, q (ix3 h d i) * k (ix3 h d j) := by
  refine (Ideal.dotGeneral_apply dot_S8x64x3072_S8x64x3072_S8x3072x3072_1_1_2_2_0_0 none .single q k (ix3 h i j)).trans ?_
  refine (Equiv.sum_comp (contrEquiv1 dot_S8x64x3072_S8x64x3072_S8x3072x3072_1_1_2_2_0_0 64 rfl rfl).symm _).symm.trans ?_
  refine Finset.sum_congr rfl fun d _ => ?_
  refine congrArg₂ (· * ·) (congrArg q ?_) (congrArg k ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The scaled scores. -/
theorem sSc_apply (q k : Arr S8x64x3072) (h : Fin 8) (i j : Fin 3072) :
    sSc q k (ix3 h i j) = Ideal.div (∑ d : Fin 64, q (ix3 h d i) * k (ix3 h d j)) (Ideal.sqrt c64) := by
  unfold sSc
  rw [hostDivf_apply, dotSc_apply]
  refine congrArg (Ideal.div _) ?_
  exact broadcastInDim_scalar_apply _ _ _

/-- A score row's maximum: the supremum over the key pixels. -/
theorem sMx_apply (s : Arr S8x3072x3072) (h : Fin 8) (i : Fin 3072) :
    sMx s (ix2 h i) = Finset.univ.sup fun j : Fin 3072 => s (ix3 h i j) := by
  have hr : S8x3072x3072.Reduces [2] S8x3072 := by decide
  unfold sMx
  rw [maximumf_apply]
  have h1 : broadcastInDim S8x3072 ![] bcast_S_S8x3072 (constant (F := Ideal) S_ .f32 0xFF800000#32) (ix2 h i) = (⊥ : EReal) :=
    (broadcastInDim_scalar_apply _ _ _).trans Lit.neg_inf_eq
  rw [h1]
  refine (max_eq_right bot_le).trans ?_
  show Host.reduce (max : EReal → EReal → EReal) s (constant (F := Ideal) S_ .f32 0xFF800000#32)
    reducesTo_S8x3072x3072_S8x3072_d2 h_S_ (ix2 h i) = _
  rw [Host.reduce_eq_fold_single (max : EReal → EReal → EReal) s _ reducesTo_S8x3072x3072_S8x3072_d2 hr h_S_ (ix2 h i)]
  have h2 : (constant (F := Ideal) S_ .f32 0xFF800000#32) (Shape.Idx.first h_S_) = (⊥ : EReal) := Lit.neg_inf_eq
  rw [h2]
  have hg : ∀ j : Fin 3072, (s ∘ hr.lift (ix2 h i)) j = s (ix3 h i j) := fun j => congrArg s (by
    funext a
    match a with
    | ⟨0, _⟩ => rfl
    | ⟨1, _⟩ => rfl
    | ⟨2, _⟩ => rfl)
  refine le_antisymm ?_ ?_
  · refine (Finset.fold_max_le _).mpr ⟨bot_le, fun j _ => ?_⟩
    exact (hg j).le.trans (Finset.le_sup (f := fun j : Fin 3072 => s (ix3 h i j)) (Finset.mem_univ j))
  · exact Finset.sup_le fun j _ => (Finset.le_fold_max _).mpr (Or.inr ⟨j, Finset.mem_univ j, (hg j).ge⟩)

/-- The exponentials of the deviations from the row maximum. -/
theorem sEx_apply (s : Arr S8x3072x3072) (h : Fin 8) (i j : Fin 3072) :
    sEx s (ix3 h i j) = Ideal.exp (s (ix3 h i j) - sMx s (ix2 h i)) := by
  unfold sEx
  show Ideal.exp (subf s _ (ix3 h i j)) = _
  rw [subf_apply, spreadR_apply]

/-- A row's sum from the zero word. -/
theorem rowsumR_apply (e : Arr S8x3072x3072) (h : Fin 8) (i : Fin 3072) :
    Host.reduceAdd e (constant (F := Ideal) S_ .f32 0x00000000#32) reducesTo_S8x3072x3072_S8x3072_d2 h_S_ (ix2 h i)
      = z0 + ∑ j : Fin 3072, e (ix3 h i j) := by
  have hr : S8x3072x3072.Reduces [2] S8x3072 := by decide
  rw [hostReduceAdd_apply, Ideal.hostReduceAdd_single _ hr]
  refine congrArg (z0 + ·) (Finset.sum_congr rfl fun j _ => congrArg e ?_)
  funext a
  match a with
  | ⟨0, _⟩ => rfl
  | ⟨1, _⟩ => rfl
  | ⟨2, _⟩ => rfl

/-- The attention weights: an exponential over its row's sum. -/
theorem sWt_apply (e : Arr S8x3072x3072) (h : Fin 8) (i j : Fin 3072) :
    sWt e (ix3 h i j) = Ideal.div (e (ix3 h i j)) (z0 + ∑ j' : Fin 3072, e (ix3 h i j')) := by
  unfold sWt
  rw [hostDivf_apply, spreadR_apply, rowsumR_apply]

/-- The attended values' batched product at (h, d, i): the sum over the key pixels. -/
theorem dotAtt_apply (v : Arr S8x64x3072) (w : Arr S8x3072x3072) (h : Fin 8) (d : Fin 64) (i : Fin 3072) :
    Host.dotGeneral dot_S8x64x3072_S8x3072x3072_S8x64x3072_2_2_1_1_0_0 none v w (ix3 h d i)
      = ∑ j : Fin 3072, v (ix3 h d j) * w (ix3 h i j) := by
  refine (Ideal.dotGeneral_apply dot_S8x64x3072_S8x3072x3072_S8x64x3072_2_2_1_1_0_0 none .single v w (ix3 h d i)).trans ?_
  refine (Equiv.sum_comp (contrEquiv1 dot_S8x64x3072_S8x3072x3072_S8x64x3072_2_2_1_1_0_0 3072 rfl rfl).symm _).symm.trans ?_
  refine Finset.sum_congr rfl fun j _ => ?_
  refine congrArg₂ (· * ·) (congrArg v ?_) (congrArg w ?_)
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

/-- The attended values re-laid to channels: channel c is head c / 64, channel c % 64. -/
theorem sAtt_apply (v : Arr S8x64x3072) (w : Arr S8x3072x3072) (c : Fin 512) (n : Fin 3072) :
    sAtt v w (ix2 c n) = ∑ j : Fin 3072, v (ix3 (hd c) (dm c) j) * w (ix3 (hd c) n j) := by
  unfold sAtt
  refine (shapeCast_apply _ _ _ (ix3 (hd c) (dm c) n) ?_).trans (dotAtt_apply v w (hd c) (dm c) n)
  rw [Shape.rowMajor_val_three, Shape.rowMajor_val_two]
  show ((c.val / 64) * 64 + c.val % 64) * 3072 + n.val = c.val * 3072 + n.val
  omega

/-- The output projection's matrix product at (c, n): the sum over the 512 attended channels. -/
theorem dotOut_apply (a5 : Arr S512x512) (v : Arr S512x3072) (c : Fin 512) (n : Fin 3072) :
    Host.dotGeneral dot_S512x512_S512x3072_S512x3072_1_0_0_1_n_n none a5 v (ix2 c n)
      = ∑ c' : Fin 512, a5 (ix2 c c') * v (ix2 c' n) := by
  refine (Ideal.dotGeneral_apply dot_S512x512_S512x3072_S512x3072_1_0_0_1_n_n none .single a5 v (ix2 c n)).trans ?_
  refine (Equiv.sum_comp (contrEquiv1 dot_S512x512_S512x3072_S512x3072_1_0_0_1_n_n 512 rfl rfl).symm _).symm.trans ?_
  refine Finset.sum_congr rfl fun c' _ => ?_
  refine congrArg₂ (· * ·) (congrArg a5 ?_) (congrArg v ?_)
  · funext a
    match a with
    | ⟨0, _⟩ => rfl
    | ⟨1, _⟩ => rfl
  · funext a
    match a with
    | ⟨0, _⟩ => rfl
    | ⟨1, _⟩ => rfl

/-- A per-channel value spread along the pixels reads the channel's value. -/
theorem spreadB_apply {α : Type} (x : S512.Idx → α) (c : Fin 512) (n : Fin 3072) :
    broadcastInDim S512x3072 ![0, 1] bcast_S512x1_S512x3072_0_1 (broadcastInDim S512x1 ![0] bcast_S512_S512x1_0 x) (ix2 c n)
      = x (ix1 c) :=
  (broadcastInDim_apply _ _ _ _ (ix2 c 0) fun a => by
    match a with
    | ⟨0, _⟩ => rfl
    | ⟨1, _⟩ => rfl).trans
  (broadcastInDim_apply _ _ _ _ (ix1 c) fun a => by
    match a with
    | ⟨0, _⟩ => rfl)

/-- The result: the input plus the projection of the attended values, plus the projection's bias. -/
theorem sOut_apply (a0 : Arr S512x3072) (a5 : Arr S512x512) (a6 : Arr S512) (v : Arr S512x3072) (c : Fin 512) (n : Fin 3072) :
    sOut a0 a5 a6 v (ix2 c n) = (a0 (ix2 c n) + ∑ c' : Fin 512, a5 (ix2 c c') * v (ix2 c' n)) + a6 (ix1 c) := by
  unfold sOut
  rw [addf_apply, addf_apply, spreadB_apply, dotOut_apply]

end Cert.ReferenceIdeal.RefValue

end
-- ==== Proof.SpecOut.lean ====
/-
  The reference's composed term is the specification.

  Each stage of the composition was read index by index; here the readings are chained. The projected rows of the
  normalised input are the specification's rows; whatever array agrees with those rows gives the specification's
  scores, row maxima, exponentials, weights and attended values; and the last stage adds the projection of the
  attended values and its bias to the input. No finiteness is used: the two sides are the same arrangement.
-/
import proofs.«113005_j19404662243884_2_alg».proof.Proof.SpecNorm
import proofs.«113005_j19404662243884_2_alg».proof.Proof.SpecQkv
import proofs.«113005_j19404662243884_2_alg».proof.Proof.SpecAttn

noncomputable section

namespace Cert.ReferenceIdeal.RefValue

open Cert.ReferenceIdeal Cert.ReferenceIdeal.Gen Idealize.ShloMosaic Idealize.ShloMosaic.ValueIdx Cert.Spec
open scoped BigOperators

/-- The projected rows of the normalised input are the specification's. -/
theorem qkv_spec (a0 : Arr S512x3072) (a1 a2 : Arr S512) (a3 : Arr S1536x512) (a4 : Arr S1536) (o : Fin 1536) (n : Fin 3072) :
    sQkv a3 a4 (sXn (sGrp a0) a1 a2) (ix2 o n)
      = qkv (fun c n => a0 (ix2 c n)) (fun c => a1 (ix1 c)) (fun c => a2 (ix1 c)) (fun o c => a3 (ix2 o c))
          (fun o => a4 (ix1 o)) o n := by
  rw [sQkv_apply]
  unfold qkv
  refine congrArg (fun s : EReal => s + a4 (ix1 o)) (Finset.sum_congr rfl fun c _ => ?_)
  rw [sXn_spec]

section Chain
variable (x : Fin 512 → Fin 3072 → EReal) (nw nb : Fin 512 → EReal) (qw : Fin 1536 → Fin 512 → EReal) (qb : Fin 1536 → EReal)

/-- The scores of an array of rows that agrees with the specification's rows. -/
theorem sc_of (Q : Arr S1536x3072) (hq : ∀ o n, Q (ix2 o n) = qkv x nw nb qw qb o n) (h : Fin 8) (i j : Fin 3072) :
    sSc (sQ Q) (sK Q) (ix3 h i j) = sc x nw nb qw qb h i j := by
  rw [sSc_apply]
  unfold sc
  refine congrArg (fun s : EReal => Ideal.div s (Ideal.sqrt c64)) (Finset.sum_congr rfl fun d _ => ?_)
  rw [sQ_apply, sK_apply, hq, hq]

/-- The row maxima of an array of scores that agrees with the specification's scores. -/
theorem mx_of (S : Arr S8x3072x3072) (hs : ∀ h i j, S (ix3 h i j) = sc x nw nb qw qb h i j) (h : Fin 8) (i : Fin 3072) :
    sMx S (ix2 h i) = mx x nw nb qw qb h i := by
  rw [sMx_apply]
  unfold mx
  exact congrArg (Finset.univ.sup) (funext fun j => hs h i j)

/-- Its exponentials. -/
theorem ex_of (S : Arr S8x3072x3072) (hs : ∀ h i j, S (ix3 h i j) = sc x nw nb qw qb h i j) (h : Fin 8) (i j : Fin 3072) :
    sEx S (ix3 h i j) = ex x nw nb qw qb h i j := by
  rw [sEx_apply, hs, mx_of x nw nb qw qb S hs]
  rfl

/-- The weights of an array of exponentials that agrees with the specification's. -/
theorem wt_of (E : Arr S8x3072x3072) (he : ∀ h i j, E (ix3 h i j) = ex x nw nb qw qb h i j) (h : Fin 8) (i j : Fin 3072) :
    sWt E (ix3 h i j) = wt x nw nb qw qb h i j := by
  rw [sWt_apply, he]
  unfold wt den
  exact congrArg (fun s : EReal => Ideal.div (ex x nw nb qw qb h i j) (z0 + s)) (Finset.sum_congr rfl fun j' _ => he h i j')

/-- The attended values. -/
theorem att_of (Q : Arr S1536x3072) (hq : ∀ o n, Q (ix2 o n) = qkv x nw nb qw qb o n) (W : Arr S8x3072x3072)
    (hw : ∀ h i j, W (ix3 h i j) = wt x nw nb qw qb h i j) (c : Fin 512) (n : Fin 3072) :
    sAtt (sV Q) W (ix2 c n) = att x nw nb qw qb (hd c) (dm c) n := by
  rw [sAtt_apply]
  unfold att
  refine Finset.sum_congr rfl fun j _ => ?_
  rw [sV_apply, hq, hw]

end Chain

/-- The reference's composed term of the seven argument arrays is the specification's result. -/
theorem refTerm_eq_spec (a0 : Arr S512x3072) (a1 a2 : Arr S512) (a3 : Arr S1536x512) (a4 : Arr S1536) (a5 : Arr S512x512)
    (a6 : Arr S512) : refTerm a0 a1 a2 a3 a4 a5 a6 = Cert.Spec.Gout a0 a1 a2 a3 a4 a5 a6 := by
  funext i
  obtain ⟨c, n, rfl⟩ : ∃ (c : Fin 512) (n : Fin 3072), i = ix2 c n := ⟨i 0, i 1, eq_ix2 i⟩
  unfold refTerm
  rw [sOut_apply]
  show _ = out (fun c n => a0 (ix2 c n)) (fun c => a1 (ix1 c)) (fun c => a2 (ix1 c)) (fun o c => a3 (ix2 o c))
    (fun o => a4 (ix1 o)) (fun c c' => a5 (ix2 c c')) (fun c => a6 (ix1 c)) c n
  unfold out
  refine congrArg (fun s : EReal => (a0 (ix2 c n) + s) + a6 (ix1 c)) (Finset.sum_congr rfl fun c' _ => ?_)
  refine congrArg (fun e : EReal => a5 (ix2 c c') * e) ?_
  have hq := qkv_spec a0 a1 a2 a3 a4
  refine att_of _ _ _ _ _ _ hq _ (fun h i j => ?_) c' n
  refine wt_of _ _ _ _ _ _ (fun h i j => ?_) h i j
  refine ex_of _ _ _ _ _ _ (fun h i j => ?_) h i j
  exact sc_of _ _ _ _ _ _ hq h i j

end Cert.ReferenceIdeal.RefValue

end
-- ==== Proof.ClaimsRef.lean ====
/-
  The reference program's two contributions to the claim: it runs to the end leaving its arguments unchanged, and
  its result is the specification of its seven argument arrays (no hypothesis on the arguments is needed: the
  specification is written in the reference's own arrangement).
-/
import proofs.«113005_j19404662243884_2_alg».proof.Defs
import proofs.«113005_j19404662243884_2_alg».proof.Proof.Gen.ReferenceIdeal
import proofs.«113005_j19404662243884_2_alg».proof.Proof.Gen.Pre_finite_inputs
import proofs.«113005_j19404662243884_2_alg».proof.Proof.RefRun
import proofs.«113005_j19404662243884_2_alg».proof.Proof.SpecOut

noncomputable section

open Idealize.ShloMosaic Idealize.ShloMosaic.TcCoe Idealize.SL.Sem

namespace Cert.Proof.RefClaims

/-- The reference runs, faults nowhere and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing, so there is nothing to preserve. -/
theorem preserves : Cert.preserves_Kernel_KernelIdeal := trivial

open Cert.ReferenceIdeal in
/-- The reference's run with its result named as the specification of the launch contents. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
        = Cert.Spec.Gout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans (Cert.ReferenceIdeal.RefValue.refTerm_eq_spec _ _ _ _ _ _ _), (h c).2⟩)
    (Cert.ReferenceIdeal.RefValue.run m ρ)

end Cert.Proof.RefClaims

end
-- ==== Proof.PayLib.lean ====
/-
  Layout readings the three kernel bodies share, at literal rank-2 shapes: a column broadcast along the rows,
  the cast of a vector to a column, and a lane reduction's lifted index by coordinates.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx
open scoped BigOperators

namespace Cert.KernelIdeal.KVal

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector's entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The index a reduction over the lanes of an `[a, b]` array lifts row `p` and lane `k` to is `(p, k)`. -/
theorem lift_lane {a b : ℕ} (h : (⟨2, ![a, b]⟩ : Shape).Reduces [1] ⟨1, ![a]⟩) (p : Fin a) (k : Fin b) :
    h.lift (ix1 p) k = ix2 p k := by
  funext d
  match d with
  | ⟨0, _⟩ => rfl
  | ⟨1, _⟩ => rfl

end Cert.KernelIdeal.KVal

end
-- ==== Proof.Pay0.lean ====
/-
  The projection-to-rows body's stored value read at an entry: the product of the grouped weights with the scaled and
  shifted input block, plus the bias column.
-/
import proofs.«113005_j19404662243884_2_alg».proof.Proof.Gen.KernelIdeal.Skeleton
import proofs.«113005_j19404662243884_2_alg».proof.Proof.PayLib

noncomputable section

open Idealize.ShloMosaic Idealize.ShloMosaic.ValueIdx
open scoped BigOperators

namespace Cert.KernelIdeal.KVal

open Cert.KernelIdeal Cert.KernelIdeal.Gen

/-- The product's left index keeps the output row … -/
theorem lhs_qkv_0 (i : S1536x512.Idx) (q : dot_S1536x512_S512x512_S1536x512_1_0_0_1_n_n.contr.Idx) :
    (dot_S1536x512_S512x512_S1536x512_1_0_0_1_n_n.lhsIdx i q 0).val = (i 0).val := by
  unfold DotDims.lhsIdx
  rw [dif_neg (show ¬(0 : Fin S1536x512.rank) ∈ dot_S1536x512_S512x512_S1536x512_1_0_0_1_n_n.lhsBatch by decide),
    dif_pos (show (0 : Fin S1536x512.rank) ∈ dot_S1536x512_S512x512_S1536x512_1_0_0_1_n_n.lhsNonContracting by decide)]
  rfl
/-- … and runs over the contraction on its columns. -/
theorem lhs_qkv_1 (i : S1536x512.Idx) (q : dot_S1536x512_S512x512_S1536x512_1_0_0_1_n_n.contr.Idx) :
    (dot_S1536x512_S512x512_S1536x512_1_0_0_1_n_n.lhsIdx i q 1).val = (q ⟨0, by decide⟩).val :=
  dot_S1536x512_S512x512_S1536x512_1_0_0_1_n_n.lhsIdx_val_of_single rfl i q
/-- The right index runs over the contraction on its rows … -/
theorem rhs_qkv_0 (i : S1536x512.Idx) (q : dot_S1536x512_S512x512_S1536x512_1_0_0_1_n_n.contr.Idx) :
    (dot_S1536x512_S512x512_S1536x512_1_0_0_1_n_n.rhsIdx i q 0).val = (q ⟨0, by decide⟩).val :=
  dot_S1536x512_S512x512_S1536x512_1_0_0_1_n_n.rhsIdx_val_of_single rfl i q
/-- … and keeps the output column. -/
theorem rhs_qkv_1 (i : S1536x512.Idx) (q : dot_S1536x512_S512x512_S1536x512_1_0_0_1_n_n.contr.Idx) :
    (dot_S1536x512_S512x512_S1536x512_1_0_0_1_n_n.rhsIdx i q 1).val = (i 1).val := by
  unfold DotDims.rhsIdx
  rw [dif_neg (show ¬(1 : Fin S512x512.rank) ∈ dot_S1536x512_S512x512_S1536x512_1_0_0_1_n_n.rhsBatch by decide),
    dif_pos (show (1 : Fin S512x512.rank) ∈ dot_S1536x512_S512x512_S1536x512_1_0_0_1_n_n.rhsNonContracting by decide)]
  rfl

/-- The `[1536, 512] · [512, 512]` product into the zero splat, at `(o, n)`: `∑ k, l (o, k) · r (k, n)`. -/
theorem matmul_qkv_apply (l : FVec Ideal S1536x512 .bf16) (r : FVec Ideal S512x512 .bf16) (o : Fin 1536) (n : Fin 512) :
    matmul dot_S1536x512_S512x512_S1536x512_1_0_0_1_n_n none l r (constant S1536x512 .f32 0x00000000#32) (ix2 o n)
      = ∑ k : Fin 512, l (ix2 o k) * r (ix2 k n) := by
  simp only [matmul]
  rw [Ideal.matmul_constant_zero_apply, ← Equiv.sum_comp (contrEquiv1 dot_S1536x512_S512x512_S1536x512_1_0_0_1_n_n 512 rfl rfl).symm]
  refine Finset.sum_congr rfl fun k _ => ?_
  have hk := contrEquiv1_symm_val dot_S1536x512_S512x512_S1536x512_1_0_0_1_n_n 512 rfl rfl k
  have el : dot_S1536x512_S512x512_S1536x512_1_0_0_1_n_n.lhsIdx (ix2 o n) ((contrEquiv1 dot_S1536x512_S512x512_S1536x512_1_0_0_1_n_n 512 rfl rfl).symm k) = ix2 o k :=
    funext fun a => Fin.ext (by
      match a with
      | ⟨0, _⟩ => exact lhs_qkv_0 _ _
      | ⟨1, _⟩ => exact (lhs_qkv_1 _ _).trans hk)
  have er : dot_S1536x512_S512x512_S1536x512_1_0_0_1_n_n.rhsIdx (ix2 o n) ((contrEquiv1 dot_S1536x512_S512x512_S1536x512_1_0_0_1_n_n 512 rfl rfl).symm k) = ix2 k n :=
    funext fun a => Fin.ext (by
      match a with
      | ⟨0, _⟩ => exact (rhs_qkv_0 _ _).trans hk
      | ⟨1, _⟩ => exact rhs_qkv_1 _ _)
  rw [el, er]

/-- The body's stored value at `(o, n)`: `(∑ c, w (o, c) · (x (c, n) · scale c + shift c)) + bias o`. -/
theorem pay0_apply (x : Vec Ideal S512x512 .f32) (sc sh : Vec Ideal S512x1 .f32) (w3 : Vec Ideal S1536x512 .bf16)
    (b3 : Vec Ideal S1536x1 .f32) (o : Fin 1536) (n : Fin 512) :
    k0_pay1 x sc sh w3 b3 (ix2 o n)
      = (∑ c : Fin 512, w3 (ix2 o c) * (x (ix2 c n) * sc (ix2 c (0 : Fin 1)) + sh (ix2 c (0 : Fin 1))))
        + b3 (ix2 o (0 : Fin 1)) := by
  unfold k0_pay1
  simp only [shapeCast_self]
  rw [truncf_apply, addf_apply, broadcastTo_a1_ab_apply, matmul_qkv_apply]
  refine congrArg (· + b3 (ix2 o (0 : Fin 1))) (Finset.sum_congr rfl fun c _ => ?_)
  rw [truncf_apply, addf_apply, mulf_apply, broadcastTo_a1_ab_apply, broadcastTo_a1_ab_apply]

end Cert.KernelIdeal.KVal

end
-- ==== Proof.Val0.lean ====
/-
  The first pipeline's output array as one function of the arrays it finds: every grid point writes its block of
  the grouped weights times the scaled and shifted input plus the bias, and the six blocks tile the array.
-/
import proofs.«113005_j19404662243884_2_alg».proof.Proof.KDats
import proofs.«113005_j19404662243884_2_alg».proof.Proof.Pay0

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen Cert.KernelIdeal.Hand

variable (V : Entry Ideal)

/-- The array the first pipeline leaves, from the five arrays it finds: input, scale column, shift column, grouped
    weights, grouped bias column. -/
def G43 (x : S512x3072.Idx → EReal) (sc sh : S512x1.Idx → EReal) (w : S1536x512.Idx → EReal) (b : S1536x1.Idx → EReal) :
    S1536x3072.Idx → EReal :=
  fun i => (∑ c : Fin 512, w (ix2 (i 0) c) * (x (ix2 c (i 1)) * sc (ix2 c (0 : Fin 1)) + sh (ix2 c (0 : Fin 1))))
    + b (ix2 (i 0) (0 : Fin 1))

/-- The printed index maps over the six points: the column block moves with the point, the rest stay. -/
theorem idx_facts0 : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The input's block at point `t` is columns `512 t … 512 t + 511` of the input. -/
theorem iblk0_0_apply (c : Dev nD) (t : Fin cfg0.N) (p : Fin 512) (q : Fin 512) (k : S512x3072.Idx)
    (hk0 : (k 0).val = p.val) (hk1 : (k 1).val = t.val * 512 + q.val) :
    (iblk0 V c 0 t : Vec Ideal S512x512 .f32) (ix2 p q) = (V c main_arg0 : S512x3072.Idx → EReal) k := by
  obtain ⟨e0, e1, -⟩ := idx_facts0 t
  unfold iblk0
  rw [View.read_apply]
  show (V c main_arg0 : S512x3072.Idx → EReal) _ = (V c main_arg0 : S512x3072.Idx → EReal) k
  refine congrArg _ (funext fun a => Fin.ext ?_)
  match a with
  | ⟨0, _⟩ => show win0_0.index t (0 : Fin 2) * 512 + 1 * p.val = (k 0).val; rw [e0, hk0]; omega
  | ⟨1, _⟩ => show win0_0.index t (1 : Fin 2) * 512 + 1 * q.val = (k 1).val; rw [e1, hk1]; omega

/-- The scale block is the whole scale column at every point. -/
theorem iblk0_1_apply (c : Dev nD) (t : Fin cfg0.N) (p : Fin 512) (q : Fin 1) (k : S512x1.Idx)
    (hk0 : (k 0).val = p.val) (hk1 : (k 1).val = q.val) :
    (iblk0 V c 1 t : Vec Ideal S512x1 .f32) (ix2 p q) = (V c main_v16 : S512x1.Idx → EReal) k := by
  obtain ⟨-, -, e0, e1, -⟩ := idx_facts0 t
  unfold iblk0
  rw [View.read_apply]
  show (V c main_v16 : S512x1.Idx → EReal) _ = (V c main_v16 : S512x1.Idx → EReal) k
  refine congrArg _ (funext fun a => Fin.ext ?_)
  match a with
  | ⟨0, _⟩ => show win0_1.index t (0 : Fin 2) * 512 + 1 * p.val = (k 0).val; rw [e0, hk0]; omega
  | ⟨1, _⟩ => show win0_1.index t (1 : Fin 2) * 1 + 1 * q.val = (k 1).val; rw [e1, hk1]; omega

/-- The shift block is the whole shift column at every point. -/
theorem iblk0_2_apply (c : Dev nD) (t : Fin cfg0.N) (p : Fin 512) (q : Fin 1) (k : S512x1.Idx)
    (hk0 : (k 0).val = p.val) (hk1 : (k 1).val = q.val) :
    (iblk0 V c 2 t : Vec Ideal S512x1 .f32) (ix2 p q) = (V c main_v18 : S512x1.Idx → EReal) k := by
  obtain ⟨-, -, -, -, e0, e1, -⟩ := idx_facts0 t
  unfold iblk0
  rw [View.read_apply]
  show (V c main_v18 : S512x1.Idx → EReal) _ = (V c main_v18 : S512x1.Idx → EReal) k
  refine congrArg _ (funext fun a => Fin.ext ?_)
  match a with
  | ⟨0, _⟩ => show win0_2.index t (0 : Fin 2) * 512 + 1 * p.val = (k 0).val; rw [e0, hk0]; omega
  | ⟨1, _⟩ => show win0_2.index t (1 : Fin 2) * 1 + 1 * q.val = (k 1).val; rw [e1, hk1]; omega

/-- The weights' block is the whole grouped weight array at every point. -/
theorem iblk0_3_apply (c : Dev nD) (t : Fin cfg0.N) (p : Fin 1536) (q : Fin 512) (k : S1536x512.Idx)
    (hk0 : (k 0).val = p.val) (hk1 : (k 1).val = q.val) :
    (iblk0 V c 3 t : Vec Ideal S1536x512 .bf16) (ix2 p q) = (V c main_v42 : S1536x512.Idx → EReal) k := by
  obtain ⟨-, -, -, -, -, -, e0, e1, -⟩ := idx_facts0 t
  unfold iblk0
  rw [View.read_apply]
  show (V c main_v42 : S1536x512.Idx → EReal) _ = (V c main_v42 : S1536x512.Idx → EReal) k
  refine congrArg _ (funext fun a => Fin.ext ?_)
  match a with
  | ⟨0, _⟩ => show win0_3.index t (0 : Fin 2) * 1536 + 1 * p.val = (k 0).val; rw [e0, hk0]; omega
  | ⟨1, _⟩ => show win0_3.index t (1 : Fin 2) * 512 + 1 * q.val = (k 1).val; rw [e1, hk1]; omega

/-- The bias block is the whole grouped bias column at every point. -/
theorem iblk0_4_apply (c : Dev nD) (t : Fin cfg0.N) (p : Fin 1536) (q : Fin 1) (k : S1536x1.Idx)
    (hk0 : (k 0).val = p.val) (hk1 : (k 1).val = q.val) :
    (iblk0 V c 4 t : Vec Ideal S1536x1 .f32) (ix2 p q) = (V c main_v41 : S1536x1.Idx → EReal) k := by
  obtain ⟨-, -, -, -, -, -, -, -, e0, e1, -⟩ := idx_facts0 t
  unfold iblk0
  rw [View.read_apply]
  show (V c main_v41 : S1536x1.Idx → EReal) _ = (V c main_v41 : S1536x1.Idx → EReal) k
  refine congrArg _ (funext fun a => Fin.ext ?_)
  match a with
  | ⟨0, _⟩ => show win0_4.index t (0 : Fin 2) * 1536 + 1 * p.val = (k 0).val; rw [e0, hk0]; omega
  | ⟨1, _⟩ => show win0_4.index t (1 : Fin 2) * 1 + 1 * q.val = (k 1).val; rw [e1, hk1]; omega

/-- The body's arithmetic over the five blocks at point `t`, at block entry `(o, q)`, is the array function at row `o`,
    column `512 t + q`. -/
theorem point0 (c : Dev nD) (t : Fin cfg0.N) (o : Fin 1536) (q : Fin 512) (k : S1536x3072.Idx)
    (hk0 : (k 0).val = o.val) (hk1 : (k 1).val = t.val * 512 + q.val) :
    k0_pay1 (iblk0 V c 0 t) (iblk0 V c 1 t) (iblk0 V c 2 t) (iblk0 V c 3 t) (iblk0 V c 4 t) (ix2 o q)
      = G43 (V c main_arg0) (V c main_v16) (V c main_v18) (V c main_v42) (V c main_v41) k := by
  refine (pay0_apply (iblk0 V c 0 t) (iblk0 V c 1 t) (iblk0 V c 2 t) (iblk0 V c 3 t) (iblk0 V c 4 t) o q).trans ?_
  refine congrArg₂ (· + ·) (Finset.sum_congr rfl fun c' _ => congrArg₂ (· * ·) (iblk0_3_apply V c t o c' _ hk0 rfl)
    (congrArg₂ (· + ·) (congrArg₂ (· * ·) (iblk0_0_apply V c t c' q _ rfl hk1) (iblk0_1_apply V c t c' 0 _ rfl rfl))
      (iblk0_2_apply V c t c' 0 _ rfl rfl))) (iblk0_4_apply V c t o 0 _ hk0 rfl)

/-- The same at any block index `y`. -/
theorem point0_idx (c : Dev nD) (t : Fin cfg0.N) (y : S1536x512.Idx) (k : S1536x3072.Idx)
    (hk0 : (k 0).val = (y 0).val) (hk1 : (k 1).val = t.val * 512 + (y 1).val) :
    k0_pay1 (iblk0 V c 0 t) (iblk0 V c 1 t) (iblk0 V c 2 t) (iblk0 V c 3 t) (iblk0 V c 4 t) y
      = G43 (V c main_arg0) (V c main_v16) (V c main_v18) (V c main_v42) (V c main_v41) k := by
  obtain ⟨o, q, rfl⟩ : ∃ (o : Fin 1536) (q : Fin 512), y = ix2 o q := ⟨y 0, y 1, eq_ix2 y⟩
  exact point0 V c t o q k hk0 hk1

/-- What point `t` writes back is block `t` of the array function. -/
theorem flushed0_eq (c : Dev nD) (t : Fin cfg0.N) :
    (dat0 V c).flushed 5 t = ((cfg0.win 5).blk t).view.read (Elt Ideal)
      (G43 (V c main_arg0) (V c main_v16) (V c main_v18) (V c main_v42) (V c main_v41)) := by
  obtain ⟨-, -, -, -, -, -, -, -, -, -, e0, e1⟩ := idx_facts0 t
  show (cfg0.win 5).cut (grid0.coords t) ((dat0 V c).after 5 t) = _
  rw [after0_5, out0_5_eq]
  funext j
  rw [View.read_apply]
  refine point0_idx V c t _ _ ?_ ?_
  · show win0_5.index t (0 : Fin 2) * 1536 + 1 * (j 0).val = (j 0).val
    rw [e0]; omega
  · show win0_5.index t (1 : Fin 2) * 512 + 1 * (j 1).val = t.val * 512 + (j 1).val
    rw [e1]; omega

/-- An index of the array is in point `t`'s block iff each coordinate is in the block's range on its axis. -/
theorem mem_blk0 (t : Fin cfg0.N) (i : S1536x3072.Idx) :
    i ∈ ((cfg0.win 5).blk t).view.set ↔ ∀ a : Fin 2, win0_5.index t a * S1536x512.size a ≤ (i a).val
      ∧ (i a).val < win0_5.index t a * S1536x512.size a + S1536x512.size a := by
  show i ∈ ((View.whole main_v43).slice (win0_5.rect t)).set ↔ _
  rw [View.set_slice_whole, Rect.mem_set_unit]
  exact Iff.rfl

/-- Every entry `(r, n)` is in the block of the point `n / 512`. -/
theorem cover0 (i : S1536x3072.Idx) :
    ∃ t : Fin cfg0.N, (cfg0.win 5).flush t = true ∧ i ∈ ((cfg0.win 5).blk t).view.set := by
  have hi0 : (i 0).val < 1536 := (i 0).isLt
  have hi1 : (i 1).val < 3072 := (i 1).isLt
  have hN : cfg0.N = 6 := N_0
  obtain ⟨t, ht⟩ : ∃ t : Fin cfg0.N, t.val = (i 1).val / 512 := ⟨⟨(i 1).val / 512, by rw [hN]; omega⟩, rfl⟩
  obtain ⟨-, -, -, -, -, -, -, -, -, -, e0, e1⟩ := idx_facts0 t
  refine ⟨t, flush0_5 t, ?_⟩
  rw [mem_blk0]
  intro a
  match a with
  | ⟨0, _⟩ =>
    show win0_5.index t (0 : Fin 2) * 1536 ≤ (i 0).val ∧ (i 0).val < win0_5.index t (0 : Fin 2) * 1536 + 1536
    rw [e0]; omega
  | ⟨1, _⟩ =>
    show win0_5.index t (1 : Fin 2) * 512 ≤ (i 1).val ∧ (i 1).val < win0_5.index t (1 : Fin 2) * 512 + 512
    rw [e1, ht]; omega

/-- The array after the first pipeline's run is the array function of what the pipeline found. -/
theorem final0 (c : Dev nD) :
    (dat0 V c).arrAt 5 cfg0.N = G43 (V c main_arg0) (V c main_v16) (V c main_v18) (V c main_v42) (V c main_v41) :=
  (dat0 V c).arrAt_eq_of_cover 5 (G43 (V c main_arg0) (V c main_v16) (V c main_v18) (V c main_v42) (V c main_v41))
    (fun t _ => flushed0_eq V c t) (cover0)

end Cert.KernelIdeal.KVal

end
-- ==== Proof.Pay1.lean ====
/-
  The attention body's stored value read at an entry. For a query block `q` (64 channels by 256 pixels) and a head's
  keys `k` and values `v` (64 channels by 3072 pixels): the scaled scores, each row's maximum, the exponentials of the
  deviations, their sum, the quotient, and the values weighted by it.
-/
import proofs.«113005_j19404662243884_2_alg».proof.Proof.Gen.KernelIdeal.Skeleton
import proofs.«113005_j19404662243884_2_alg».proof.Proof.PayLib

noncomputable section

open Idealize.ShloMosaic Idealize.ShloMosaic.ValueIdx
open scoped BigOperators

namespace Cert.KernelIdeal.KVal

open Cert.KernelIdeal Cert.KernelIdeal.Gen

/-! ## The block's softmax over coordinates -/

/-- The scaled score of query pixel `i` against key pixel `j`. -/
def bsc (q : S64x256.Idx → EReal) (k : S64x3072.Idx → EReal) (i : Fin 256) (j : Fin 3072) : EReal :=
  (∑ d : Fin 64, q (ix2 d i) * k (ix2 d j)) * Ideal.ofBits .f32 0x3E000000#32
/-- A score row's maximum, folded from the word of `-∞`. -/
def bmx (q : S64x256.Idx → EReal) (k : S64x3072.Idx → EReal) (i : Fin 256) : EReal :=
  (Finset.univ : Finset (Fin 3072)).fold max (Ideal.ofBits .f32 0xFF800000#32) fun j => bsc q k i j
/-- The exponential of a score's deviation from its row's maximum. -/
def bex (q : S64x256.Idx → EReal) (k : S64x3072.Idx → EReal) (i : Fin 256) (j : Fin 3072) : EReal :=
  Ideal.exp (bsc q k i j - bmx q k i)
/-- A row's sum of exponentials. -/
def bden (q : S64x256.Idx → EReal) (k : S64x3072.Idx → EReal) (i : Fin 256) : EReal := ∑ j : Fin 3072, bex q k i j

/-! ## The two products -/

/-- The score product's left index runs over the contraction on its rows … -/
theorem lhs_sc_0 (i : S256x3072.Idx) (c : dot_S64x256_S64x3072_S256x3072_0_0_1_1_n_n.contr.Idx) :
    (dot_S64x256_S64x3072_S256x3072_0_0_1_1_n_n.lhsIdx i c 0).val = (c ⟨0, by decide⟩).val :=
  dot_S64x256_S64x3072_S256x3072_0_0_1_1_n_n.lhsIdx_val_of_single rfl i c
/-- … and keeps the output row on its columns. -/
theorem lhs_sc_1 (i : S256x3072.Idx) (c : dot_S64x256_S64x3072_S256x3072_0_0_1_1_n_n.contr.Idx) :
    (dot_S64x256_S64x3072_S256x3072_0_0_1_1_n_n.lhsIdx i c 1).val = (i 0).val := by
  unfold DotDims.lhsIdx
  rw [dif_neg (show ¬(1 : Fin S64x256.rank) ∈ dot_S64x256_S64x3072_S256x3072_0_0_1_1_n_n.lhsBatch by decide),
    dif_pos (show (1 : Fin S64x256.rank) ∈ dot_S64x256_S64x3072_S256x3072_0_0_1_1_n_n.lhsNonContracting by decide)]
  rfl
/-- Its right index runs over the contraction on its rows … -/
theorem rhs_sc_0 (i : S256x3072.Idx) (c : dot_S64x256_S64x3072_S256x3072_0_0_1_1_n_n.contr.Idx) :
    (dot_S64x256_S64x3072_S256x3072_0_0_1_1_n_n.rhsIdx i c 0).val = (c ⟨0, by decide⟩).val :=
  dot_S64x256_S64x3072_S256x3072_0_0_1_1_n_n.rhsIdx_val_of_single rfl i c
/-- … and keeps the output column. -/
theorem rhs_sc_1 (i : S256x3072.Idx) (c : dot_S64x256_S64x3072_S256x3072_0_0_1_1_n_n.contr.Idx) :
    (dot_S64x256_S64x3072_S256x3072_0_0_1_1_n_n.rhsIdx i c 1).val = (i 1).val := by
  unfold DotDims.rhsIdx
  rw [dif_neg (show ¬(1 : Fin S64x3072.rank) ∈ dot_S64x256_S64x3072_S256x3072_0_0_1_1_n_n.rhsBatch by decide),
    dif_pos (show (1 : Fin S64x3072.rank) ∈ dot_S64x256_S64x3072_S256x3072_0_0_1_1_n_n.rhsNonContracting by decide)]
  rfl

/-- The score product `qᵀ k` into the zero splat, at `(i, j)`: `∑ d, q (d, i) · k (d, j)`. -/
theorem matmul_sc_apply (q : FVec Ideal S64x256 .bf16) (k : FVec Ideal S64x3072 .bf16) (i : Fin 256) (j : Fin 3072) :
    matmul dot_S64x256_S64x3072_S256x3072_0_0_1_1_n_n none q k (constant S256x3072 .f32 0x00000000#32) (ix2 i j)
      = ∑ d : Fin 64, q (ix2 d i) * k (ix2 d j) := by
  simp only [matmul]
  rw [Ideal.matmul_constant_zero_apply, ← Equiv.sum_comp (contrEquiv1 dot_S64x256_S64x3072_S256x3072_0_0_1_1_n_n 64 rfl rfl).symm]
  refine Finset.sum_congr rfl fun d _ => ?_
  have hd := contrEquiv1_symm_val dot_S64x256_S64x3072_S256x3072_0_0_1_1_n_n 64 rfl rfl d
  have el : dot_S64x256_S64x3072_S256x3072_0_0_1_1_n_n.lhsIdx (ix2 i j) ((contrEquiv1 dot_S64x256_S64x3072_S256x3072_0_0_1_1_n_n 64 rfl rfl).symm d) = ix2 d i :=
    funext fun a => Fin.ext (by
      match a with
      | ⟨0, _⟩ => exact (lhs_sc_0 _ _).trans hd
      | ⟨1, _⟩ => exact lhs_sc_1 _ _)
  have er : dot_S64x256_S64x3072_S256x3072_0_0_1_1_n_n.rhsIdx (ix2 i j) ((contrEquiv1 dot_S64x256_S64x3072_S256x3072_0_0_1_1_n_n 64 rfl rfl).symm d) = ix2 d j :=
    funext fun a => Fin.ext (by
      match a with
      | ⟨0, _⟩ => exact (rhs_sc_0 _ _).trans hd
      | ⟨1, _⟩ => exact rhs_sc_1 _ _)
  rw [el, er]

/-- The value product's left index keeps the output row … -/
theorem lhs_att_0 (i : S64x256.Idx) (c : dot_S64x3072_S256x3072_S64x256_1_1_0_0_n_n.contr.Idx) :
    (dot_S64x3072_S256x3072_S64x256_1_1_0_0_n_n.lhsIdx i c 0).val = (i 0).val := by
  unfold DotDims.lhsIdx
  rw [dif_neg (show ¬(0 : Fin S64x3072.rank) ∈ dot_S64x3072_S256x3072_S64x256_1_1_0_0_n_n.lhsBatch by decide),
    dif_pos (show (0 : Fin S64x3072.rank) ∈ dot_S64x3072_S256x3072_S64x256_1_1_0_0_n_n.lhsNonContracting by decide)]
  rfl
/-- … and runs over the contraction on its columns. -/
theorem lhs_att_1 (i : S64x256.Idx) (c : dot_S64x3072_S256x3072_S64x256_1_1_0_0_n_n.contr.Idx) :
    (dot_S64x3072_S256x3072_S64x256_1_1_0_0_n_n.lhsIdx i c 1).val = (c ⟨0, by decide⟩).val :=
  dot_S64x3072_S256x3072_S64x256_1_1_0_0_n_n.lhsIdx_val_of_single rfl i c
/-- Its right index keeps the output column on its rows … -/
theorem rhs_att_0 (i : S64x256.Idx) (c : dot_S64x3072_S256x3072_S64x256_1_1_0_0_n_n.contr.Idx) :
    (dot_S64x3072_S256x3072_S64x256_1_1_0_0_n_n.rhsIdx i c 0).val = (i 1).val := by
  unfold DotDims.rhsIdx
  rw [dif_neg (show ¬(0 : Fin S256x3072.rank) ∈ dot_S64x3072_S256x3072_S64x256_1_1_0_0_n_n.rhsBatch by decide),
    dif_pos (show (0 : Fin S256x3072.rank) ∈ dot_S64x3072_S256x3072_S64x256_1_1_0_0_n_n.rhsNonContracting by decide)]
  rfl
/-- … and runs over the contraction on its columns. -/
theorem rhs_att_1 (i : S64x256.Idx) (c : dot_S64x3072_S256x3072_S64x256_1_1_0_0_n_n.contr.Idx) :
    (dot_S64x3072_S256x3072_S64x256_1_1_0_0_n_n.rhsIdx i c 1).val = (c ⟨0, by decide⟩).val :=
  dot_S64x3072_S256x3072_S64x256_1_1_0_0_n_n.rhsIdx_val_of_single rfl i c

/-- The value product `v wᵀ` into the zero splat, at `(d, i)`: `∑ j, v (d, j) · w (i, j)`. -/
theorem matmul_att_apply (v : FVec Ideal S64x3072 .bf16) (w : FVec Ideal S256x3072 .bf16) (d : Fin 64) (i : Fin 256) :
    matmul dot_S64x3072_S256x3072_S64x256_1_1_0_0_n_n none v w (constant S64x256 .f32 0x00000000#32) (ix2 d i)
      = ∑ j : Fin 3072, v (ix2 d j) * w (ix2 i j) := by
  simp only [matmul]
  rw [Ideal.matmul_constant_zero_apply, ← Equiv.sum_comp (contrEquiv1 dot_S64x3072_S256x3072_S64x256_1_1_0_0_n_n 3072 rfl rfl).symm]
  refine Finset.sum_congr rfl fun j _ => ?_
  have hj := contrEquiv1_symm_val dot_S64x3072_S256x3072_S64x256_1_1_0_0_n_n 3072 rfl rfl j
  have el : dot_S64x3072_S256x3072_S64x256_1_1_0_0_n_n.lhsIdx (ix2 d i) ((contrEquiv1 dot_S64x3072_S256x3072_S64x256_1_1_0_0_n_n 3072 rfl rfl).symm j) = ix2 d j :=
    funext fun a => Fin.ext (by
      match a with
      | ⟨0, _⟩ => exact lhs_att_0 _ _
      | ⟨1, _⟩ => exact (lhs_att_1 _ _).trans hj)
  have er : dot_S64x3072_S256x3072_S64x256_1_1_0_0_n_n.rhsIdx (ix2 d i) ((contrEquiv1 dot_S64x3072_S256x3072_S64x256_1_1_0_0_n_n 3072 rfl rfl).symm j) = ix2 i j :=
    funext fun a => Fin.ext (by
      match a with
      | ⟨0, _⟩ => exact rhs_att_0 _ _
      | ⟨1, _⟩ => exact (rhs_att_1 _ _).trans hj)
  rw [el, er]

/-! ## The two lane reductions -/

/-- The maximum over the lanes of row `i`, folded from the accumulator's word. -/
theorem rowmax_apply (src : FVec Ideal S256x3072 .f32) (hφ : FKind.Formats .f32)
    (hacc : (0xFF800000#32 : BitVec 32) = 0xFF800000#32) (i : Fin 256) :
    multiReduction .maximumf [1] S256 src 0xFF800000#32 reduces_S256x3072_S256 hφ hacc (ix1 i)
      = (Finset.univ : Finset (Fin 3072)).fold max (Ideal.ofBits .f32 0xFF800000#32) fun j => src (ix2 i j) := by
  refine (Ideal.multiReduction_maximumf_single src 0xFF800000#32 reduces_S256x3072_S256 hφ hacc (ix1 i)).trans ?_
  refine congrArg (fun f => (Finset.univ : Finset (Fin 3072)).fold max (Ideal.ofBits .f32 0xFF800000#32) f) ?_
  funext j
  exact congrArg src (lift_lane reduces_S256x3072_S256 i j)

/-- The sum over the lanes of row `i`. -/
theorem rowsum_apply (src : FVec Ideal S256x3072 .f32) (hφ : FKind.Formats .f32)
    (hacc : (0x00000000#32 : BitVec 32) = 0x00000000#32) (i : Fin 256) :
    multiReduction .add [1] S256 src 0x00000000#32 reduces_S256x3072_S256 hφ hacc (ix1 i)
      = ∑ j : Fin 3072, src (ix2 i j) := by
  refine (Ideal.multiReduction_add_single src 0x00000000#32 reduces_S256x3072_S256 hφ hacc (ix1 i)).trans ?_
  exact Finset.sum_congr rfl fun j _ => congrArg src (lift_lane reduces_S256x3072_S256 i j)

/-- An exponential at an index is the exponential of the element. -/
theorem exp_apply {s : Shape} {φ : FTy} (a : FVec Ideal s φ) (i : s.Idx) : Idealize.ShloMosaic.exp a i = Ideal.exp (a i) := rfl

/-! ## The stored value -/

/-- The body's stored value at channel `d`, query pixel `i`: `∑ j, v (d, j) · (e (i, j) / ∑ j', e (i, j'))`. -/
theorem pay1_apply (q : Vec Ideal S64x256 .bf16) (k v : Vec Ideal S64x3072 .bf16) (d : Fin 64) (i : Fin 256) :
    k1_pay1 q k v (ix2 d i) = ∑ j : Fin 3072, v (ix2 d j) * Ideal.div (bex q k i j) (bden q k i) := by
  unfold k1_pay1
  simp only [shapeCast_self]
  rw [truncf_apply, matmul_att_apply]
  refine Finset.sum_congr rfl fun j _ => congrArg (v (ix2 d j) * ·) ?_
  simp only [truncf_apply, divf_apply, exp_apply, subf_apply, mulf_apply, broadcastTo_a1_ab_apply, shapeCast_a_a1_apply,
    matmul_sc_apply, broadcast_apply]
  rw [rowsum_apply]
  simp only [exp_apply, subf_apply, mulf_apply, broadcastTo_a1_ab_apply, shapeCast_a_a1_apply, matmul_sc_apply,
    broadcast_apply]
  rw [rowmax_apply]
  simp only [mulf_apply, matmul_sc_apply, broadcast_apply]
  rfl

end Cert.KernelIdeal.KVal

end
-- ==== Proof.KSpec.lean ====
/-
  The same function in the other arrangement, over coordinates and extended reals, with no program imported.

  Here the normalisation is folded into a per-channel scale `rstd·w` and shift `b − mean·(rstd·w)`; the 1536 projected
  rows are GROUPED — rows 0..511 the queries, 512..1023 the keys, 1024..1535 the values, each block ordered by
  head and channel — so grouped row `j·512 + e` is the interleaved row `e·3 + j`; and the scores are multiplied by
  the word for 1/8 instead of divided by √64.
-/
import proofs.«113005_j19404662243884_2_alg».proof.Proof.Spec

noncomputable section

open Idealize.ShloMosaic
open scoped BigOperators

namespace Cert.KSpec

open Cert.Spec

/-- The interleaved row that grouped row `o` is taken from. -/
def reord (o : Fin 1536) : Fin 1536 := ⟨(o.val % 512) * 3 + o.val / 512, by omega⟩
/-- Grouped row of part `j` (0 query, 1 key, 2 value), head `h`, channel `d`. -/
def grow (j : Fin 3) (h : Fin 8) (d : Fin 64) : Fin 1536 := ⟨j.val * 512 + (h.val * 64 + d.val), by omega⟩
/-- The attended channel of head `h`, channel `d`. -/
def chn (h : Fin 8) (d : Fin 64) : Fin 512 := ⟨h.val * 64 + d.val, by omega⟩
/-- The word for 1/8. -/
abbrev eighth : EReal := Ideal.ofBits .f32 0x3E000000#32

/-- Grouped row `j·512 + (h·64 + d)` is taken from interleaved row `(h·64 + d)·3 + j`. -/
theorem reord_grow (j : Fin 3) (h : Fin 8) (d : Fin 64) : reord (grow j h d) = row h d j := by
  apply Fin.ext
  simp only [reord, grow, row]
  omega

section
variable (x : Fin 512 → Fin 3072 → EReal) (nw nb : Fin 512 → EReal)
  (qw : Fin 1536 → Fin 512 → EReal) (qb : Fin 1536 → EReal)
  (pw : Fin 512 → Fin 512 → EReal) (pb : Fin 512 → EReal)

/-- The folded per-channel scale: the reciprocal deviation of the channel's group times the weight. -/
def scale (c : Fin 512) : EReal := rstd x (grp c) * nw c
/-- The folded per-channel shift: the bias less the mean times the scale. -/
def shift (c : Fin 512) : EReal := nb c - mean x (grp c) * (rstd x (grp c) * nw c)
/-- The grouped projected rows. -/
def k43 (o : Fin 1536) (n : Fin 3072) : EReal :=
  (∑ c : Fin 512, qw (reord o) c * (x c n * scale x nw c + shift x nw nb c)) + qb (reord o)
end

section
variable (G : Fin 1536 → Fin 3072 → EReal)
/-- Scores of head `h` from the grouped rows, times 1/8. -/
def ksc (h : Fin 8) (i j : Fin 3072) : EReal := (∑ d : Fin 64, G (grow 0 h d) i * G (grow 1 h d) j) * eighth
/-- A score row's maximum. -/
def kmx (h : Fin 8) (i : Fin 3072) : EReal := Finset.univ.sup fun j : Fin 3072 => ksc G h i j
/-- The exponentials of a score row's deviations from its maximum. -/
def kex (h : Fin 8) (i j : Fin 3072) : EReal := Ideal.exp (ksc G h i j - kmx G h i)
/-- Their sum along the row, from the zero word. -/
def kden (h : Fin 8) (i : Fin 3072) : EReal := z0 + ∑ j : Fin 3072, kex G h i j
/-- The attention weights: each exponential over the row's sum. -/
def kwt (h : Fin 8) (i j : Fin 3072) : EReal := Ideal.div (kex G h i j) (kden G h i)
/-- The attended values as a [512, 3072] array: channel `c` is head `c / 64`, channel `c % 64`. -/
def k44 (c : Fin 512) (i : Fin 3072) : EReal :=
  ∑ j : Fin 3072, G (grow 2 (hd c) (dm c)) j * kwt G (hd c) i j
end

/-- The result from the input, the attended values, the projection and its bias. -/
def k47 (x : Fin 512 → Fin 3072 → EReal) (A : Fin 512 → Fin 3072 → EReal) (pw : Fin 512 → Fin 512 → EReal)
    (pb : Fin 512 → EReal) (c : Fin 512) (n : Fin 3072) : EReal := (x c n + ∑ c' : Fin 512, pw c c' * A c' n) + pb c

/-- The whole kernel-side function. -/
def kout (x : Fin 512 → Fin 3072 → EReal) (nw nb : Fin 512 → EReal) (qw : Fin 1536 → Fin 512 → EReal)
    (qb : Fin 1536 → EReal) (pw : Fin 512 → Fin 512 → EReal) (pb : Fin 512 → EReal) : Fin 512 → Fin 3072 → EReal :=
  k47 x (k44 (k43 x nw nb qw qb)) pw pb

end Cert.KSpec

end
-- ==== Proof.AttBridge.lean ====
/-
  The attention body's block arithmetic, read through the grouped rows of the projected array: when the query, key and
  value blocks are rows of one array `g` of head `h`, the weighted values are the attended values `g` gives.
  The row maximum folded from the word of `-∞` is the supremum, and the sum of exponentials from the zero word is
  the plain sum.
-/
import proofs.«113005_j19404662243884_2_alg».proof.Proof.Pay1
import proofs.«113005_j19404662243884_2_alg».proof.Proof.KSpec
import proofs.«113005_j19404662243884_2_alg».proof.Proof.LitFacts

noncomputable section

open Idealize.ShloMosaic Idealize.ShloMosaic.ValueIdx
open scoped BigOperators

namespace Cert.KernelIdeal.KVal

open Cert.KernelIdeal Cert.KSpec Cert.Spec

/-- The fold of `max` from `⊥` over a finite set is the supremum over it. -/
theorem fold_max_bot_eq_sup {ι : Type} [DecidableEq ι] (s : Finset ι) (f : ι → EReal) :
    s.fold max (⊥ : EReal) f = s.sup f := by
  induction s using Finset.induction_on with
  | empty => rfl
  | insert a s ha ih => rw [Finset.fold_insert ha, Finset.sup_insert, ih]

/-- The block's weighted values are the attended values of the array the blocks are rows of. -/
theorem att_bridge (g : Fin 1536 → Fin 3072 → EReal) (h : Fin 8) (i : Fin 3072) (i' : Fin 256) (d : Fin 64)
    (qb : S64x256.Idx → EReal) (kb vb : S64x3072.Idx → EReal)
    (hq : ∀ d', qb (ix2 d' i') = g (grow 0 h d') i)
    (hk : ∀ d' j, kb (ix2 d' j) = g (grow 1 h d') j)
    (hv : ∀ j, vb (ix2 d j) = g (grow 2 h d) j) :
    ∑ j : Fin 3072, vb (ix2 d j) * Ideal.div (bex qb kb i' j) (bden qb kb i')
      = ∑ j : Fin 3072, g (grow 2 h d) j * kwt g h i j := by
  have hsc : ∀ j, bsc qb kb i' j = ksc g h i j := fun j => by
    unfold bsc ksc
    exact congrArg (· * eighth) (Finset.sum_congr rfl fun d' _ => by rw [hq d', hk d' j])
  have hmx : bmx qb kb i' = kmx g h i := by
    unfold bmx kmx
    rw [Cert.Spec.Lit.neg_inf_eq, fold_max_bot_eq_sup]
    exact congrArg (Finset.univ.sup) (funext hsc)
  have hex : ∀ j, bex qb kb i' j = kex g h i j := fun j => by
    unfold bex kex
    rw [hsc j, hmx]
  have hden : bden qb kb i' = kden g h i := by
    unfold bden kden
    rw [Cert.Spec.Lit.z0_eq, zero_add]
    exact Finset.sum_congr rfl fun j _ => hex j
  refine Finset.sum_congr rfl fun j _ => ?_
  unfold kwt
  rw [hv j, hex j, hden]

end Cert.KernelIdeal.KVal

end
-- ==== Proof.Val1.lean ====
/-
  The second pipeline's output array as one function of the projected array it finds: grid point (h, qi) writes the
  attended values of head `h` at query pixels `256 qi … 256 qi + 255`, from the query rows, key rows and value rows of
  head `h` in the grouped array; the 8 × 12 blocks tile the output.
-/
import proofs.«113005_j19404662243884_2_alg».proof.Proof.KDats
import proofs.«113005_j19404662243884_2_alg».proof.Proof.AttBridge

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen Cert.KernelIdeal.Hand Cert.KSpec Cert.Spec

variable (V : Entry Ideal)

/-- The array the second pipeline leaves, from the grouped projected array it finds. -/
def G44 (g : S1536x3072.Idx → EReal) : S512x3072.Idx → EReal :=
  fun i => Cert.KSpec.k44 (fun o n => g (ix2 o n)) (i 0) (i 1)

/-- The printed index maps over the 96 points: the query window moves with the output's block, the key and value
    windows sit 8 and 16 row blocks below the output's head, at column block 0. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = 8 + win1_3.index t (0 : Fin 2) ∧ win1_1.index t (1 : Fin 2) = 0
    ∧ win1_2.index t (0 : Fin 2) = 16 + win1_3.index t (0 : Fin 2) ∧ win1_2.index t (1 : Fin 2) = 0
    ∧ win1_3.index t (0 : Fin 2) < 8 ∧ win1_3.index t (1 : Fin 2) < 12 :=
  (by decide +kernel : ∀ t : Fin grid1.N, _)

/-- Every output block is some point's. -/
theorem idx_onto1 : ∀ (h : Fin 8) (qi : Fin 12), ∃ t : Fin cfg1.N,
    win1_3.index t (0 : Fin 2) = h.val ∧ win1_3.index t (1 : Fin 2) = qi.val :=
  (by decide +kernel : ∀ (h : Fin 8) (qi : Fin 12), ∃ t : Fin grid1.N,
    win1_3.index t (0 : Fin 2) = h.val ∧ win1_3.index t (1 : Fin 2) = qi.val)

/-- The query block at a point is rows `64 h …`, columns `256 qi …` of the projected array. -/
theorem iblk1_0_apply (c : Dev nD) (t : Fin cfg1.N) (p : Fin 64) (q : Fin 256) (k : S1536x3072.Idx)
    (hk0 : (k 0).val = win1_3.index t (0 : Fin 2) * 64 + p.val)
    (hk1 : (k 1).val = win1_3.index t (1 : Fin 2) * 256 + q.val) :
    (iblk1 V c 0 t : Vec Ideal S64x256 .bf16) (ix2 p q) = (V c main_v43 : S1536x3072.Idx → EReal) k := by
  obtain ⟨e0, e1, -⟩ := idx_facts1 t
  unfold iblk1
  rw [View.read_apply]
  show (V c main_v43 : S1536x3072.Idx → EReal) _ = (V c main_v43 : S1536x3072.Idx → EReal) k
  refine congrArg _ (funext fun a => Fin.ext ?_)
  match a with
  | ⟨0, _⟩ => show win1_0.index t (0 : Fin 2) * 64 + 1 * p.val = (k 0).val; rw [e0, hk0]; omega
  | ⟨1, _⟩ => show win1_0.index t (1 : Fin 2) * 256 + 1 * q.val = (k 1).val; rw [e1, hk1]; omega

/-- The key block at a point is rows `64 (8 + h) …` of the projected array, every column. -/
theorem iblk1_1_apply (c : Dev nD) (t : Fin cfg1.N) (p : Fin 64) (q : Fin 3072) (k : S1536x3072.Idx)
    (hk0 : (k 0).val = (8 + win1_3.index t (0 : Fin 2)) * 64 + p.val) (hk1 : (k 1).val = q.val) :
    (iblk1 V c 1 t : Vec Ideal S64x3072 .bf16) (ix2 p q) = (V c main_v43 : S1536x3072.Idx → EReal) k := by
  obtain ⟨-, -, e0, e1, -⟩ := idx_facts1 t
  unfold iblk1
  rw [View.read_apply]
  show (V c main_v43 : S1536x3072.Idx → EReal) _ = (V c main_v43 : S1536x3072.Idx → EReal) k
  refine congrArg _ (funext fun a => Fin.ext ?_)
  match a with
  | ⟨0, _⟩ => show win1_1.index t (0 : Fin 2) * 64 + 1 * p.val = (k 0).val; rw [e0, hk0]; omega
  | ⟨1, _⟩ => show win1_1.index t (1 : Fin 2) * 3072 + 1 * q.val = (k 1).val; rw [e1, hk1]; omega

/-- The value block at a point is rows `64 (16 + h) …` of the projected array, every column. -/
theorem iblk1_2_apply (c : Dev nD) (t : Fin cfg1.N) (p : Fin 64) (q : Fin 3072) (k : S1536x3072.Idx)
    (hk0 : (k 0).val = (16 + win1_3.index t (0 : Fin 2)) * 64 + p.val) (hk1 : (k 1).val = q.val) :
    (iblk1 V c 2 t : Vec Ideal S64x3072 .bf16) (ix2 p q) = (V c main_v43 : S1536x3072.Idx → EReal) k := by
  obtain ⟨-, -, -, -, e0, e1, -⟩ := idx_facts1 t
  unfold iblk1
  rw [View.read_apply]
  show (V c main_v43 : S1536x3072.Idx → EReal) _ = (V c main_v43 : S1536x3072.Idx → EReal) k
  refine congrArg _ (funext fun a => Fin.ext ?_)
  match a with
  | ⟨0, _⟩ => show win1_2.index t (0 : Fin 2) * 64 + 1 * p.val = (k 0).val; rw [e0, hk0]; omega
  | ⟨1, _⟩ => show win1_2.index t (1 : Fin 2) * 3072 + 1 * q.val = (k 1).val; rw [e1, hk1]; omega

/-- The body's arithmetic over the three blocks at a point, at block entry `(d, i')`, is the array function at row
    `64 h + d`, column `256 qi + i'`. -/
theorem point1 (c : Dev nD) (t : Fin cfg1.N) (d : Fin 64) (i' : Fin 256) (k : S512x3072.Idx)
    (hk0 : (k 0).val = win1_3.index t (0 : Fin 2) * 64 + d.val)
    (hk1 : (k 1).val = win1_3.index t (1 : Fin 2) * 256 + i'.val) :
    k1_pay1 (iblk1 V c 0 t) (iblk1 V c 1 t) (iblk1 V c 2 t) (ix2 d i') = G44 (V c main_v43) k := by
  obtain ⟨-, -, -, -, -, -, e6, e7⟩ := idx_facts1 t
  obtain ⟨h, hh⟩ : ∃ h : Fin 8, h.val = win1_3.index t (0 : Fin 2) := ⟨⟨_, e6⟩, rfl⟩
  refine (pay1_apply (iblk1 V c 0 t) (iblk1 V c 1 t) (iblk1 V c 2 t) d i').trans ?_
  have hhd : Cert.Spec.hd (k 0) = h := Fin.ext (by show (k 0).val / 64 = h.val; have := d.isLt; omega)
  have hdm : Cert.Spec.dm (k 0) = d := Fin.ext (by show (k 0).val % 64 = d.val; have := d.isLt; omega)
  have key : ∀ G : S1536x3072.Idx → EReal, G44 G k
      = ∑ j : Fin 3072, (fun o n => G (ix2 o n)) (grow 2 (Cert.Spec.hd (k 0)) (Cert.Spec.dm (k 0))) j
        * kwt (fun o n => G (ix2 o n)) (Cert.Spec.hd (k 0)) (k 1) j := fun _ => rfl
  refine Eq.trans ?_ (key _).symm
  rw [hhd, hdm]
  refine att_bridge (fun o n => (V c main_v43 : S1536x3072.Idx → EReal) (ix2 o n)) h (k 1) i' d _ _ _
    (fun d' => iblk1_0_apply V c t d' i' _ ?_ hk1) (fun d' j => iblk1_1_apply V c t d' j _ ?_ rfl)
    (fun j => iblk1_2_apply V c t d j _ ?_ rfl)
  · show 0 * 512 + (h.val * 64 + d'.val) = win1_3.index t (0 : Fin 2) * 64 + d'.val
    rw [hh]; omega
  · show 1 * 512 + (h.val * 64 + d'.val) = (8 + win1_3.index t (0 : Fin 2)) * 64 + d'.val
    rw [hh]; omega
  · show 2 * 512 + (h.val * 64 + d.val) = (16 + win1_3.index t (0 : Fin 2)) * 64 + d.val
    rw [hh]; omega

/-- The same at any block index `y`. -/
theorem point1_idx (c : Dev nD) (t : Fin cfg1.N) (y : S64x256.Idx) (k : S512x3072.Idx)
    (hk0 : (k 0).val = win1_3.index t (0 : Fin 2) * 64 + (y 0).val)
    (hk1 : (k 1).val = win1_3.index t (1 : Fin 2) * 256 + (y 1).val) :
    k1_pay1 (iblk1 V c 0 t) (iblk1 V c 1 t) (iblk1 V c 2 t) y = G44 (V c main_v43) k := by
  obtain ⟨d, i', rfl⟩ : ∃ (d : Fin 64) (i' : Fin 256), y = ix2 d i' := ⟨y 0, y 1, eq_ix2 y⟩
  exact point1 V c t d i' k hk0 hk1

/-- What a point writes back is its block of the array function. -/
theorem flushed1_eq (c : Dev nD) (t : Fin cfg1.N) :
    (dat1 V c).flushed 3 t = ((cfg1.win 3).blk t).view.read (Elt Ideal) (G44 (V c main_v43)) := by
  show (cfg1.win 3).cut (grid1.coords t) ((dat1 V c).after 3 t) = _
  rw [after1_3, out1_3_eq]
  funext j
  rw [View.read_apply]
  refine point1_idx V c t _ _ ?_ ?_
  · show win1_3.index t (0 : Fin 2) * 64 + 1 * (j 0).val = win1_3.index t (0 : Fin 2) * 64 + (j 0).val
    omega
  · show win1_3.index t (1 : Fin 2) * 256 + 1 * (j 1).val = win1_3.index t (1 : Fin 2) * 256 + (j 1).val
    omega

/-- An index of the array is in a point's block iff each coordinate is in the block's range on its axis. -/
theorem mem_blk1 (t : Fin cfg1.N) (i : S512x3072.Idx) :
    i ∈ ((cfg1.win 3).blk t).view.set ↔ ∀ a : Fin 2, win1_3.index t a * S64x256.size a ≤ (i a).val
      ∧ (i a).val < win1_3.index t a * S64x256.size a + S64x256.size a := by
  show i ∈ ((View.whole main_v44).slice (win1_3.rect t)).set ↔ _
  rw [View.set_slice_whole, Rect.mem_set_unit]
  exact Iff.rfl

/-- Every entry `(r, n)` is in the block of the point `(r / 64, n / 256)`. -/
theorem cover1 (i : S512x3072.Idx) :
    ∃ t : Fin cfg1.N, (cfg1.win 3).flush t = true ∧ i ∈ ((cfg1.win 3).blk t).view.set := by
  have hi0 : (i 0).val < 512 := (i 0).isLt
  have hi1 : (i 1).val < 3072 := (i 1).isLt
  obtain ⟨t, h0, h1⟩ := idx_onto1 ⟨(i 0).val / 64, by omega⟩ ⟨(i 1).val / 256, by omega⟩
  refine ⟨t, flush1_3 t, ?_⟩
  rw [mem_blk1]
  intro a
  match a with
  | ⟨0, _⟩ =>
    show win1_3.index t (0 : Fin 2) * 64 ≤ (i 0).val ∧ (i 0).val < win1_3.index t (0 : Fin 2) * 64 + 64
    rw [h0]; show (i 0).val / 64 * 64 ≤ (i 0).val ∧ (i 0).val < (i 0).val / 64 * 64 + 64; omega
  | ⟨1, _⟩ =>
    show win1_3.index t (1 : Fin 2) * 256 ≤ (i 1).val ∧ (i 1).val < win1_3.index t (1 : Fin 2) * 256 + 256
    rw [h1]; show (i 1).val / 256 * 256 ≤ (i 1).val ∧ (i 1).val < (i 1).val / 256 * 256 + 256; omega

/-- The array after the second pipeline's run is the array function of the projected array the pipeline found. -/
theorem final1 (c : Dev nD) : (dat1 V c).arrAt 3 cfg1.N = G44 (V c main_v43) :=
  (dat1 V c).arrAt_eq_of_cover 3 (G44 (V c main_v43)) (fun t _ => flushed1_eq V c t) (cover1)

end Cert.KernelIdeal.KVal

end
-- ==== Proof.Pay2.lean ====
/-
  The projection body's stored value read at an entry: the input plus the product of the projection weights with
  the attended block, plus the bias column.
-/
import proofs.«113005_j19404662243884_2_alg».proof.Proof.Gen.KernelIdeal.Skeleton
import proofs.«113005_j19404662243884_2_alg».proof.Proof.PayLib

noncomputable section

open Idealize.ShloMosaic Idealize.ShloMosaic.ValueIdx
open scoped BigOperators

namespace Cert.KernelIdeal.KVal

open Cert.KernelIdeal Cert.KernelIdeal.Gen

/-- The product's left index keeps the output row … -/
theorem lhs_proj_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- … and runs over the contraction on its columns. -/
theorem lhs_proj_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right index runs over the contraction on its rows … -/
theorem rhs_proj_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … and keeps the output column. -/
theorem rhs_proj_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The `[512, 512] · [512, 512]` product into the zero splat, at `(p, q)`: `∑ k, l (p, k) · r (k, q)`. -/
theorem matmul_proj_apply (l r : FVec Ideal S512x512 .bf16) (p q : Fin 512) :
    matmul dot_S512x512_S512x512_S512x512_1_0_0_1_n_n none l r (constant S512x512 .f32 0x00000000#32) (ix2 p q)
      = ∑ k : Fin 512, l (ix2 p k) * r (ix2 k q) := by
  simp only [matmul]
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun a => Fin.ext (by
      match a with
      | ⟨0, _⟩ => exact lhs_proj_0 _ _
      | ⟨1, _⟩ => exact (lhs_proj_1 _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun a => Fin.ext (by
      match a with
      | ⟨0, _⟩ => exact (rhs_proj_0 _ _).trans hk
      | ⟨1, _⟩ => exact rhs_proj_1 _ _)
  rw [el, er]

/-- The projection body's stored value at `(c, n)`. -/
theorem pay2_apply (x : Vec Ideal S512x512 .f32) (a pw : Vec Ideal S512x512 .bf16) (pb : Vec Ideal S512x1 .f32)
    (c n : Fin 512) :
    k2_pay1 x a pw pb (ix2 c n) = (x (ix2 c n) + ∑ c' : Fin 512, pw (ix2 c c') * a (ix2 c' n)) + pb (ix2 c (0 : Fin 1)) := by
  unfold k2_pay1
  rw [addf_apply, addf_apply, broadcastTo_a1_ab_apply, shapeCast_self, shapeCast_self, shapeCast_self, matmul_proj_apply]

end Cert.KernelIdeal.KVal

end
-- ==== Proof.Val2.lean ====
/-
  The third pipeline's output array as one function of the arrays it finds: every grid point writes its block of
  the input plus the projected attended values plus the bias, and the six blocks tile the array.
-/
import proofs.«113005_j19404662243884_2_alg».proof.Proof.KDats
import proofs.«113005_j19404662243884_2_alg».proof.Proof.KSpec
import proofs.«113005_j19404662243884_2_alg».proof.Proof.Pay2

noncomputable section

open Idealize.ShloMosaic Idealize.ShloMosaic.TcCoe Idealize.ShloMosaic.ValueIdx Idealize.SL.Sem
open Idealize.ShloMosaic.Pipeline (Dat)
open scoped BigOperators

namespace Cert.KernelIdeal.KVal

open Cert.KernelIdeal Cert.KernelIdeal.Gen Cert.KernelIdeal.Hand

variable (V : Entry Ideal)

/-- The array the third pipeline leaves, from the four arrays it finds: input, attended values, weights, bias column. -/
def G47 (x a : S512x3072.Idx → EReal) (pw : S512x512.Idx → EReal) (pb : S512x1.Idx → EReal) : S512x3072.Idx → EReal :=
  fun i => Cert.KSpec.k47 (fun c n => x (ix2 c n)) (fun c n => a (ix2 c n)) (fun c c' => pw (ix2 c c'))
    (fun c => pb (ix2 c (0 : Fin 1))) (i 0) (i 1)

/-- The printed index maps over the six points: the column block moves with the point, the rest stay. -/
theorem idx_facts2 : ∀ t : Fin cfg2.N, win2_0.index t (0 : Fin 2) = 0 ∧ win2_0.index t (1 : Fin 2) = t.val
    ∧ win2_1.index t (0 : Fin 2) = 0 ∧ win2_1.index t (1 : Fin 2) = t.val
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = t.val :=
  (by decide +kernel : ∀ t : Fin grid2.N, _)

/-- The input's block at point `t` is columns `512 t … 512 t + 511` of the input. -/
theorem iblk2_0_apply (c : Dev nD) (t : Fin cfg2.N) (p q : Fin 512) (k : S512x3072.Idx)
    (hk0 : (k 0).val = p.val) (hk1 : (k 1).val = t.val * 512 + q.val) :
    (iblk2 V c 0 t : Vec Ideal S512x512 .f32) (ix2 p q) = (V c main_arg0 : S512x3072.Idx → EReal) k := by
  obtain ⟨e0, e1, -⟩ := idx_facts2 t
  unfold iblk2
  rw [View.read_apply]
  show (V c main_arg0 : S512x3072.Idx → EReal) _ = (V c main_arg0 : S512x3072.Idx → EReal) k
  refine congrArg _ (funext fun a => Fin.ext ?_)
  match a with
  | ⟨0, _⟩ => show win2_0.index t (0 : Fin 2) * 512 + 1 * p.val = (k 0).val; rw [e0, hk0]; omega
  | ⟨1, _⟩ => show win2_0.index t (1 : Fin 2) * 512 + 1 * q.val = (k 1).val; rw [e1, hk1]; omega

/-- The attended values' block at point `t` is the same columns of the attended array. -/
theorem iblk2_1_apply (c : Dev nD) (t : Fin cfg2.N) (p q : Fin 512) (k : S512x3072.Idx)
    (hk0 : (k 0).val = p.val) (hk1 : (k 1).val = t.val * 512 + q.val) :
    (iblk2 V c 1 t : Vec Ideal S512x512 .bf16) (ix2 p q) = (V c main_v44 : S512x3072.Idx → EReal) k := by
  obtain ⟨-, -, e0, e1, -⟩ := idx_facts2 t
  unfold iblk2
  rw [View.read_apply]
  show (V c main_v44 : S512x3072.Idx → EReal) _ = (V c main_v44 : S512x3072.Idx → EReal) k
  refine congrArg _ (funext fun a => Fin.ext ?_)
  match a with
  | ⟨0, _⟩ => show win2_1.index t (0 : Fin 2) * 512 + 1 * p.val = (k 0).val; rw [e0, hk0]; omega
  | ⟨1, _⟩ => show win2_1.index t (1 : Fin 2) * 512 + 1 * q.val = (k 1).val; rw [e1, hk1]; omega

/-- The weights' block is the whole weight array at every point. -/
theorem iblk2_2_apply (c : Dev nD) (t : Fin cfg2.N) (p q : Fin 512) (k : S512x512.Idx)
    (hk0 : (k 0).val = p.val) (hk1 : (k 1).val = q.val) :
    (iblk2 V c 2 t : Vec Ideal S512x512 .bf16) (ix2 p q) = (V c main_v45 : S512x512.Idx → EReal) k := by
  obtain ⟨-, -, -, -, e0, e1, -⟩ := idx_facts2 t
  unfold iblk2
  rw [View.read_apply]
  show (V c main_v45 : S512x512.Idx → EReal) _ = (V c main_v45 : S512x512.Idx → EReal) k
  refine congrArg _ (funext fun a => Fin.ext ?_)
  match a with
  | ⟨0, _⟩ => show win2_2.index t (0 : Fin 2) * 512 + 1 * p.val = (k 0).val; rw [e0, hk0]; omega
  | ⟨1, _⟩ => show win2_2.index t (1 : Fin 2) * 512 + 1 * q.val = (k 1).val; rw [e1, hk1]; omega

/-- The bias block is the whole bias column at every point. -/
theorem iblk2_3_apply (c : Dev nD) (t : Fin cfg2.N) (p : Fin 512) (u : Fin 1) (k : S512x1.Idx)
    (hk0 : (k 0).val = p.val) (hk1 : (k 1).val = u.val) :
    (iblk2 V c 3 t : Vec Ideal S512x1 .f32) (ix2 p u) = (V c main_v46 : S512x1.Idx → EReal) k := by
  obtain ⟨-, -, -, -, -, -, e0, e1, -⟩ := idx_facts2 t
  unfold iblk2
  rw [View.read_apply]
  show (V c main_v46 : S512x1.Idx → EReal) _ = (V c main_v46 : S512x1.Idx → EReal) k
  refine congrArg _ (funext fun a => Fin.ext ?_)
  match a with
  | ⟨0, _⟩ => show win2_3.index t (0 : Fin 2) * 512 + 1 * p.val = (k 0).val; rw [e0, hk0]; omega
  | ⟨1, _⟩ => show win2_3.index t (1 : Fin 2) * 1 + 1 * u.val = (k 1).val; rw [e1, hk1]; omega

/-- The body's arithmetic over the four blocks at point `t`, at block entry `(p, q)`, is the array function at row `p`,
    column `512 t + q`. -/
theorem point2 (c : Dev nD) (t : Fin cfg2.N) (p q : Fin 512) (k : S512x3072.Idx)
    (hk0 : (k 0).val = p.val) (hk1 : (k 1).val = t.val * 512 + q.val) :
    k2_pay1 (iblk2 V c 0 t) (iblk2 V c 1 t) (iblk2 V c 2 t) (iblk2 V c 3 t) (ix2 p q)
      = G47 (V c main_arg0) (V c main_v44) (V c main_v45) (V c main_v46) k := by
  refine (pay2_apply (iblk2 V c 0 t) (iblk2 V c 1 t) (iblk2 V c 2 t) (iblk2 V c 3 t) p q).trans ?_
  have key : ∀ (X A : S512x3072.Idx → EReal) (PW : S512x512.Idx → EReal) (PB : S512x1.Idx → EReal),
      G47 X A PW PB k = (X (ix2 (k 0) (k 1)) + ∑ c' : Fin 512, PW (ix2 (k 0) c') * A (ix2 c' (k 1)))
        + PB (ix2 (k 0) (0 : Fin 1)) := fun _ _ _ _ => rfl
  refine Eq.trans ?_ (key _ _ _ _).symm
  refine congrArg₂ (· + ·) (congrArg₂ (· + ·) (iblk2_0_apply V c t p q _ hk0 hk1)
    (Finset.sum_congr rfl fun c' _ => congrArg₂ (· * ·) (iblk2_2_apply V c t p c' _ hk0 rfl) (iblk2_1_apply V c t c' q _ rfl hk1)))
    (iblk2_3_apply V c t p 0 _ hk0 rfl)

/-- The same at any block index `y`. -/
theorem point2_idx (c : Dev nD) (t : Fin cfg2.N) (y : S512x512.Idx) (k : S512x3072.Idx)
    (hk0 : (k 0).val = (y 0).val) (hk1 : (k 1).val = t.val * 512 + (y 1).val) :
    k2_pay1 (iblk2 V c 0 t) (iblk2 V c 1 t) (iblk2 V c 2 t) (iblk2 V c 3 t) y
      = G47 (V c main_arg0) (V c main_v44) (V c main_v45) (V c main_v46) k := by
  obtain ⟨p, q, rfl⟩ : ∃ (p q : Fin 512), y = ix2 p q := ⟨y 0, y 1, eq_ix2 y⟩
  exact point2 V c t p q k hk0 hk1

/-- What point `t` writes back is block `t` of the array function. -/
theorem flushed2_eq (c : Dev nD) (t : Fin cfg2.N) :
    (dat2 V c).flushed 4 t = ((cfg2.win 4).blk t).view.read (Elt Ideal)
      (G47 (V c main_arg0) (V c main_v44) (V c main_v45) (V c main_v46)) := by
  obtain ⟨-, -, -, -, -, -, -, -, e0, e1⟩ := idx_facts2 t
  show (cfg2.win 4).cut (grid2.coords t) ((dat2 V c).after 4 t) = _
  rw [after2_4, out2_4_eq]
  funext j
  rw [View.read_apply]
  refine point2_idx V c t _ _ ?_ ?_
  · show win2_4.index t (0 : Fin 2) * 512 + 1 * (j 0).val = (j 0).val
    rw [e0]; omega
  · show win2_4.index t (1 : Fin 2) * 512 + 1 * (j 1).val = t.val * 512 + (j 1).val
    rw [e1]; omega

/-- An index of the array is in point `t`'s block iff each coordinate is in the block's range on its axis. -/
theorem mem_blk2 (t : Fin cfg2.N) (i : S512x3072.Idx) :
    i ∈ ((cfg2.win 4).blk t).view.set ↔ ∀ a : Fin 2, win2_4.index t a * S512x512.size a ≤ (i a).val
      ∧ (i a).val < win2_4.index t a * S512x512.size a + S512x512.size a := by
  show i ∈ ((View.whole main_v47).slice (win2_4.rect t)).set ↔ _
  rw [View.set_slice_whole, Rect.mem_set_unit]
  exact Iff.rfl

/-- Every entry `(r, n)` is in the block of the point `n / 512`. -/
theorem cover2 (i : S512x3072.Idx) :
    ∃ t : Fin cfg2.N, (cfg2.win 4).flush t = true ∧ i ∈ ((cfg2.win 4).blk t).view.set := by
  have hi0 : (i 0).val < 512 := (i 0).isLt
  have hi1 : (i 1).val < 3072 := (i 1).isLt
  have hN : cfg2.N = 6 := N_2
  obtain ⟨t, ht⟩ : ∃ t : Fin cfg2.N, t.val = (i 1).val / 512 := ⟨⟨(i 1).val / 512, by rw [hN]; omega⟩, rfl⟩
  obtain ⟨-, -, -, -, -, -, -, -, e0, e1⟩ := idx_facts2 t
  refine ⟨t, flush2_4 t, ?_⟩
  rw [mem_blk2]
  intro a
  match a with
  | ⟨0, _⟩ =>
    show win2_4.index t (0 : Fin 2) * 512 ≤ (i 0).val ∧ (i 0).val < win2_4.index t (0 : Fin 2) * 512 + 512
    rw [e0]; omega
  | ⟨1, _⟩ =>
    show win2_4.index t (1 : Fin 2) * 512 ≤ (i 1).val ∧ (i 1).val < win2_4.index t (1 : Fin 2) * 512 + 512
    rw [e1, ht]; omega

/-- The array after the third pipeline's run is the array function of what the pipeline found. -/
theorem final2 (c : Dev nD) :
    (dat2 V c).arrAt 4 cfg2.N = G47 (V c main_arg0) (V c main_v44) (V c main_v45) (V c main_v46) :=
  (dat2 V c).arrAt_eq_of_cover 4 (G47 (V c main_arg0) (V c main_v44) (V c main_v45) (V c main_v46))
    (fun t _ => flushed2_eq V c t) (cover2)

end Cert.KernelIdeal.KVal

end
-- ==== Proof.KHostDefs.lean ====
/-
  The map from the grouped projection rows to the interleaved ones.

  The projection's 1536 weight rows arrive interleaved: row `(h·64 + d)·3 + j` is head `h`, channel `d` of the
  query (j = 0), key (j = 1) or value (j = 2). Regrouped, rows 0..511 are the queries, 512..1023 the keys and
  1024..1535 the values, each block ordered by `e = h·64 + d`; so grouped row `j·512 + e` is interleaved row
  `e·3 + j`.
-/
import proofs.«113005_j19404662243884_2_alg».proof.Proof.Spec

namespace Cert.KernelIdeal.KHost

/-- The interleaved row that grouped row `o` is taken from. -/
def reord (o : Fin 1536) : Fin 1536 := ⟨(o.val % 512) * 3 + o.val / 512, by omega⟩

theorem reord_val (o : Fin 1536) : (reord o).val = (o.val % 512) * 3 + o.val / 512 := rfl

/-- Grouped row `j·512 + e` is interleaved row `e·3 + j`. -/
theorem reord_mk (j : Fin 3) (e : Fin 512) :
    reord ⟨j.val * 512 + e.val, by omega⟩ = ⟨e.val * 3 + j.val, by omega⟩ := by
  apply Fin.ext
  simp only [reord]
  omega

/-- The same, for a row known only by its value. -/
theorem reord_of_val (o : Fin 1536) (j e : ℕ) (he : e < 512) (ho : o.val = j * 512 + e) :
    (reord o).val = e * 3 + j := by
  simp only [reord]
  omega

/-- The part (0 query, 1 key, 2 value) and the position in its block of a grouped row. -/
theorem reord_val' (o : Fin 1536) : (reord o).val / 3 = o.val % 512 ∧ (reord o).val % 3 = o.val / 512 := by
  simp only [reord]
  omega

end Cert.KernelIdeal.KHost
-- ==== Proof.KHostLib.lean ====
/-
  Re-layings read at an index: the few shape casts, broadcasts, slices and concatenations the host stages use,
  each as "the result at these coordinates is the operand at those coordinates", and a row sum of a
  [32, 49152] array as a sum over the 49152 entries of the row.
-/
import proofs.«113005_j19404662243884_2_alg».proof.Proof.KHostDefs
import Idealize.ShloMosaic.Lib.IdealHost
import Idealize.ShloMosaic.Lib.ValueLayout

noncomputable section

open scoped BigOperators

namespace Cert.KernelIdeal.KHost

open Idealize.ShloMosaic Idealize.ShloMosaic.ValueIdx

variable {α : Type}

/-! ## Shape casts -/

/-- A vector re-laid as a column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix re-laid as a vector reads, at position `p·b + q`, the matrix at `(p, q)`. -/
theorem shapeCast_ab_n_apply {a b n : ℕ} (x : (⟨2, ![a, b]⟩ : Shape).Idx → α)
    (h : (⟨2, ![a, b]⟩ : Shape).ShapeCasts ⟨1, ![n]⟩) (i : Fin n) (p : Fin a) (q : Fin b)
    (hpq : p.val * b + q.val = i.val) : shapeCast ⟨1, ![n]⟩ x h (ix1 i) = x (ix2 p q) :=
  shapeCast_apply x h _ _ (by
    rw [Shape.rowMajor_val_two, Shape.rowMajor_val_one]
    exact hpq)

/-- A matrix re-laid as another matrix reads, at `(i, j)`, the operand at the `(p, q)` of the same position. -/
theorem shapeCast_ab_cd_apply {a b c d : ℕ} (x : (⟨2, ![a, b]⟩ : Shape).Idx → α)
    (h : (⟨2, ![a, b]⟩ : Shape).ShapeCasts ⟨2, ![c, d]⟩) (i : Fin c) (j : Fin d) (p : Fin a) (q : Fin b)
    (hpq : p.val * b + q.val = i.val * d + j.val) : shapeCast ⟨2, ![c, d]⟩ x h (ix2 i j) = x (ix2 p q) :=
  shapeCast_apply x h _ _ (by
    rw [Shape.rowMajor_val_two, Shape.rowMajor_val_two]
    exact hpq)

/-- A rank-3 array re-laid as a matrix. -/
theorem shapeCast_abc_de_apply {a b c d e : ℕ} (x : (⟨3, ![a, b, c]⟩ : Shape).Idx → α)
    (h : (⟨3, ![a, b, c]⟩ : Shape).ShapeCasts ⟨2, ![d, e]⟩) (i : Fin d) (j : Fin e) (p : Fin a) (q : Fin b) (r : Fin c)
    (hpq : (p.val * b + q.val) * c + r.val = i.val * e + j.val) :
    shapeCast ⟨2, ![d, e]⟩ x h (ix2 i j) = x (ix3 p q r) :=
  shapeCast_apply x h _ _ (by
    rw [Shape.rowMajor_val_three, Shape.rowMajor_val_two]
    exact hpq)

/-- A rank-4 array with a unit third axis re-laid without it. -/
theorem shapeCast_ab1c_abc_apply {a b c : ℕ} (x : (⟨4, ![a, b, 1, c]⟩ : Shape).Idx → α)
    (h : (⟨4, ![a, b, 1, c]⟩ : Shape).ShapeCasts ⟨3, ![a, b, c]⟩) (p : Fin a) (q : Fin b) (r : Fin c) :
    shapeCast ⟨3, ![a, b, c]⟩ x h (ix3 p q r) = x (ix4 p q (0 : Fin 1) r) :=
  shapeCast_apply x h _ _ (by
    rw [Shape.rowMajor_val_four, Shape.rowMajor_val_three]
    show ((p.val * b + q.val) * 1 + 0) * c + r.val = (p.val * b + q.val) * c + r.val
    rw [Nat.mul_one, Nat.add_zero])

/-- A matrix re-laid as a rank-4 array. -/
theorem shapeCast_ab_cdef_apply {a b c d e f : ℕ} (x : (⟨2, ![a, b]⟩ : Shape).Idx → α)
    (h : (⟨2, ![a, b]⟩ : Shape).ShapeCasts ⟨4, ![c, d, e, f]⟩) (i : Fin c) (j : Fin d) (k : Fin e) (l : Fin f)
    (p : Fin a) (q : Fin b)
    (hpq : p.val * b + q.val = ((i.val * d + j.val) * e + k.val) * f + l.val) :
    shapeCast ⟨4, ![c, d, e, f]⟩ x h (ix4 i j k l) = x (ix2 p q) :=
  shapeCast_apply x h _ _ (by
    rw [Shape.rowMajor_val_two, Shape.rowMajor_val_four]
    exact hpq)

/-- A vector re-laid as a rank-3 array. -/
theorem shapeCast_n_abc_apply {n a b c : ℕ} (x : (⟨1, ![n]⟩ : Shape).Idx → α)
    (h : (⟨1, ![n]⟩ : Shape).ShapeCasts ⟨3, ![a, b, c]⟩) (i : Fin a) (j : Fin b) (k : Fin c) (p : Fin n)
    (hp : p.val = (i.val * b + j.val) * c + k.val) : shapeCast ⟨3, ![a, b, c]⟩ x h (ix3 i j k) = x (ix1 p) :=
  shapeCast_apply x h _ _ (by
    rw [Shape.rowMajor_val_one, Shape.rowMajor_val_three]
    exact hp)

/-- A rank-3 array with a unit last axis re-laid without it. -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-! ## Broadcasts -/

/-- A vector repeated along a new trailing axis reads, at `(p, q)`, the vector at `p`. -/
theorem bcast_a_ab_apply {a b : ℕ} (ha : a ≠ 1) (x : (⟨1, ![a]⟩ : Shape).Idx → α)
    (h : (⟨1, ![a]⟩ : Shape).BroadcastsInDim ⟨2, ![a, b]⟩ ![0]) (p : Fin a) (q : Fin b) :
    broadcastInDim ⟨2, ![a, b]⟩ ![0] h x (ix2 p q) = x (ix1 p) :=
  broadcastInDim_apply _ h x _ _ (fun ax => by
    match ax with
    | ⟨0, _⟩ =>
      show p.val = if a = 1 then 0 else p.val
      rw [if_neg ha])

/-- A column repeated along its unit axis reads, at `(p, q)`, the column at `(p, 0)`. -/
theorem bcast_a1_ab_apply {a b : ℕ} (ha : a ≠ 1) (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply _ h x _ _ (fun ax => by
    match ax with
    | ⟨0, _⟩ =>
      show p.val = if a = 1 then 0 else p.val
      rw [if_neg ha]
    | ⟨1, _⟩ =>
      show 0 = if (1 : ℕ) = 1 then 0 else q.val
      rw [if_pos rfl])

/-! ## Slices -/

/-- A rank-3 array cut along its last axis from `o`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-! ## A row sum of a [32, 49152] array -/

/-- Row `g` with the coordinate `k` put back. -/
theorem lift_32x49152 (h : (⟨2, ![32, 49152]⟩ : Shape).Reduces [1] ⟨1, ![32]⟩) (g : Fin 32) (k : Fin 49152) :
    h.lift (ix1 g) k = ix2 g k := by
  funext c
  apply Fin.ext
  match c with
  | ⟨0, _⟩ => rfl
  | ⟨1, _⟩ => rfl

/-- The host's sum along the rows of a [32, 49152] array, from `init`. -/
theorem hostReduceAdd_rows (h' : (⟨2, ![32, 49152]⟩ : Shape).ReducesTo [1] ⟨1, ![32]⟩)
    (x : (⟨2, ![32, 49152]⟩ : Shape).Idx → EReal) (init : EReal) (g : Fin 32) :
    Ideal.hostReduceAdd h' x init (ix1 g) = init + ∑ k : Fin 49152, x (ix2 g k) := by
  have h : (⟨2, ![32, 49152]⟩ : Shape).Reduces [1] ⟨1, ![32]⟩ := by decide
  rw [Ideal.hostReduceAdd_single h' h]
  show init + ∑ k : Fin 49152, x (h.lift (ix1 g) k) = _
  simp only [lift_32x49152]

end Cert.KernelIdeal.KHost

end
-- ==== Proof.KHost4.lean ====
/-
  What the third region finds: the projection weight (its change of format is the identity on extended reals),
  the projection bias re-laid as a column, and the arrays carried unchanged from earlier stages — the input,
  the per-channel scale and shift, the regrouped weight and bias, and what the first two regions left.
-/
import proofs.«113005_j19404662243884_2_alg».proof.Proof.Gen.KernelIdeal.Regions
import proofs.«113005_j19404662243884_2_alg».proof.Proof.KHostLib

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (outs : Gen.Outs (F := Ideal)) (c : Dev nD)

/-! ## Arrays no stage before the third region writes -/

/-- The input is as launched after the first three host stretches. -/
theorem V3_arg0 : Gen.V3 m c main_arg0 = m ((c : Thread nD τ).loc main_arg0) :=
  (V3_of m c main_arg0 (by decide)).trans <| (V2_of m c main_arg0 (by decide)).trans <|
    (V1_of m c main_arg0 (by decide)).trans rfl

/-- The input is as launched when the third region is entered. -/
theorem V6_arg0 : Gen.V6 m outs c main_arg0 = m ((c : Thread nD τ).loc main_arg0) :=
  (V6_of m outs c main_arg0 (by decide)).trans <| (V5_of m outs c main_arg0 (by decide)).trans <|
    (V4_of m outs c main_arg0 (by decide)).trans <| V3_arg0 m c

/-- The projection weight is as launched after the second region. -/
theorem V5_arg5 : Gen.V5 m outs c main_arg5 = m ((c : Thread nD τ).loc main_arg5) :=
  (V5_of m outs c main_arg5 (by decide)).trans <| (V4_of m outs c main_arg5 (by decide)).trans <|
    (V3_of m c main_arg5 (by decide)).trans <| (V2_of m c main_arg5 (by decide)).trans <|
    (V1_of m c main_arg5 (by decide)).trans rfl

/-- The projection bias is as launched after the second region. -/
theorem V5_arg6 : Gen.V5 m outs c main_arg6 = m ((c : Thread nD τ).loc main_arg6) :=
  (V5_of m outs c main_arg6 (by decide)).trans <| (V4_of m outs c main_arg6 (by decide)).trans <|
    (V3_of m c main_arg6 (by decide)).trans <| (V2_of m c main_arg6 (by decide)).trans <|
    (V1_of m c main_arg6 (by decide)).trans rfl

/-- The first region leaves the scale, the shift, the regrouped bias and the regrouped weight as it found them. -/
theorem V4_v16 : Gen.V4 m outs c main_v16 = Gen.V3 m c main_v16 := V4_of m outs c main_v16 (by decide)
theorem V4_v18 : Gen.V4 m outs c main_v18 = Gen.V3 m c main_v18 := V4_of m outs c main_v18 (by decide)
theorem V4_v41 : Gen.V4 m outs c main_v41 = Gen.V3 m c main_v41 := V4_of m outs c main_v41 (by decide)
theorem V4_v42 : Gen.V4 m outs c main_v42 = Gen.V3 m c main_v42 := V4_of m outs c main_v42 (by decide)
theorem V4_arg0 : Gen.V4 m outs c main_arg0 = m ((c : Thread nD τ).loc main_arg0) :=
  (V4_of m outs c main_arg0 (by decide)).trans <| V3_arg0 m c

/-- The projected rows are what the first region left. -/
theorem V4_v43 : Gen.V4 m outs c main_v43 = outs 4 main_v43 c := by
  dsimp only [Gen.V4]
  exact Function.update_self ..

/-- The attended values are what the second region left, also past the last host stretch. -/
theorem V5_v44 : Gen.V5 m outs c main_v44 = outs 5 main_v44 c := by
  dsimp only [Gen.V5]
  exact Function.update_self ..
theorem V6_v44 : Gen.V6 m outs c main_v44 = outs 5 main_v44 c :=
  (V6_of m outs c main_v44 (by decide)).trans (V5_v44 m outs c)

/-! ## The two arrays the last host stretch writes -/

/-- The projection weight in the narrower format is the weight itself. -/
theorem V6_v45 : (Gen.V6 m outs c main_v45 : S512x512.Idx → EReal)
    = (m ((c : Thread nD τ).loc main_arg5) : S512x512.Idx → EReal) := by
  dsimp only [Gen.V6, Gen.hostOps2]
  after_results
  rw [V5_arg5]
  rfl

/-- The projection bias as a column. -/
theorem V6_v46 (ch : Fin 512) : (Gen.V6 m outs c main_v46 : S512x1.Idx → EReal) (ix2 ch (0 : Fin 1))
    = (m ((c : Thread nD τ).loc main_arg6) : S512.Idx → EReal) (ix1 ch) := by
  dsimp only [Gen.V6, Gen.hostOps2]
  after_results
  rw [V5_arg6]
  exact shapeCast_a_a1_apply _ _ ch 0

end Cert.KernelIdeal.KHost

end
-- ==== Proof.ValK.lean ====
/-
  The three pipelines' output arrays in terms of the launch contents and of what the earlier pipelines left, whatever
  that is: the closed forms of the three regions with the host stages read.
-/
import proofs.«113005_j19404662243884_2_alg».proof.Proof.Val0
import proofs.«113005_j19404662243884_2_alg».proof.Proof.Val1
import proofs.«113005_j19404662243884_2_alg».proof.Proof.Val2
import proofs.«113005_j19404662243884_2_alg».proof.Proof.KHost4

noncomputable section

open Idealize.ShloMosaic Idealize.ShloMosaic.TcCoe Idealize.ShloMosaic.ValueIdx Idealize.SL.Sem
open scoped BigOperators

namespace Cert.KernelIdeal.KVal

open Cert.KernelIdeal Cert.KernelIdeal.Gen Cert.KernelIdeal.Hand Cert.KSpec

variable (m : (ℓ : Loc nD τ sig) → Buf (Elt Ideal) ℓ) (outs : Gen.Outs (F := Ideal)) (c : Dev nD)

/-- The first pipeline leaves the grouped projected rows, given the host stages' scale column, shift column, grouped
    weights and grouped bias read at an index (`a0 … a4`: the input, the normalisation's weight and bias, the
    interleaved projection weights and bias). -/
theorem arr43_of (a0 : S512x3072.Idx → EReal) (a1 a2 : S512.Idx → EReal) (a3 : S1536x512.Idx → EReal)
    (a4 : S1536.Idx → EReal)
    (h0 : (Gen.V3 m c main_arg0 : S512x3072.Idx → EReal) = a0)
    (h16 : ∀ ch : Fin 512, (Gen.V3 m c main_v16 : S512x1.Idx → EReal) (ix2 ch (0 : Fin 1))
      = scale (fun ch n => a0 (ix2 ch n)) (fun ch => a1 (ix1 ch)) ch)
    (h18 : ∀ ch : Fin 512, (Gen.V3 m c main_v18 : S512x1.Idx → EReal) (ix2 ch (0 : Fin 1))
      = shift (fun ch n => a0 (ix2 ch n)) (fun ch => a1 (ix1 ch)) (fun ch => a2 (ix1 ch)) ch)
    (h42 : ∀ (o : Fin 1536) (c' : Fin 512), (Gen.V3 m c main_v42 : S1536x512.Idx → EReal) (ix2 o c')
      = a3 (ix2 (reord o) c'))
    (h41 : ∀ o : Fin 1536, (Gen.V3 m c main_v41 : S1536x1.Idx → EReal) (ix2 o (0 : Fin 1)) = a4 (ix1 (reord o))) :
    (pdats m outs 0 c).arrAt 5 cfg0.N
      = fun i => k43 (fun ch n => a0 (ix2 ch n)) (fun ch => a1 (ix1 ch)) (fun ch => a2 (ix1 ch))
          (fun o c' => a3 (ix2 o c')) (fun o => a4 (ix1 o)) (i 0) (i 1) := by
  refine (final0 (E0 m) c).trans ?_
  show G43 (Gen.V3 m c main_arg0) (Gen.V3 m c main_v16) (Gen.V3 m c main_v18) (Gen.V3 m c main_v42) (Gen.V3 m c main_v41) = _
  rw [h0]
  funext i
  unfold G43 k43
  refine congrArg₂ (· + ·) (Finset.sum_congr rfl fun c' _ => ?_) (h41 (i 0))
  rw [h42 (i 0) c', h16 c', h18 c']

/-- The second pipeline leaves the attended values of whatever the first left. -/
theorem arr44 : (pdats m outs 1 c).arrAt 3 cfg1.N
    = fun i => k44 (fun o n => (outs 4 main_v43 c : S1536x3072.Idx → EReal) (ix2 o n)) (i 0) (i 1) := by
  refine (final1 (E1 m outs) c).trans ?_
  show G44 (Gen.V4 m outs c main_v43) = _
  rw [KHost.V4_v43 m outs c]
  rfl

/-- The third pipeline leaves the input plus the projection of whatever the second left, plus the bias. -/
theorem arr47 : (pdats m outs 2 c).arrAt 4 cfg2.N
    = fun i => k47 (fun ch n => (m ((c : Thread nD τ).loc main_arg0) : S512x3072.Idx → EReal) (ix2 ch n))
        (fun c' n => (outs 5 main_v44 c : S512x3072.Idx → EReal) (ix2 c' n))
        (fun ch c' => (m ((c : Thread nD τ).loc main_arg5) : S512x512.Idx → EReal) (ix2 ch c'))
        (fun ch => (m ((c : Thread nD τ).loc main_arg6) : S512.Idx → EReal) (ix1 ch)) (i 0) (i 1) := by
  refine (final2 (E2 m outs) c).trans ?_
  show G47 (Gen.V6 m outs c main_arg0) (Gen.V6 m outs c main_v44) (Gen.V6 m outs c main_v45) (Gen.V6 m outs c main_v46) = _
  rw [KHost.V6_arg0 m outs c, KHost.V6_v44 m outs c, KHost.V6_v45 m outs c]
  funext i
  unfold G47 k47
  exact congrArg (_ + ·) (KHost.V6_v46 m outs c (i 0))

end Cert.KernelIdeal.KVal

end
-- ==== Proof.KHostRows.lean ====
/-
  The regrouping of the projection's weight rows and bias entries, as a fact about arrays.

  The interleaved weight is re-laid by head, channel, part and column; each part (query, key, value) is cut out
  and re-laid as a [512, 512] matrix whose row `e` is the interleaved row `e·3 + part`; the three matrices are
  stacked. So row `o` of the stack is the interleaved row `(o % 512)·3 + o / 512`. The bias likewise.
-/
import proofs.«113005_j19404662243884_2_alg».proof.Proof.KHostLib
import proofs.«113005_j19404662243884_2_alg».proof.Proof.KSpec

noncomputable section

namespace Cert.KernelIdeal.KHost

open Idealize.ShloMosaic Idealize.ShloMosaic.ValueIdx

variable {α : Type}

/-- One part's weight rows: row `e` is the interleaved row `e·3 + o`. -/
theorem wpart_apply (o : ℕ) (ho : o < 3) (A : (⟨2, ![1536, 512]⟩ : Shape).Idx → α)
    (h19 : (⟨2, ![1536, 512]⟩ : Shape).ShapeCasts ⟨4, ![8, 64, 3, 512]⟩)
    (hs : (⟨4, ![8, 64, 3, 512]⟩ : Shape).Slices ![0, 0, o, 0] ⟨4, ![8, 64, 1, 512]⟩)
    (h22 : (⟨4, ![8, 64, 1, 512]⟩ : Shape).ShapeCasts ⟨3, ![8, 64, 512]⟩)
    (h23 : (⟨3, ![8, 64, 512]⟩ : Shape).ShapeCasts ⟨2, ![512, 512]⟩) (e c' : Fin 512) :
    shapeCast ⟨2, ![512, 512]⟩
        (shapeCast ⟨3, ![8, 64, 512]⟩
          (extractStridedSlice ⟨4, ![8, 64, 1, 512]⟩ ![0, 0, o, 0] (shapeCast ⟨4, ![8, 64, 3, 512]⟩ A h19) hs) h22)
        h23 (ix2 e c')
      = A (ix2 (⟨e.val * 3 + o, by omega⟩ : Fin 1536) c') := by
  refine (shapeCast_abc_de_apply _ h23 e c' (⟨e.val / 64, by omega⟩ : Fin 8)
    (⟨e.val % 64, Nat.mod_lt _ (by norm_num)⟩ : Fin 64) c' (by
      show (e.val / 64 * 64 + e.val % 64) * 512 + c'.val = e.val * 512 + c'.val
      omega)).trans ?_
  refine (shapeCast_ab1c_abc_apply _ h22 _ _ _).trans ?_
  refine (slice4_axis2_apply o _ hs _ _ (0 : Fin 1) c' (⟨o, ho⟩ : Fin 3) (by simp)).trans ?_
  exact shapeCast_ab_cdef_apply A h19 _ _ _ _ _ c' (by
    show (e.val * 3 + o) * 512 + c'.val = ((e.val / 64 * 64 + e.val % 64) * 3 + o) * 512 + c'.val
    omega)

/-- One part's bias entries: entry `e` is the interleaved entry `e·3 + o`. -/
theorem bpart_apply (o : ℕ) (ho : o < 3) (B : (⟨1, ![1536]⟩ : Shape).Idx → α)
    (h20 : (⟨1, ![1536]⟩ : Shape).ShapeCasts ⟨3, ![8, 64, 3]⟩)
    (hs : (⟨3, ![8, 64, 3]⟩ : Shape).Slices ![0, 0, o] ⟨3, ![8, 64, 1]⟩)
    (h31 : (⟨3, ![8, 64, 1]⟩ : Shape).ShapeCasts ⟨2, ![8, 64]⟩)
    (h32 : (⟨2, ![8, 64]⟩ : Shape).ShapeCasts ⟨1, ![512]⟩) (e : Fin 512) :
    shapeCast ⟨1, ![512]⟩
        (shapeCast ⟨2, ![8, 64]⟩
          (extractStridedSlice ⟨3, ![8, 64, 1]⟩ ![0, 0, o] (shapeCast ⟨3, ![8, 64, 3]⟩ B h20) hs) h31)
        h32 (ix1 e)
      = B (ix1 (⟨e.val * 3 + o, by omega⟩ : Fin 1536)) := by
  refine (shapeCast_ab_n_apply _ h32 e (⟨e.val / 64, by omega⟩ : Fin 8)
    (⟨e.val % 64, Nat.mod_lt _ (by norm_num)⟩ : Fin 64) (by
      show e.val / 64 * 64 + e.val % 64 = e.val
      omega)).trans ?_
  refine (shapeCast_ab1_ab_apply _ h31 _ _).trans ?_
  refine (slice3_axis2_apply o _ hs _ _ (0 : Fin 1) (⟨o, ho⟩ : Fin 3) (by simp)).trans ?_
  exact shapeCast_n_abc_apply B h20 _ _ _ _ (by
    show e.val * 3 + o = (e.val / 64 * 64 + e.val % 64) * 3 + o
    omega)

/-! ## Three [512, 512] matrices stacked, three vectors of 512 laid end to end -/

section Stack
variable (W0 W1 W2 : (⟨2, ![512, 512]⟩ : Shape).Idx → α)
  (h : Shape.Concatenates [(⟨2, ![512, 512]⟩ : Shape), ⟨2, ![512, 512]⟩, ⟨2, ![512, 512]⟩] ⟨2, ![1536, 512]⟩ 0)
  (o : Fin 1536) (c' e : Fin 512)

theorem stack_rows_0 (hoe : o.val = e.val) :
    concatenate ⟨2, ![1536, 512]⟩ 0 [⟨⟨2, ![512, 512]⟩, W0⟩, ⟨⟨2, ![512, 512]⟩, W1⟩, ⟨⟨2, ![512, 512]⟩, W2⟩] h (ix2 o c')
      = W0 (ix2 e c') :=
  concatenate_apply_piece 0 [⟨⟨2, ![512, 512]⟩, W0⟩, ⟨⟨2, ![512, 512]⟩, W1⟩, ⟨⟨2, ![512, 512]⟩, W2⟩] h (ix2 o c') 0 (by simp) ⟨2, ![512, 512]⟩ W0 rfl rfl 0 rfl (ix2 e c')
    (fun b hb => by
      match b with
      | ⟨0, _⟩ => exact absurd rfl hb
      | ⟨1, _⟩ => rfl)
    (by show 0 + e.val = o.val; omega)

theorem stack_rows_1 (hoe : o.val = 512 + e.val) :
    concatenate ⟨2, ![1536, 512]⟩ 0 [⟨⟨2, ![512, 512]⟩, W0⟩, ⟨⟨2, ![512, 512]⟩, W1⟩, ⟨⟨2, ![512, 512]⟩, W2⟩] h (ix2 o c')
      = W1 (ix2 e c') :=
  concatenate_apply_piece 0 [⟨⟨2, ![512, 512]⟩, W0⟩, ⟨⟨2, ![512, 512]⟩, W1⟩, ⟨⟨2, ![512, 512]⟩, W2⟩] h (ix2 o c') 1 (by simp) ⟨2, ![512, 512]⟩ W1 rfl rfl 512 rfl (ix2 e c')
    (fun b hb => by
      match b with
      | ⟨0, _⟩ => exact absurd rfl hb
      | ⟨1, _⟩ => rfl)
    (by show 512 + e.val = o.val; omega)

theorem stack_rows_2 (hoe : o.val = 1024 + e.val) :
    concatenate ⟨2, ![1536, 512]⟩ 0 [⟨⟨2, ![512, 512]⟩, W0⟩, ⟨⟨2, ![512, 512]⟩, W1⟩, ⟨⟨2, ![512, 512]⟩, W2⟩] h (ix2 o c')
      = W2 (ix2 e c') :=
  concatenate_apply_piece 0 [⟨⟨2, ![512, 512]⟩, W0⟩, ⟨⟨2, ![512, 512]⟩, W1⟩, ⟨⟨2, ![512, 512]⟩, W2⟩] h (ix2 o c') 2 (by simp) ⟨2, ![512, 512]⟩ W2 rfl rfl 1024 rfl (ix2 e c')
    (fun b hb => by
      match b with
      | ⟨0, _⟩ => exact absurd rfl hb
      | ⟨1, _⟩ => rfl)
    (by show 1024 + e.val = o.val; omega)
end Stack

section Join
variable (B0 B1 B2 : (⟨1, ![512]⟩ : Shape).Idx → α)
  (h : Shape.Concatenates [(⟨1, ![512]⟩ : Shape), ⟨1, ![512]⟩, ⟨1, ![512]⟩] ⟨1, ![1536]⟩ 0)
  (o : Fin 1536) (e : Fin 512)

theorem join_0 (hoe : o.val = e.val) :
    concatenate ⟨1, ![1536]⟩ 0 [⟨⟨1, ![512]⟩, B0⟩, ⟨⟨1, ![512]⟩, B1⟩, ⟨⟨1, ![512]⟩, B2⟩] h (ix1 o) = B0 (ix1 e) :=
  concatenate_apply_piece 0 [⟨⟨1, ![512]⟩, B0⟩, ⟨⟨1, ![512]⟩, B1⟩, ⟨⟨1, ![512]⟩, B2⟩] h (ix1 o) 0 (by simp) ⟨1, ![512]⟩ B0 rfl rfl 0 rfl (ix1 e)
    (fun b hb => by
      match b with
      | ⟨0, _⟩ => exact absurd rfl hb)
    (by show 0 + e.val = o.val; omega)

theorem join_1 (hoe : o.val = 512 + e.val) :
    concatenate ⟨1, ![1536]⟩ 0 [⟨⟨1, ![512]⟩, B0⟩, ⟨⟨1, ![512]⟩, B1⟩, ⟨⟨1, ![512]⟩, B2⟩] h (ix1 o) = B1 (ix1 e) :=
  concatenate_apply_piece 0 [⟨⟨1, ![512]⟩, B0⟩, ⟨⟨1, ![512]⟩, B1⟩, ⟨⟨1, ![512]⟩, B2⟩] h (ix1 o) 1 (by simp) ⟨1, ![512]⟩ B1 rfl rfl 512 rfl (ix1 e)
    (fun b hb => by
      match b with
      | ⟨0, _⟩ => exact absurd rfl hb)
    (by show 512 + e.val = o.val; omega)

theorem join_2 (hoe : o.val = 1024 + e.val) :
    concatenate ⟨1, ![1536]⟩ 0 [⟨⟨1, ![512]⟩, B0⟩, ⟨⟨1, ![512]⟩, B1⟩, ⟨⟨1, ![512]⟩, B2⟩] h (ix1 o) = B2 (ix1 e) :=
  concatenate_apply_piece 0 [⟨⟨1, ![512]⟩, B0⟩, ⟨⟨1, ![512]⟩, B1⟩, ⟨⟨1, ![512]⟩, B2⟩] h (ix1 o) 2 (by simp) ⟨1, ![512]⟩ B2 rfl rfl 1024 rfl (ix1 e)
    (fun b hb => by
      match b with
      | ⟨0, _⟩ => exact absurd rfl hb)
    (by show 1024 + e.val = o.val; omega)
end Join

/-! ## The regrouped weight and bias -/

/-- Row `o` of the stacked parts is the interleaved row `reord o`. -/
theorem wcat_apply (A : (⟨2, ![1536, 512]⟩ : Shape).Idx → α)
    (h19 : (⟨2, ![1536, 512]⟩ : Shape).ShapeCasts ⟨4, ![8, 64, 3, 512]⟩)
    (hs0 : (⟨4, ![8, 64, 3, 512]⟩ : Shape).Slices ![0, 0, 0, 0] ⟨4, ![8, 64, 1, 512]⟩)
    (hs1 : (⟨4, ![8, 64, 3, 512]⟩ : Shape).Slices ![0, 0, 1, 0] ⟨4, ![8, 64, 1, 512]⟩)
    (hs2 : (⟨4, ![8, 64, 3, 512]⟩ : Shape).Slices ![0, 0, 2, 0] ⟨4, ![8, 64, 1, 512]⟩)
    (h22 : (⟨4, ![8, 64, 1, 512]⟩ : Shape).ShapeCasts ⟨3, ![8, 64, 512]⟩)
    (h23 : (⟨3, ![8, 64, 512]⟩ : Shape).ShapeCasts ⟨2, ![512, 512]⟩)
    (hc : Shape.Concatenates [(⟨2, ![512, 512]⟩ : Shape), ⟨2, ![512, 512]⟩, ⟨2, ![512, 512]⟩] ⟨2, ![1536, 512]⟩ 0)
    (o : Fin 1536) (c' : Fin 512) :
    concatenate ⟨2, ![1536, 512]⟩ 0
        [⟨⟨2, ![512, 512]⟩, shapeCast ⟨2, ![512, 512]⟩ (shapeCast ⟨3, ![8, 64, 512]⟩
            (extractStridedSlice ⟨4, ![8, 64, 1, 512]⟩ ![0, 0, 0, 0] (shapeCast ⟨4, ![8, 64, 3, 512]⟩ A h19) hs0) h22) h23⟩,
          ⟨⟨2, ![512, 512]⟩, shapeCast ⟨2, ![512, 512]⟩ (shapeCast ⟨3, ![8, 64, 512]⟩
            (extractStridedSlice ⟨4, ![8, 64, 1, 512]⟩ ![0, 0, 1, 0] (shapeCast ⟨4, ![8, 64, 3, 512]⟩ A h19) hs1) h22) h23⟩,
          ⟨⟨2, ![512, 512]⟩, shapeCast ⟨2, ![512, 512]⟩ (shapeCast ⟨3, ![8, 64, 512]⟩
            (extractStridedSlice ⟨4, ![8, 64, 1, 512]⟩ ![0, 0, 2, 0] (shapeCast ⟨4, ![8, 64, 3, 512]⟩ A h19) hs2) h22) h23⟩]
        hc (ix2 o c')
      = A (ix2 (Cert.KSpec.reord o) c') := by
  have hlt := o.isLt
  by_cases h0 : o.val < 512
  · refine (stack_rows_0 _ _ _ hc o c' (⟨o.val, h0⟩ : Fin 512) rfl).trans ?_
    refine (wpart_apply 0 (by norm_num) A h19 hs0 h22 h23 _ c').trans ?_
    exact congrArg (fun r => A (ix2 r c')) (Fin.ext (by simp only [Cert.KSpec.reord]; omega))
  · by_cases h1 : o.val < 1024
    · refine (stack_rows_1 _ _ _ hc o c' (⟨o.val - 512, by omega⟩ : Fin 512) (by show o.val = 512 + (o.val - 512); omega)).trans ?_
      refine (wpart_apply 1 (by norm_num) A h19 hs1 h22 h23 _ c').trans ?_
      exact congrArg (fun r => A (ix2 r c')) (Fin.ext (by simp only [Cert.KSpec.reord]; omega))
    · refine (stack_rows_2 _ _ _ hc o c' (⟨o.val - 1024, by omega⟩ : Fin 512) (by show o.val = 1024 + (o.val - 1024); omega)).trans ?_
      refine (wpart_apply 2 (by norm_num) A h19 hs2 h22 h23 _ c').trans ?_
      exact congrArg (fun r => A (ix2 r c')) (Fin.ext (by simp only [Cert.KSpec.reord]; omega))

/-- Entry `o` of the joined parts is the interleaved entry `reord o`. -/
theorem bcat_apply (B : (⟨1, ![1536]⟩ : Shape).Idx → α)
    (h20 : (⟨1, ![1536]⟩ : Shape).ShapeCasts ⟨3, ![8, 64, 3]⟩)
    (hs0 : (⟨3, ![8, 64, 3]⟩ : Shape).Slices ![0, 0, 0] ⟨3, ![8, 64, 1]⟩)
    (hs1 : (⟨3, ![8, 64, 3]⟩ : Shape).Slices ![0, 0, 1] ⟨3, ![8, 64, 1]⟩)
    (hs2 : (⟨3, ![8, 64, 3]⟩ : Shape).Slices ![0, 0, 2] ⟨3, ![8, 64, 1]⟩)
    (h31 : (⟨3, ![8, 64, 1]⟩ : Shape).ShapeCasts ⟨2, ![8, 64]⟩)
    (h32 : (⟨2, ![8, 64]⟩ : Shape).ShapeCasts ⟨1, ![512]⟩)
    (hc : Shape.Concatenates [(⟨1, ![512]⟩ : Shape), ⟨1, ![512]⟩, ⟨1, ![512]⟩] ⟨1, ![1536]⟩ 0)
    (o : Fin 1536) :
    concatenate ⟨1, ![1536]⟩ 0
        [⟨⟨1, ![512]⟩, shapeCast ⟨1, ![512]⟩ (shapeCast ⟨2, ![8, 64]⟩
            (extractStridedSlice ⟨3, ![8, 64, 1]⟩ ![0, 0, 0] (shapeCast ⟨3, ![8, 64, 3]⟩ B h20) hs0) h31) h32⟩,
          ⟨⟨1, ![512]⟩, shapeCast ⟨1, ![512]⟩ (shapeCast ⟨2, ![8, 64]⟩
            (extractStridedSlice ⟨3, ![8, 64, 1]⟩ ![0, 0, 1] (shapeCast ⟨3, ![8, 64, 3]⟩ B h20) hs1) h31) h32⟩,
          ⟨⟨1, ![512]⟩, shapeCast ⟨1, ![512]⟩ (shapeCast ⟨2, ![8, 64]⟩
            (extractStridedSlice ⟨3, ![8, 64, 1]⟩ ![0, 0, 2] (shapeCast ⟨3, ![8, 64, 3]⟩ B h20) hs2) h31) h32⟩]
        hc (ix1 o)
      = B (ix1 (Cert.KSpec.reord o)) := by
  have hlt := o.isLt
  by_cases h0 : o.val < 512
  · refine (join_0 _ _ _ hc o (⟨o.val, h0⟩ : Fin 512) rfl).trans ?_
    refine (bpart_apply 0 (by norm_num) B h20 hs0 h31 h32 _).trans ?_
    exact congrArg (fun r => B (ix1 r)) (Fin.ext (by simp only [Cert.KSpec.reord]; omega))
  · by_cases h1 : o.val < 1024
    · refine (join_1 _ _ _ hc o (⟨o.val - 512, by omega⟩ : Fin 512) (by show o.val = 512 + (o.val - 512); omega)).trans ?_
      refine (bpart_apply 1 (by norm_num) B h20 hs1 h31 h32 _).trans ?_
      exact congrArg (fun r => B (ix1 r)) (Fin.ext (by simp only [Cert.KSpec.reord]; omega))
    · refine (join_2 _ _ _ hc o (⟨o.val - 1024, by omega⟩ : Fin 512) (by show o.val = 1024 + (o.val - 1024); omega)).trans ?_
      refine (bpart_apply 2 (by norm_num) B h20 hs2 h31 h32 _).trans ?_
      exact congrArg (fun r => B (ix1 r)) (Fin.ext (by simp only [Cert.KSpec.reord]; omega))

end Cert.KernelIdeal.KHost

end
-- ==== Proof.KHost3.lean ====
/-
  The regrouped projection weight and bias that the first region finds.

  The third host stretch re-lays the interleaved weight by head, channel, part and column, cuts out the three
  parts, re-lays each as a [512, 512] matrix and stacks them; the change of format that follows is the identity
  on extended reals. Row `o` of the result is therefore the interleaved row `reord o`. The bias goes the same
  way and ends as a column.
-/
import proofs.«113005_j19404662243884_2_alg».proof.Proof.Gen.KernelIdeal.Regions
import proofs.«113005_j19404662243884_2_alg».proof.Proof.KHostRows

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem

/-- Each operation's result at its own array is its function's value, and any other array is as it was:
    one rewriting pass, repeated once for the arrays named inside a stacking. -/
local macro "host_results1" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]))
local macro "host_results" : tactic => `(tactic| (host_results1; try host_results1))

section Stretch
variable (W : Valuation τ sig (Elt Ideal))

/-- The regrouped weight after the stretch, from any contents `W` before it. -/
theorem after2_v42 (o : Fin 1536) (c' : Fin 512) :
    (StableHlo.after (Gen.hostOps0_2 (F := Ideal)) W main_v42 : S1536x512.Idx → EReal) (ix2 o c')
      = (W main_arg3 : S1536x512.Idx → EReal) (ix2 (Cert.KSpec.reord o) c') := by
  dsimp only [Gen.hostOps0_2]
  host_results
  refine Eq.trans (truncf_apply (φ := .f32) (ψ := .bf16) _ bitsLt_bf16_f32 (ix2 o c')) ?_
  have hlt := o.isLt
  by_cases h0 : o.val < 512
  · refine (stack_rows_0 _ _ _ _ o c' (⟨o.val, h0⟩ : Fin 512) rfl).trans ?_
    host_results
    refine (wpart_apply 0 (by norm_num) _ _ _ _ _ _ c').trans ?_
    exact congrArg (fun r => (W main_arg3 : S1536x512.Idx → EReal) (ix2 r c'))
      (Fin.ext (by simp only [Cert.KSpec.reord]; omega))
  · by_cases h1 : o.val < 1024
    · refine (stack_rows_1 _ _ _ _ o c' (⟨o.val - 512, by omega⟩ : Fin 512)
        (by show o.val = 512 + (o.val - 512); omega)).trans ?_
      host_results
      refine (wpart_apply 1 (by norm_num) _ _ _ _ _ _ c').trans ?_
      exact congrArg (fun r => (W main_arg3 : S1536x512.Idx → EReal) (ix2 r c'))
        (Fin.ext (by simp only [Cert.KSpec.reord]; omega))
    · refine (stack_rows_2 _ _ _ _ o c' (⟨o.val - 1024, by omega⟩ : Fin 512)
        (by show o.val = 1024 + (o.val - 1024); omega)).trans ?_
      host_results
      refine (wpart_apply 2 (by norm_num) _ _ _ _ _ _ c').trans ?_
      exact congrArg (fun r => (W main_arg3 : S1536x512.Idx → EReal) (ix2 r c'))
        (Fin.ext (by simp only [Cert.KSpec.reord]; omega))

/-- The regrouped bias, as a column, after the stretch. -/
theorem after2_v41 (o : Fin 1536) :
    (StableHlo.after (Gen.hostOps0_2 (F := Ideal)) W main_v41 : S1536x1.Idx → EReal) (ix2 o (0 : Fin 1))
      = (W main_arg4 : S1536.Idx → EReal) (ix1 (Cert.KSpec.reord o)) := by
  dsimp only [Gen.hostOps0_2]
  host_results
  refine (shapeCast_a_a1_apply _ _ o 0).trans ?_
  have hlt := o.isLt
  by_cases h0 : o.val < 512
  · refine (join_0 _ _ _ _ o (⟨o.val, h0⟩ : Fin 512) rfl).trans ?_
    host_results
    refine (bpart_apply 0 (by norm_num) _ _ _ _ _ _).trans ?_
    exact congrArg (fun r => (W main_arg4 : S1536.Idx → EReal) (ix1 r))
      (Fin.ext (by simp only [Cert.KSpec.reord]; omega))
  · by_cases h1 : o.val < 1024
    · refine (join_1 _ _ _ _ o (⟨o.val - 512, by omega⟩ : Fin 512)
        (by show o.val = 512 + (o.val - 512); omega)).trans ?_
      host_results
      refine (bpart_apply 1 (by norm_num) _ _ _ _ _ _).trans ?_
      exact congrArg (fun r => (W main_arg4 : S1536.Idx → EReal) (ix1 r))
        (Fin.ext (by simp only [Cert.KSpec.reord]; omega))
    · refine (join_2 _ _ _ _ o (⟨o.val - 1024, by omega⟩ : Fin 512)
        (by show o.val = 1024 + (o.val - 1024); omega)).trans ?_
      host_results
      refine (bpart_apply 2 (by norm_num) _ _ _ _ _ _).trans ?_
      exact congrArg (fun r => (W main_arg4 : S1536.Idx → EReal) (ix1 r))
        (Fin.ext (by simp only [Cert.KSpec.reord]; omega))

end Stretch

variable (m : (ℓ : Loc nD τ sig) → Buf (Elt Ideal) ℓ) (c : Dev nD)

/-- The interleaved weight and bias are as launched when the third host stretch starts. -/
theorem V2_arg3 : Gen.V2 m c main_arg3 = m ((c : Thread nD τ).loc main_arg3) :=
  (V2_of m c main_arg3 (by decide)).trans <| (V1_of m c main_arg3 (by decide)).trans rfl
theorem V2_arg4 : Gen.V2 m c main_arg4 = m ((c : Thread nD τ).loc main_arg4) :=
  (V2_of m c main_arg4 (by decide)).trans <| (V1_of m c main_arg4 (by decide)).trans rfl

/-- Row `o` of the weight the first region finds is the interleaved row `reord o` of the argument. -/
theorem V3_v42 (o : Fin 1536) (c' : Fin 512) :
    (Gen.V3 m c main_v42 : S1536x512.Idx → EReal) (ix2 o c')
      = (m ((c : Thread nD τ).loc main_arg3) : S1536x512.Idx → EReal) (ix2 (Cert.KSpec.reord o) c') := by
  refine (after2_v42 (Gen.V2 m c) o c').trans ?_
  rw [V2_arg3]

/-- Entry `o` of the bias column the first region finds is the interleaved entry `reord o` of the argument. -/
theorem V3_v41 (o : Fin 1536) :
    (Gen.V3 m c main_v41 : S1536x1.Idx → EReal) (ix2 o (0 : Fin 1))
      = (m ((c : Thread nD τ).loc main_arg4) : S1536.Idx → EReal) (ix1 (Cert.KSpec.reord o)) := by
  refine (after2_v41 (Gen.V2 m c) o).trans ?_
  rw [V2_arg4]

end Cert.KernelIdeal.KHost

end
-- ==== Proof.KHostStatV.lean ====
/-
  The kernel program's group statistics, as its host operations compute them before the first region.

  The input is re-laid into 32 groups of 49152 entries (entry k of group g is channel 16·g + k / 3072, pixel
  k % 3072). A group's mean is its sum from the zero word over the word 49152; its variance the mean of the squared
  deviations, through a guarded quotient whose guard (49152 − 0 > 0) is true; its reciprocal standard deviation the
  reciprocal square root of the variance plus ε. Each is first identified as a composition of the argument array,
  then read at a group, and is the specification's statistic of that group.
-/
import proofs.«113005_j19404662243884_2_alg».proof.Proof.Gen.KernelIdeal.Regions
import proofs.«113005_j19404662243884_2_alg».proof.Proof.LitFacts
import Idealize.ShloMosaic.Lib.IdealHost
import Idealize.ShloMosaic.Lib.ValueLayout

noncomputable section

open scoped BigOperators

namespace Cert.KernelIdeal.KHost.Stat

open Cert.KernelIdeal Cert.KernelIdeal.Gen
open Idealize.ShloMosaic Idealize.ShloMosaic.TcCoe Idealize.ShloMosaic.ValueIdx Idealize.ShloMosaic.StableHlo
open Idealize.SL.Sem Cert.Spec

/-- An array of extended reals over a shape. -/
abbrev Arr (s : Shape) : Type := FVec Ideal s .f32

/-! ## The stages as compositions of whole arrays -/

/-- The input re-laid as 32 groups of 49152 entries. -/
def tGrp (a0 : Arr S512x3072) : Arr S32x49152 := shapeCast S32x49152 a0 shapeCasts_S512x3072_S32x49152

/-- The group sums from the zero word. -/
def tSum (G : Arr S32x49152) : Arr S32 :=
  Host.reduceAdd G (constant (F := Ideal) S_ .f32 0x00000000#32) reducesTo_S32x49152_S32_d1 h_S_

/-- The group means, as a vector. -/
def tMean (G : Arr S32x49152) : Arr S32 :=
  Host.divf (tSum G) (broadcastInDim S32 ![] bcast_S_S32 (constant (F := Ideal) S_ .f32 0x47400000#32))

/-- The group means, as a column (the variance recomputes them in this form). -/
def tMeanCol (G : Arr S32x49152) : Arr S32x1 :=
  Host.divf (broadcastInDim S32x1 ![0] bcast_S32_S32x1_0 (tSum G))
    (broadcastInDim S32x1 ![] bcast_S_S32x1 (constant (F := Ideal) S_ .f32 0x47400000#32))

/-- The count the variance divides by. -/
def tCount (C : IVec S_ 32) : Arr S_ := subf (constant (F := Ideal) S_ .f32 0x47400000#32) (sitofp (F := Ideal) .f32 C)

/-- The group variances: the guarded quotient of the summed squared deviations by the count. -/
def tVar (G : Arr S32x49152) (C : IVec S_ 32) : Arr S32 :=
  select (broadcastInDim S32 ![] bcast_S_S32 (cmpf .ogt (tCount C) (constant (F := Ideal) S_ .f32 0x00000000#32)))
    (Host.divf
      (tSum (mulf (subf G (broadcastInDim S32x49152 ![0, 1] bcast_S32x1_S32x49152_0_1 (tMeanCol G)))
        (subf G (broadcastInDim S32x49152 ![0, 1] bcast_S32x1_S32x49152_0_1 (tMeanCol G)))))
      (broadcastInDim S32 ![] bcast_S_S32 (tCount C)))
    (broadcastInDim S32 ![] bcast_S_S32 (id (constant (F := Ideal) S_ .f32 0x7FC00000#32)))

/-- The reciprocal standard deviations. -/
def tRstd (V : Arr S32) : Arr S32 :=
  Host.rsqrt (addf V (broadcastInDim S32 ![] bcast_S_S32 (constant (F := Ideal) S_ .f32 0x3727C5AC#32)))

/-! ## The host stretches' results are those compositions -/

section Run
variable (m : (ℓ : Loc nD τ sig) → Buf (Elt Ideal) ℓ) (c : Dev nD)

/-- After the first stretch the grouped input is the input re-laid. -/
theorem V1_v0 : (Gen.V1 m c main_v0 : S32x49152.Idx → EReal) = tGrp (m ((c : Thread nD τ).loc main_arg0)) := by
  dsimp only [Gen.V1, Gen.hostOps0]
  after_results
  rfl

/-- … the means are the group sums over the count … -/
theorem V1_v3 : (Gen.V1 m c main_v3 : S32.Idx → EReal) = tMean (tGrp (m ((c : Thread nD τ).loc main_arg0))) := by
  dsimp only [Gen.V1, Gen.hostOps0]
  after_results
  rfl

/-- … and the variance's correction is the zero word. -/
theorem V1_c : (Gen.V1 m c main_c : S_.Idx → BitVec 32) = constantI S_ 32 0#32 := by
  dsimp only [Gen.V1, Gen.hostOps0]
  after_results

set_option maxRecDepth 8192 in
set_option maxHeartbeats 4000000 in  -- the variances are read back through the twenty-two operations of their stretch and the seven before it
/-- After the second stretch the variances are the guarded quotients. -/
theorem V2_v4 : (Gen.V2 m c main_v4 : S32.Idx → EReal)
    = tVar (tGrp (m ((c : Thread nD τ).loc main_arg0))) (constantI S_ 32 0#32) := by
  dsimp only [Gen.V2, Gen.hostOps0_1]
  after_results_simp
  rfl

/-- The third stretch leaves the means as the first stretch wrote them. -/
theorem V3_v3 : (Gen.V3 m c main_v3 : S32.Idx → EReal) = tMean (tGrp (m ((c : Thread nD τ).loc main_arg0))) :=
  (V3_of m c main_v3 (by decide)).trans ((V2_of m c main_v3 (by decide)).trans (V1_v3 m c))

/-- … and the variances as the second stretch wrote them. -/
theorem V3_v4 : (Gen.V3 m c main_v4 : S32.Idx → EReal)
    = tVar (tGrp (m ((c : Thread nD τ).loc main_arg0))) (constantI S_ 32 0#32) :=
  (V3_of m c main_v4 (by decide)).trans (V2_v4 m c)

set_option maxRecDepth 8192 in
set_option maxHeartbeats 4000000 in  -- the value is read back through the three stretches' sixty-eight operations, past each that does not write it
/-- The third stretch's reciprocal standard deviations. -/
theorem V3_v7 : (Gen.V3 m c main_v7 : S32.Idx → EReal)
    = tRstd (tVar (tGrp (m ((c : Thread nD τ).loc main_arg0))) (constantI S_ 32 0#32)) := by
  dsimp only [Gen.V3, Gen.hostOps0_2]
  after_results_simp
  rfl

end Run

/-! ## The stages read at an index -/

section Read
variable {α : Type}

/-- Entry k of group g is the input at the group's channel and pixel for k. -/
theorem tGrp_apply (a0 : Arr S512x3072) (g : Fin 32) (k : Fin 49152) :
    tGrp a0 (ix2 g k) = a0 (ix2 (gchan g k) (gpix k)) := by
  unfold tGrp
  refine shapeCast_apply a0 _ _ _ ?_
  rw [Shape.rowMajor_val_two, Shape.rowMajor_val_two]
  show (16 * g.val + k.val / 3072) * 3072 + k.val % 3072 = g.val * 49152 + k.val
  omega

/-- A group's sum from the zero word. -/
theorem tSum_apply (G : Arr S32x49152) (g : Fin 32) : tSum G (ix1 g) = z0 + ∑ k : Fin 49152, G (ix2 g k) := by
  have h : S32x49152.Reduces [1] S32 := by decide
  unfold tSum
  rw [hostReduceAdd_apply, Ideal.hostReduceAdd_single _ h]
  refine congrArg (z0 + ·) (Finset.sum_congr rfl fun k _ => congrArg G ?_)
  funext a
  match a with
  | ⟨0, _⟩ => rfl
  | ⟨1, _⟩ => rfl

/-- A group's mean. -/
theorem tMean_apply (G : Arr S32x49152) (g : Fin 32) :
    tMean G (ix1 g) = Ideal.div (z0 + ∑ k : Fin 49152, G (ix2 g k)) n49152 := by
  unfold tMean
  rw [hostDivf_apply, tSum_apply]
  refine congrArg (Ideal.div _) ?_
  exact broadcastInDim_scalar_apply _ _ _

/-- A group's mean in the column form. -/
theorem tMeanCol_apply (G : Arr S32x49152) (g : Fin 32) (u : Fin 1) :
    tMeanCol G (ix2 g u) = Ideal.div (z0 + ∑ k : Fin 49152, G (ix2 g k)) n49152 := by
  unfold tMeanCol
  rw [hostDivf_apply]
  refine congrArg₂ Ideal.div ?_ (broadcastInDim_scalar_apply _ _ _)
  refine (broadcastInDim_apply _ _ _ _ (ix1 g) fun a => ?_).trans (tSum_apply G g)
  match a with
  | ⟨0, _⟩ => rfl

/-- A group's variance with the zero correction: the guard is true, so it is the summed squared deviations from the
    group's mean over the count 49152 − 0. -/
theorem tVar_apply (G : Arr S32x49152) (g : Fin 32) :
    tVar G (constantI S_ 32 0#32) (ix1 g)
      = Ideal.div (z0 + ∑ k : Fin 49152, (G (ix2 g k) - tMean G (ix1 g)) * (G (ix2 g k) - tMean G (ix1 g))) n49152 := by
  unfold tVar
  refine (select_apply _ _ _ _).trans ?_
  refine (congrArg (fun b => Scalar.select b _ _) ((broadcastInDim_scalar_apply _ _ _).trans Lit.guard_true)).trans ?_
  refine (select_one _ _).trans ?_
  rw [hostDivf_apply, tSum_apply]
  refine congrArg₂ Ideal.div (congrArg (z0 + ·) (Finset.sum_congr rfl fun k _ => ?_))
    ((broadcastInDim_scalar_apply _ _ _).trans Lit.count_eq)
  have hb : broadcastInDim S32x49152 ![0, 1] bcast_S32x1_S32x49152_0_1 (tMeanCol G) (ix2 g k) = tMean G (ix1 g) :=
    (broadcastInDim_apply _ _ _ _ (ix2 g 0) fun a => by
      match a with
      | ⟨0, _⟩ => rfl
      | ⟨1, _⟩ => rfl).trans ((tMeanCol_apply G g 0).trans (tMean_apply G g).symm)
  rw [mulf_apply, subf_apply, hb]

/-- A group's reciprocal standard deviation. -/
theorem tRstd_apply (V : Arr S32) (g : Fin 32) : tRstd V (ix1 g) = Ideal.rsqrt (V (ix1 g) + eps) := by
  unfold tRstd
  show Ideal.rsqrt (addf V _ (ix1 g)) = _
  rw [addf_apply]
  refine congrArg (fun e : EReal => Ideal.rsqrt (V (ix1 g) + e)) ?_
  exact broadcastInDim_scalar_apply _ _ _

end Read

/-! ## They are the specification's statistics -/

section Spec
variable (a0 : Arr S512x3072)

/-- The mean of the re-laid input's group g is the specification's. -/
theorem tMean_spec (g : Fin 32) : tMean (tGrp a0) (ix1 g) = mean (fun ch n => a0 (ix2 ch n)) g := by
  rw [tMean_apply]
  unfold mean
  exact congrArg (fun s => Ideal.div (z0 + s) n49152) (Finset.sum_congr rfl fun k _ => tGrp_apply a0 g k)

/-- Its variance is the specification's. -/
theorem tVar_spec (g : Fin 32) : tVar (tGrp a0) (constantI S_ 32 0#32) (ix1 g) = var (fun ch n => a0 (ix2 ch n)) g := by
  rw [tVar_apply, tMean_spec]
  unfold var
  exact congrArg (fun s => Ideal.div (z0 + s) n49152) (Finset.sum_congr rfl fun k _ => by rw [tGrp_apply a0 g k])

/-- Its reciprocal standard deviation is the specification's. -/
theorem tRstd_spec (g : Fin 32) :
    tRstd (tVar (tGrp a0) (constantI S_ 32 0#32)) (ix1 g) = rstd (fun ch n => a0 (ix2 ch n)) g := by
  rw [tRstd_apply, tVar_spec]
  rfl

end Spec

/-! ## What the first region finds of the statistics -/

section Found
variable (m : (ℓ : Loc nD τ sig) → Buf (Elt Ideal) ℓ) (c : Dev nD)

/-- The means when the first region is entered are the specification's group means of the input. -/
theorem V3_mean (g : Fin 32) :
    (Gen.V3 m c main_v3 : S32.Idx → EReal) (ix1 g)
      = mean (fun ch n => (m ((c : Thread nD τ).loc main_arg0) : S512x3072.Idx → EReal) (ix2 ch n)) g := by
  rw [V3_v3]; exact tMean_spec _ g

/-- The variances are the specification's group variances. -/
theorem V3_var (g : Fin 32) :
    (Gen.V3 m c main_v4 : S32.Idx → EReal) (ix1 g)
      = var (fun ch n => (m ((c : Thread nD τ).loc main_arg0) : S512x3072.Idx → EReal) (ix2 ch n)) g := by
  rw [V3_v4]; exact tVar_spec _ g

/-- The reciprocal standard deviations are the specification's. -/
theorem V3_rstd (g : Fin 32) :
    (Gen.V3 m c main_v7 : S32.Idx → EReal) (ix1 g)
      = rstd (fun ch n => (m ((c : Thread nD τ).loc main_arg0) : S512x3072.Idx → EReal) (ix2 ch n)) g := by
  rw [V3_v7]; exact tRstd_spec _ g

end Found

end Cert.KernelIdeal.KHost.Stat

end
-- ==== Proof.KHostScale.lean ====
/-
  The folded per-channel scale and shift the first region is given.

  A per-group vector is spread to the 512 channels by repeating each entry 16 times, re-laying the [32, 16] array
  as 512 entries and then as a column: channel ch reads group ch / 16, since ch = (ch / 16)·16 + ch % 16. The scale
  is the spread reciprocal standard deviation times the weight; the shift is the bias minus the spread mean times
  the scale.
-/
import proofs.«113005_j19404662243884_2_alg».proof.Proof.KHostStatV
import proofs.«113005_j19404662243884_2_alg».proof.Proof.KSpec

noncomputable section

open scoped BigOperators

namespace Cert.KernelIdeal.KHost.Stat

open Cert.KernelIdeal Cert.KernelIdeal.Gen
open Idealize.ShloMosaic Idealize.ShloMosaic.TcCoe Idealize.ShloMosaic.ValueIdx Idealize.ShloMosaic.StableHlo
open Idealize.SL.Sem Cert.Spec

/-- A per-group vector spread to the 512 channels, as a column. -/
def tSpread (v : Arr S32) : Arr S512x1 :=
  shapeCast S512x1
    (shapeCast S512 (broadcastInDim S32x16 ![0] bcast_S32_S32x16_0 v) shapeCasts_S32x16_S512)
    shapeCasts_S512_S512x1

/-- A per-channel vector as a column. -/
def tCol (a : Arr S512) : Arr S512x1 := shapeCast S512x1 a shapeCasts_S512_S512x1

/-- The scale: the spread reciprocal standard deviation times the weight. -/
def tScale (R : Arr S32) (a1 : Arr S512) : Arr S512x1 := mulf (tSpread R) (tCol a1)

/-- The shift: the bias minus the spread mean times the scale. -/
def tShift (M R : Arr S32) (a1 a2 : Arr S512) : Arr S512x1 := subf (tCol a2) (mulf (tSpread M) (tScale R a1))

section Run
variable (m : (ℓ : Loc nD τ sig) → Buf (Elt Ideal) ℓ) (c : Dev nD)

set_option maxRecDepth 8192 in
set_option maxHeartbeats 4000000 in  -- the value is read back through the three stretches' sixty-eight operations, past each that does not write it
/-- The scale when the first region is entered. -/
theorem V3_v16 : (Gen.V3 m c main_v16 : S512x1.Idx → EReal)
    = tScale (tRstd (tVar (tGrp (m ((c : Thread nD τ).loc main_arg0))) (constantI S_ 32 0#32)))
        (m ((c : Thread nD τ).loc main_arg1)) := by
  dsimp only [Gen.V3, Gen.hostOps0_2]
  after_results_simp
  rfl

set_option maxRecDepth 8192 in
set_option maxHeartbeats 4000000 in  -- the value is read back through the three stretches' sixty-eight operations, past each that does not write it
/-- The shift when the first region is entered. -/
theorem V3_v18 : (Gen.V3 m c main_v18 : S512x1.Idx → EReal)
    = tShift (tMean (tGrp (m ((c : Thread nD τ).loc main_arg0))))
        (tRstd (tVar (tGrp (m ((c : Thread nD τ).loc main_arg0))) (constantI S_ 32 0#32)))
        (m ((c : Thread nD τ).loc main_arg1)) (m ((c : Thread nD τ).loc main_arg2)) := by
  dsimp only [Gen.V3, Gen.hostOps0_2]
  after_results_simp
  rfl

end Run

section Read

/-- A column of a per-channel vector reads the channel's entry. -/
theorem tCol_apply (a : Arr S512) (ch : Fin 512) (u : Fin 1) : tCol a (ix2 ch u) = a (ix1 ch) := by
  unfold tCol
  refine shapeCast_apply a _ _ _ ?_
  rw [Shape.rowMajor_val_one, Shape.rowMajor_val_two]
  show ch.val = ch.val * 1 + u.val
  omega

/-- Channel ch of a spread per-group vector reads group ch / 16. -/
theorem tSpread_apply (v : Arr S32) (ch : Fin 512) (u : Fin 1) : tSpread v (ix2 ch u) = v (ix1 (grp ch)) := by
  have hr : ch.val % 16 < 16 := Nat.mod_lt _ (by norm_num)
  unfold tSpread
  refine (shapeCast_apply _ _ _ (ix1 ch) ?_).trans ?_
  · rw [Shape.rowMajor_val_one, Shape.rowMajor_val_two]
    show ch.val = ch.val * 1 + u.val
    omega
  refine (shapeCast_apply _ _ _ (ix2 (grp ch) (⟨ch.val % 16, hr⟩ : Fin 16)) ?_).trans ?_
  · rw [Shape.rowMajor_val_two, Shape.rowMajor_val_one]
    show (ch.val / 16) * 16 + ch.val % 16 = ch.val
    omega
  refine broadcastInDim_apply _ _ _ _ (ix1 (grp ch)) fun a => ?_
  match a with
  | ⟨0, _⟩ => rfl

/-- The scale at a channel. -/
theorem tScale_apply (R : Arr S32) (a1 : Arr S512) (ch : Fin 512) (u : Fin 1) :
    tScale R a1 (ix2 ch u) = R (ix1 (grp ch)) * a1 (ix1 ch) := by
  unfold tScale
  rw [mulf_apply, tSpread_apply, tCol_apply]

/-- The shift at a channel. -/
theorem tShift_apply (M R : Arr S32) (a1 a2 : Arr S512) (ch : Fin 512) (u : Fin 1) :
    tShift M R a1 a2 (ix2 ch u) = a2 (ix1 ch) - M (ix1 (grp ch)) * (R (ix1 (grp ch)) * a1 (ix1 ch)) := by
  unfold tShift
  rw [subf_apply, mulf_apply, tCol_apply, tSpread_apply, tScale_apply]

end Read

section Found
variable (m : (ℓ : Loc nD τ sig) → Buf (Elt Ideal) ℓ) (c : Dev nD)

/-- The scale the first region finds is the folded per-channel scale of the input and the weight. -/
theorem V3_scale (ch : Fin 512) :
    (Gen.V3 m c main_v16 : S512x1.Idx → EReal) (ix2 ch (0 : Fin 1))
      = Cert.KSpec.scale (fun ch n => (m ((c : Thread nD τ).loc main_arg0) : S512x3072.Idx → EReal) (ix2 ch n))
          (fun ch => (m ((c : Thread nD τ).loc main_arg1) : S512.Idx → EReal) (ix1 ch)) ch := by
  rw [V3_v16, tScale_apply, tRstd_spec]
  rfl

/-- The shift the first region finds is the folded per-channel shift of the input, the weight and the bias. -/
theorem V3_shift (ch : Fin 512) :
    (Gen.V3 m c main_v18 : S512x1.Idx → EReal) (ix2 ch (0 : Fin 1))
      = Cert.KSpec.shift (fun ch n => (m ((c : Thread nD τ).loc main_arg0) : S512x3072.Idx → EReal) (ix2 ch n))
          (fun ch => (m ((c : Thread nD τ).loc main_arg1) : S512.Idx → EReal) (ix1 ch))
          (fun ch => (m ((c : Thread nD τ).loc main_arg2) : S512.Idx → EReal) (ix1 ch)) ch := by
  rw [V3_v18, tShift_apply, tRstd_spec, tMean_spec]
  rfl

end Found

end Cert.KernelIdeal.KHost.Stat

end
-- ==== Proof.Algebra.lean ====
/-
  The algebra that joins the two arrangements, over the extended reals, with no program imported.

  The normalisation is computed in one program as `((x − μ)·s)·w + b` and in the other as `x·(s·w) + (b − μ·(s·w))`.
  These agree when all five numbers are real (distributivity fails at the infinities), so the statistics of a group of
  real entries are shown real here: the mean is a real quotient, the variance a non-negative real, and the
  reciprocal deviation `(var + ε)^(-1/2)` a real because `var + ε` is positive. The score scale is `1/√64 = 1/8`.
-/
import proofs.«113005_j19404662243884_2_alg».proof.Proof.Spec

noncomputable section

open Idealize.ShloMosaic
open scoped BigOperators

namespace Cert.Spec.Alg

/-- A finite sum of real numbers, cast term by term, is the cast of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The two arrangements of the normalisation agree on real numbers. -/
theorem gn_fold (x μ s w b : ℝ) :
    (x : EReal) * ((s : EReal) * (w : EReal)) + ((b : EReal) - (μ : EReal) * ((s : EReal) * (w : EReal)))
      = (((x : EReal) - (μ : EReal)) * (s : EReal)) * (w : EReal) + (b : EReal) := by
  simp only [← EReal.coe_mul, ← EReal.coe_sub, ← EReal.coe_add]
  exact congrArg _ (by ring)

/-- The square root of 64 is 8. -/
theorem sqrt64 : Ideal.sqrt ((64 : ℝ) : EReal) = ((8 : ℝ) : EReal) := by
  rw [Ideal.sqrt_coe, if_neg (by norm_num)]
  refine congrArg _ ?_
  rw [show (64 : ℝ) = 8 ^ 2 by norm_num]
  exact Real.sqrt_sq (by norm_num)

/-- Dividing by 8 is multiplying by 1/8, on every extended real. -/
theorem div8 (t : EReal) : Ideal.div t ((8 : ℝ) : EReal) = t * ((1 / 8 : ℝ) : EReal) :=
  Ideal.div_coe (by norm_num) t

/-- The bottom element is neutral for the maximum. -/
theorem max_bot_left (y : EReal) : max ⊥ y = y := max_eq_right bot_le

section
variable (x : Fin 512 → Fin 3072 → EReal)
variable (hz : Cert.Spec.z0 = 0) (hn : Cert.Spec.n49152 = ((49152 : ℝ) : EReal))

include hz hn in
/-- The mean of a group of real entries is real. -/
theorem mean_real (hx : ∀ c n, ∃ r : ℝ, x c n = (r : EReal)) (g : Fin 32) : ∃ r : ℝ, Cert.Spec.mean x g = (r : EReal) := by
  choose xr hxr using hx
  refine ⟨(∑ k : Fin 49152, xr (gchan g k) (gpix k)) * (1 / 49152), ?_⟩
  unfold Cert.Spec.mean
  rw [hz, hn, zero_add, Ideal.div_coe (by norm_num)]
  simp only [hxr, coe_sum, ← EReal.coe_mul]

include hz hn in
/-- The variance of a group of real entries is a non-negative real. -/
theorem var_real (hx : ∀ c n, ∃ r : ℝ, x c n = (r : EReal)) (g : Fin 32) :
    ∃ r : ℝ, 0 ≤ r ∧ Cert.Spec.var x g = (r : EReal) := by
  obtain ⟨μ, hμ⟩ := mean_real x hz hn hx g
  choose xr hxr using hx
  refine ⟨(∑ k : Fin 49152, (xr (gchan g k) (gpix k) - μ) * (xr (gchan g k) (gpix k) - μ)) * (1 / 49152), ?_, ?_⟩
  · exact mul_nonneg (Finset.sum_nonneg fun k _ => mul_self_nonneg _) (by norm_num)
  · unfold Cert.Spec.var
    rw [hz, hn, zero_add, Ideal.div_coe (by norm_num), hμ]
    simp only [hxr, ← EReal.coe_sub, ← EReal.coe_mul, coe_sum]

include hz hn in
/-- The reciprocal deviation of a group of real entries is real, given that ε is a positive real. -/
theorem rstd_real (hx : ∀ c n, ∃ r : ℝ, x c n = (r : EReal)) (hε : ∃ e : ℝ, 0 < e ∧ Cert.Spec.eps = (e : EReal))
    (g : Fin 32) : ∃ r : ℝ, Cert.Spec.rstd x g = (r : EReal) := by
  obtain ⟨v, hv0, hv⟩ := var_real x hz hn hx g
  obtain ⟨e, he0, he⟩ := hε
  refine ⟨(Real.sqrt (v + e))⁻¹, ?_⟩
  unfold Cert.Spec.rstd
  rw [hv, he, ← EReal.coe_add, Ideal.rsqrt_coe, if_neg (by linarith), if_neg (by linarith)]

end

end Cert.Spec.Alg

end
-- ==== Proof.Bridge.lean ====
/-
  The two arrangements are one function on real inputs.

  Entry by entry: the folded normalisation `x·(rstd·w) + (b − mean·(rstd·w))` is `((x − mean)·rstd)·w + b` because all
  five numbers are real; hence grouped row `o` of the projection is interleaved row `reord o`; the scores agree because
  dividing by `√64 = 8` is multiplying by `1/8`; and everything after the scores is the same expression of them.
-/
import proofs.«113005_j19404662243884_2_alg».proof.Proof.KSpec
import proofs.«113005_j19404662243884_2_alg».proof.Proof.Algebra
import proofs.«113005_j19404662243884_2_alg».proof.Proof.LitFacts

noncomputable section

open Idealize.ShloMosaic
open scoped BigOperators

namespace Cert.Bridge

open Cert.Spec Cert.KSpec Cert.Spec.Alg Cert.Spec.Lit

section
variable (x : Fin 512 → Fin 3072 → EReal) (nw nb : Fin 512 → EReal)
  (qw : Fin 1536 → Fin 512 → EReal) (qb : Fin 1536 → EReal)
  (pw : Fin 512 → Fin 512 → EReal) (pb : Fin 512 → EReal)
variable (hx : ∀ c n, ∃ r : ℝ, x c n = (r : EReal)) (hw : ∀ c, ∃ r : ℝ, nw c = (r : EReal)) (hb : ∀ c, ∃ r : ℝ, nb c = (r : EReal))

include hx hw hb in
/-- The folded normalisation is the plain one. -/
theorem fold_eq (c : Fin 512) (n : Fin 3072) :
    x c n * scale x nw c + shift x nw nb c = xn x nw nb c n := by
  obtain ⟨xr, hxr⟩ := hx c n
  obtain ⟨wr, hwr⟩ := hw c
  obtain ⟨br, hbr⟩ := hb c
  obtain ⟨μ, hμ⟩ := mean_real x z0_eq n49152_eq hx (grp c)
  obtain ⟨s, hs⟩ := rstd_real x z0_eq n49152_eq hx eps_real (grp c)
  unfold scale shift xn
  rw [hxr, hwr, hbr, hμ, hs]
  exact gn_fold xr μ s wr br

include hx hw hb in
/-- Grouped row `o` of the projection is interleaved row `reord o`. -/
theorem k43_eq (o : Fin 1536) (n : Fin 3072) : k43 x nw nb qw qb o n = qkv x nw nb qw qb (reord o) n := by
  unfold k43 qkv
  refine congrArg (· + qb (reord o)) (Finset.sum_congr rfl fun c _ => ?_)
  rw [fold_eq x nw nb hx hw hb c n]

/-- Dividing by the square root of the word 64 is multiplying by the word for 1/8. -/
theorem div_sqrt_c64 (t : EReal) : Ideal.div t (Ideal.sqrt c64) = t * eighth := by
  rw [sqrt_c64, div8, ← eighth_eq]

include hx hw hb in
/-- The scores agree: the grouped query and key rows are the interleaved ones, and the two scalings are one. -/
theorem ksc_eq (h : Fin 8) (i j : Fin 3072) : ksc (k43 x nw nb qw qb) h i j = sc x nw nb qw qb h i j := by
  unfold ksc sc
  rw [div_sqrt_c64]
  refine congrArg (· * eighth) (Finset.sum_congr rfl fun d _ => ?_)
  rw [k43_eq x nw nb qw qb hx hw hb, k43_eq x nw nb qw qb hx hw hb, reord_grow, reord_grow]

include hx hw hb in
/-- Equal score rows have equal maxima. -/
theorem kmx_eq (h : Fin 8) (i : Fin 3072) : kmx (k43 x nw nb qw qb) h i = mx x nw nb qw qb h i := by
  unfold kmx mx
  exact congrArg _ (funext fun j => ksc_eq x nw nb qw qb hx hw hb h i j)

include hx hw hb in
/-- Equal scores and maxima give equal exponentials. -/
theorem kex_eq (h : Fin 8) (i j : Fin 3072) : kex (k43 x nw nb qw qb) h i j = ex x nw nb qw qb h i j := by
  unfold kex ex
  rw [ksc_eq x nw nb qw qb hx hw hb, kmx_eq x nw nb qw qb hx hw hb]

include hx hw hb in
/-- Equal exponentials have equal row sums. -/
theorem kden_eq (h : Fin 8) (i : Fin 3072) : kden (k43 x nw nb qw qb) h i = den x nw nb qw qb h i := by
  unfold kden den
  exact congrArg (z0 + ·) (Finset.sum_congr rfl fun j _ => kex_eq x nw nb qw qb hx hw hb h i j)

include hx hw hb in
/-- Equal exponentials and row sums give equal weights. -/
theorem kwt_eq (h : Fin 8) (i j : Fin 3072) : kwt (k43 x nw nb qw qb) h i j = wt x nw nb qw qb h i j := by
  unfold kwt wt
  rw [kex_eq x nw nb qw qb hx hw hb, kden_eq x nw nb qw qb hx hw hb]

include hx hw hb in
/-- The attended values agree: channel `c` is head `c / 64`, channel `c % 64`. -/
theorem k44_eq (c : Fin 512) (i : Fin 3072) :
    k44 (k43 x nw nb qw qb) c i = att x nw nb qw qb (hd c) (dm c) i := by
  unfold k44 att
  refine Finset.sum_congr rfl fun j _ => ?_
  rw [k43_eq x nw nb qw qb hx hw hb, reord_grow, kwt_eq x nw nb qw qb hx hw hb]

include hx hw hb in
/-- The kernel-side function is the specification, on real inputs. -/
theorem kout_eq_spec (c : Fin 512) (n : Fin 3072) :
    kout x nw nb qw qb pw pb c n = out x nw nb qw qb pw pb c n := by
  unfold kout k47 out
  refine congrArg (· + pb c) (congrArg (x c n + ·) (Finset.sum_congr rfl fun c' _ => ?_))
  rw [k44_eq x nw nb qw qb hx hw hb]

end

end Cert.Bridge

end
-- ==== Proof.KFinal.lean ====
/-
  Composing the three stages. If the first stage's array is the grouped projection of the arguments, the second's the
  attended values of the first, and the third's the residual projection of the second, then on real inputs the third
  array is the specification of the seven argument arrays.
-/
import proofs.«113005_j19404662243884_2_alg».proof.Proof.Bridge
import Idealize.ShloMosaic.Lib.ValueIdx

noncomputable section

open Idealize.ShloMosaic Idealize.ShloMosaic.ValueIdx
open scoped BigOperators

namespace Cert.KFinal

open Cert.Spec Cert.KSpec

/-- Three arrays that are, in turn, the grouped projection of the arguments, the attended values of the first and the
    residual projection of the second: on real inputs the third is the specification of the arguments. -/
theorem gout_of_stages
    (a0 : (⟨2, ![512, 3072]⟩ : Shape).Idx → EReal) (a1 a2 : (⟨1, ![512]⟩ : Shape).Idx → EReal)
    (a3 : (⟨2, ![1536, 512]⟩ : Shape).Idx → EReal) (a4 : (⟨1, ![1536]⟩ : Shape).Idx → EReal)
    (a5 : (⟨2, ![512, 512]⟩ : Shape).Idx → EReal) (a6 : (⟨1, ![512]⟩ : Shape).Idx → EReal)
    (o4 : (⟨2, ![1536, 3072]⟩ : Shape).Idx → EReal) (o5 o7 : (⟨2, ![512, 3072]⟩ : Shape).Idx → EReal)
    (h4 : o4 = fun i => k43 (fun c n => a0 (ix2 c n)) (fun c => a1 (ix1 c)) (fun c => a2 (ix1 c)) (fun o c => a3 (ix2 o c))
      (fun o => a4 (ix1 o)) (i 0) (i 1))
    (h5 : o5 = fun i => k44 (fun o n => o4 (ix2 o n)) (i 0) (i 1))
    (h7 : o7 = fun i => k47 (fun c n => a0 (ix2 c n)) (fun c' n => o5 (ix2 c' n)) (fun c c' => a5 (ix2 c c')) (fun c => a6 (ix1 c)) (i 0) (i 1))
    (hr0 : ∀ i, ∃ r : ℝ, a0 i = (r : EReal)) (hr1 : ∀ i, ∃ r : ℝ, a1 i = (r : EReal)) (hr2 : ∀ i, ∃ r : ℝ, a2 i = (r : EReal)) :
    o7 = Gout a0 a1 a2 a3 a4 a5 a6 := by
  subst h4 h5 h7
  funext i
  exact Cert.Bridge.kout_eq_spec (fun c n => a0 (ix2 c n)) (fun c => a1 (ix1 c)) (fun c => a2 (ix1 c)) (fun o c => a3 (ix2 o c))
    (fun o => a4 (ix1 o)) (fun c c' => a5 (ix2 c c')) (fun c => a6 (ix1 c))
    (fun c n => hr0 (ix2 c n)) (fun c => hr1 (ix1 c)) (fun c => hr2 (ix1 c)) (i 0) (i 1)

end Cert.KFinal

end
-- ==== Proof.Finite.lean ====
/-
  From the precondition to real numbers. The precondition is the conjunction, over the seven argument arrays, of
  "every entry's absolute value is below +∞". An extended real `v` with `max v (−v) < ⊤` is neither `⊤` nor `⊥`, so it
  is a real number; a conjunction over an array that is true is true at every index.
-/
import proofs.«113005_j19404662243884_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Finite

/-- The scalar shape has one index. -/
instance subsingleton_scalar_idx : Subsingleton (⟨0, ![]⟩ : Shape).Idx := ⟨fun a b => funext fun d => d.elim0⟩

/-- An extended real whose absolute value is below the positive-infinity word is a real number. -/
theorem real_of_abs_lt_inf (v : EReal)
    (e : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at e
  induction v using EReal.rec with
  | bot => simp [Ideal.cmp] at e
  | coe r => exact ⟨r, rfl⟩
  | top => simp [Ideal.cmp] at e

/-- If the conjunction over a whole array of "absolute value below infinity" is true, every entry is real. -/
theorem real_of_all {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
          (constantI ⟨0, ![]⟩ 1 1#1) hr hu ix0 = 1#1) (i : s.Idx) : ∃ r : ℝ, a i = (r : EReal) := by
  have h1 := Host.reduce_andi_all _ _ hr hu ix0 e i
  refine real_of_abs_lt_inf (a i) ?_
  have hbc : broadcastInDim s ![] hb (constant (F := Ideal) ⟨0, ![]⟩ .f32 0x7F800000#32) i = Ideal.ofBits .f32 0x7F800000#32 :=
    broadcastInDim_apply _ hb _ i ix0 (fun d => d.elim0)
  rw [← hbc]
  exact h1

/-- A pointwise conjunction of one-bit arrays is 1 at an index exactly when both are. -/
theorem vandi_eq_one {s : Shape} (x y : IVec s 1) (i : s.Idx) : andi x y i = 1#1 ↔ x i = 1#1 ∧ y i = 1#1 :=
  IntOp.andi_eq_one

open Cert.Pre_finite_inputs in
/-- Under the precondition every entry of every argument array is a real number. -/
theorem args_real [hP : Cert.Pre_finite_inputs.Facts] (a0 : FVec Ideal S512x3072 .f32) (a1 a2 : FVec Ideal S512 .f32)
    (a3 : FVec Ideal S1536x512 .f32) (a4 : FVec Ideal S1536 .f32) (a5 : FVec Ideal S512x512 .f32) (a6 : FVec Ideal S512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ix0
  dsimp only [Cert.Pre_finite_inputs.fn, Cert.Pre_finite_inputs.fn_part1] at h0
  simp only [vandi_eq_one] at h0
  obtain ⟨⟨⟨⟨⟨⟨e0, e1⟩, e2⟩, e3⟩, e4⟩, e5⟩, e6⟩ := h0
  exact ⟨real_of_all a0 _ _ _ e0, real_of_all a1 _ _ _ e1, real_of_all a2 _ _ _ e2, real_of_all a3 _ _ _ e3,
    real_of_all a4 _ _ _ e4, real_of_all a5 _ _ _ e5, real_of_all a6 _ _ _ e6⟩

end Cert.Finite

end
-- ==== Proof.ClaimsKernel.lean ====
/-
  The idealized kernel program's run with its result named as the specification of the launch contents.

  The run names the result array as what the third region leaves; the three regions' arrays are the grouped projection
  of the arguments, the attended values of that, and the residual projection of those; under the precondition the
  entries of the input and of the two normalisation parameters are real numbers, and on real inputs that composition
  is the specification.
-/
import proofs.«113005_j19404662243884_2_alg».proof.Defs
import proofs.«113005_j19404662243884_2_alg».proof.Proof.Gen.KernelIdeal
import proofs.«113005_j19404662243884_2_alg».proof.Proof.Gen.Pre_finite_inputs
import proofs.«113005_j19404662243884_2_alg».proof.Proof.Run
import proofs.«113005_j19404662243884_2_alg».proof.Proof.ValK
import proofs.«113005_j19404662243884_2_alg».proof.Proof.KHost3
import proofs.«113005_j19404662243884_2_alg».proof.Proof.KHost4
import proofs.«113005_j19404662243884_2_alg».proof.Proof.KHostScale
import proofs.«113005_j19404662243884_2_alg».proof.Proof.KFinal
import proofs.«113005_j19404662243884_2_alg».proof.Proof.Finite

noncomputable section

open Idealize.ShloMosaic Idealize.ShloMosaic.TcCoe Idealize.SL.Sem

namespace Cert.Proof.KernelClaims

open Cert.KernelIdeal in
/-- Under the precondition the idealized kernel program ends with the specification of its launch contents as its
    result, its arguments unchanged. -/
theorem run_spec (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v47)
        = Cert.Spec.Gout (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  obtain ⟨outs, hrun, h4, h5, h7⟩ := Cert.KernelIdeal.Hand.run_named (F := Ideal) m ρ
  refine (θ_run defs _ _).mono (fun r h c => ⟨(h c).1.trans ?_, (h c).2⟩) hrun
  obtain ⟨hr0, hr1, hr2, -⟩ := Cert.Finite.args_real _ _ _ _ _ _ _ (hpre c)
  exact Cert.KFinal.gout_of_stages _ _ _ _ _ _ _ (outs 4 main_v43 c) (outs 5 main_v44 c) (outs 7 main_v47 c)
    ((h4 c).trans (Cert.KernelIdeal.KVal.arr43_of m outs c _ _ _ _ _ (Cert.KernelIdeal.KHost.V3_arg0 m c)
      (Cert.KernelIdeal.KHost.Stat.V3_scale m c) (Cert.KernelIdeal.KHost.Stat.V3_shift m c)
      (Cert.KernelIdeal.KHost.V3_v42 m c) (Cert.KernelIdeal.KHost.V3_v41 m c)))
    ((h5 c).trans (Cert.KernelIdeal.KVal.arr44 m outs c))
    ((h7 c).trans (Cert.KernelIdeal.KVal.arr47 m outs c))
    hr0 hr1 hr2

end Cert.Proof.KernelClaims

end
-- ==== Proof.lean ====
/-
  The kernel normalises each group of 16 channels of a [512, 3072] input, projects the result to 1536 rows of
  queries, keys and values for 8 heads of 64 channels, attends with a softmax over the 3072 positions, and adds the
  projection of the attended values and its bias to the input — as three grid computations around operations on whole
  arrays; the reference computes the same with whole-array operations only.

  Both are shown to end holding one function of the seven argument arrays (Proof/Spec.lean). The reference's run is
  read back operation by operation in its own arrangement. The kernel program differs in three ways: the normalisation
  is folded into a per-channel scale and shift, which agrees with the plain form because under the precondition every
  entry is a real number (distributivity fails at the infinities); the projected rows are grouped by part instead of
  interleaved; and the scores are multiplied by 1/8 instead of divided by the square root of 64. Its three frames hold
  because each region's body loads whole blocks, computes, and stores one whole block, the three windows of the
  second region reading one array through shares of it. The ideal pass rewrote nothing, so there is nothing to
  preserve.
-/
import proofs.«113005_j19404662243884_2_alg».proof.Defs
import proofs.«113005_j19404662243884_2_alg».proof.Proof.Gen.Kernel
import proofs.«113005_j19404662243884_2_alg».proof.Proof.Gen.KernelIdeal
import proofs.«113005_j19404662243884_2_alg».proof.Proof.Gen.ReferenceIdeal
import proofs.«113005_j19404662243884_2_alg».proof.Proof.Gen.Pre_finite_inputs
import proofs.«113005_j19404662243884_2_alg».proof.Proof.ClaimsFrame
import proofs.«113005_j19404662243884_2_alg».proof.Proof.ClaimsRef
import proofs.«113005_j19404662243884_2_alg».proof.Proof.ClaimsKernel

noncomputable section

namespace Cert.Proof

open Idealize.ShloMosaic Idealize.SL.Sem

/-- From memories that agree on the arguments both idealized programs end with the specification of those
    arguments as their result. -/
theorem algebraic : Cert.algebraic_KernelIdeal_ReferenceIdeal := by
  intro m ρ m' ρ' hpre hagree
  refine ⟨_, KernelClaims.run_spec m ρ hpre, ?_⟩
  refine (θ_run Cert.ReferenceIdeal.defs _ _).mono (fun r h c => ⟨?_, (h c).2⟩) (RefClaims.run_spec m' ρ')
  rw [(h c).1, (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    FrameClaims.frame_k, FrameClaims.frame_ki, RefClaims.frame_ri, RefClaims.preserves, algebraic⟩

end Cert.Proof

end
